-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22)) (m ((c.tc : Thread Cert.Kernel.nD Cert.Kernel.τ).loc Cert.Kernel.main_arg23)) (m ((c.tc : Thread Cert.Kernel.nD Cert.Kernel.τ).loc Cert.Kernel.main_arg24))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23)
      ∧ r.2.mem ((c.tc : Thread Cert.Kernel.nD Cert.Kernel.τ).loc Cert.Kernel.main_arg24) = m ((c.tc : Thread Cert.Kernel.nD Cert.Kernel.τ).loc Cert.Kernel.main_arg24))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)) →
    ∃ (v0 : (c : Dev Cert.KernelIdeal.nD) → Buf (Elt Ideal) ((c.tc : Thread Cert.KernelIdeal.nD Cert.KernelIdeal.τ).loc Cert.KernelIdeal.main_v48)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v48) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
          ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v132) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23)
          ∧ r.2.mem ((c.tc : Thread Cert.ReferenceIdeal.nD Cert.ReferenceIdeal.τ).loc Cert.ReferenceIdeal.main_arg24) = m' ((c.tc : Thread Cert.ReferenceIdeal.nD Cert.ReferenceIdeal.τ).loc Cert.ReferenceIdeal.main_arg24))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part6 {F : FTy → Type} [FloatOps F] (main_arg22 : FVec F S128 .f32) (main_arg23 : FVec F S128x64 .f32) (main_arg24 : FVec F S64 .f32) (main_v98 : IVec S_ 1) (main_v101 : IVec S128 1) (main_c_39 : IVec S_ 1) : IVec S_ 1 :=
  let main_v102 : IVec S_ 1 := (fun x v => Host.reduce IntOp.andi x v reducesTo_S128_S_d0 h_S_) main_v101 main_c_39
  let main_v103 : IVec S_ 1 := andi main_v98 main_v102
  let main_v104 : FVec F S128 .f32 := Host.absf main_arg22
  let main_cst_40 : FVec F S_ .f32 := constant S_ .f32 0x7F800000#32
  let main_v105 : FVec F S128 .f32 := broadcastInDim S128 ![] bcast_S_S128 main_cst_40
  let main_v106 : IVec S128 1 := cmpf .olt main_v104 main_v105
  let main_c_41 : IVec S_ 1 := constantI S_ 1 1#1
  let main_v107 : IVec S_ 1 := (fun x v => Host.reduce IntOp.andi x v reducesTo_S128_S_d0 h_S_) main_v106 main_c_41
  let main_v108 : IVec S_ 1 := andi main_v103 main_v107
  let main_v109 : FVec F S128x64 .f32 := Host.absf main_arg23
  let main_cst_42 : FVec F S_ .f32 := constant S_ .f32 0x7F800000#32
  let main_v110 : FVec F S128x64 .f32 := broadcastInDim S128x64 ![] bcast_S_S128x64 main_cst_42
  let main_v111 : IVec S128x64 1 := cmpf .olt main_v109 main_v110
  let main_c_43 : IVec S_ 1 := constantI S_ 1 1#1
  let main_v112 : IVec S_ 1 := (fun x v => Host.reduce IntOp.andi x v reducesTo_S128x64_S_d0_1 h_S_) main_v111 main_c_43
  let main_v113 : IVec S_ 1 := andi main_v108 main_v112
  let main_v114 : FVec F S64 .f32 := Host.absf main_arg24
  let main_cst_44 : FVec F S_ .f32 := constant S_ .f32 0x7F800000#32
  let main_v115 : FVec F S64 .f32 := broadcastInDim S64 ![] bcast_S_S64 main_cst_44
  let main_v116 : IVec S64 1 := cmpf .olt main_v114 main_v115
  let main_c_45 : IVec S_ 1 := constantI S_ 1 1#1
  let main_v117 : IVec S_ 1 := (fun x v => Host.reduce IntOp.andi x v reducesTo_S64_S_d0 h_S_) main_v116 main_c_45
  let main_v118 : IVec S_ 1 := andi main_v113 main_v117
  main_v118

def fn_part5 {F : FTy → Type} [FloatOps F] (main_arg19 : FVec F S128 .f32) (main_arg20 : FVec F S128 .f32) (main_arg21 : FVec F S128 .f32) (main_arg22 : FVec F S128 .f32) (main_arg23 : FVec F S128x64 .f32) (main_arg24 : FVec F S64 .f32) (main_v83 : IVec S_ 1) (main_v84 : FVec F S128x128 .f32) (main_cst_32 : FVec F S_ .f32) : IVec S_ 1 :=
  let main_v85 : FVec F S128x128 .f32 := broadcastInDim S128x128 ![] bcast_S_S128x128 main_cst_32
  let main_v86 : IVec S128x128 1 := cmpf .olt main_v84 main_v85
  let main_c_33 : IVec S_ 1 := constantI S_ 1 1#1
  let main_v87 : IVec S_ 1 := (fun x v => Host.reduce IntOp.andi x v reducesTo_S128x128_S_d0_1 h_S_) main_v86 main_c_33
  let main_v88 : IVec S_ 1 := andi main_v83 main_v87
  let main_v89 : FVec F S128 .f32 := Host.absf main_arg19
  let main_cst_34 : FVec F S_ .f32 := constant S_ .f32 0x7F800000#32
  let main_v90 : FVec F S128 .f32 := broadcastInDim S128 ![] bcast_S_S128 main_cst_34
  let main_v91 : IVec S128 1 := cmpf .olt main_v89 main_v90
  let main_c_35 : IVec S_ 1 := constantI S_ 1 1#1
  let main_v92 : IVec S_ 1 := (fun x v => Host.reduce IntOp.andi x v reducesTo_S128_S_d0 h_S_) main_v91 main_c_35
  let main_v93 : IVec S_ 1 := andi main_v88 main_v92
  let main_v94 : FVec F S128 .f32 := Host.absf main_arg20
  let main_cst_36 : FVec F S_ .f32 := constant S_ .f32 0x7F800000#32
  let main_v95 : FVec F S128 .f32 := broadcastInDim S128 ![] bcast_S_S128 main_cst_36
  let main_v96 : IVec S128 1 := cmpf .olt main_v94 main_v95
  let main_c_37 : IVec S_ 1 := constantI S_ 1 1#1
  let main_v97 : IVec S_ 1 := (fun x v => Host.reduce IntOp.andi x v reducesTo_S128_S_d0 h_S_) main_v96 main_c_37
  let main_v98 : IVec S_ 1 := andi main_v93 main_v97
  let main_v99 : FVec F S128 .f32 := Host.absf main_arg21
  let main_cst_38 : FVec F S_ .f32 := constant S_ .f32 0x7F800000#32
  let main_v100 : FVec F S128 .f32 := broadcastInDim S128 ![] bcast_S_S128 main_cst_38
  let main_v101 : IVec S128 1 := cmpf .olt main_v99 main_v100
  let main_c_39 : IVec S_ 1 := constantI S_ 1 1#1
  fn_part6 (F := F) main_arg22 main_arg23 main_arg24 main_v98 main_v101 main_c_39

def fn_part4 {F : FTy → Type} [FloatOps F] (main_arg15 : FVec F S128 .f32) (main_arg16 : FVec F S128x128 .f32) (main_arg17 : FVec F S128 .f32) (main_arg18 : FVec F S128x128 .f32) (main_arg19 : FVec F S128 .f32) (main_arg20 : FVec F S128 .f32) (main_arg21 : FVec F S128 .f32) (main_arg22 : FVec F S128 .f32) (main_arg23 : FVec F S128x64 .f32) (main_arg24 : FVec F S64 .f32) (main_v63 : IVec S_ 1) (main_v67 : IVec S_ 1) : IVec S_ 1 :=
  let main_v68 : IVec S_ 1 := andi main_v63 main_v67
  let main_v69 : FVec F S128 .f32 := Host.absf main_arg15
  let main_cst_26 : FVec F S_ .f32 := constant S_ .f32 0x7F800000#32
  let main_v70 : FVec F S128 .f32 := broadcastInDim S128 ![] bcast_S_S128 main_cst_26
  let main_v71 : IVec S128 1 := cmpf .olt main_v69 main_v70
  let main_c_27 : IVec S_ 1 := constantI S_ 1 1#1
  let main_v72 : IVec S_ 1 := (fun x v => Host.reduce IntOp.andi x v reducesTo_S128_S_d0 h_S_) main_v71 main_c_27
  let main_v73 : IVec S_ 1 := andi main_v68 main_v72
  let main_v74 : FVec F S128x128 .f32 := Host.absf main_arg16
  let main_cst_28 : FVec F S_ .f32 := constant S_ .f32 0x7F800000#32
  let main_v75 : FVec F S128x128 .f32 := broadcastInDim S128x128 ![] bcast_S_S128x128 main_cst_28
  let main_v76 : IVec S128x128 1 := cmpf .olt main_v74 main_v75
  let main_c_29 : IVec S_ 1 := constantI S_ 1 1#1
  let main_v77 : IVec S_ 1 := (fun x v => Host.reduce IntOp.andi x v reducesTo_S128x128_S_d0_1 h_S_) main_v76 main_c_29
  let main_v78 : IVec S_ 1 := andi main_v73 main_v77
  let main_v79 : FVec F S128 .f32 := Host.absf main_arg17
  let main_cst_30 : FVec F S_ .f32 := constant S_ .f32 0x7F800000#32
  let main_v80 : FVec F S128 .f32 := broadcastInDim S128 ![] bcast_S_S128 main_cst_30
  let main_v81 : IVec S128 1 := cmpf .olt main_v79 main_v80
  let main_c_31 : IVec S_ 1 := constantI S_ 1 1#1
  let main_v82 : IVec S_ 1 := (fun x v => Host.reduce IntOp.andi x v reducesTo_S128_S_d0 h_S_) main_v81 main_c_31
  let main_v83 : IVec S_ 1 := andi main_v78 main_v82
  let main_v84 : FVec F S128x128 .f32 := Host.absf main_arg18
  let main_cst_32 : FVec F S_ .f32 := constant S_ .f32 0x7F800000#32
  fn_part5 (F := F) main_arg19 main_arg20 main_arg21 main_arg22 main_arg23 main_arg24 main_v83 main_v84 main_cst_32

def fn_part3 {F : FTy → Type} [FloatOps F] (main_arg12 : FVec F S128 .f32) (main_arg13 : FVec F S128 .f32) (main_arg14 : FVec F S128 .f32) (main_arg15 : FVec F S128 .f32) (main_arg16 : FVec F S128x128 .f32) (main_arg17 : FVec F S128 .f32) (main_arg18 : FVec F S128x128 .f32) (main_arg19 : FVec F S128 .f32) (main_arg20 : FVec F S128 .f32) (main_arg21 : FVec F S128 .f32) (main_arg22 : FVec F S128 .f32) (main_arg23 : FVec F S128x64 .f32) (main_arg24 : FVec F S64 .f32) (main_v48 : IVec S_ 1) (main_v49 : FVec F S128x128 .f32) (main_v50 : FVec F S128x128 .f32) : IVec S_ 1 :=
  let main_v51 : IVec S128x128 1 := cmpf .olt main_v49 main_v50
  let main_c_19 : IVec S_ 1 := constantI S_ 1 1#1
  let main_v52 : IVec S_ 1 := (fun x v => Host.reduce IntOp.andi x v reducesTo_S128x128_S_d0_1 h_S_) main_v51 main_c_19
  let main_v53 : IVec S_ 1 := andi main_v48 main_v52
  let main_v54 : FVec F S128 .f32 := Host.absf main_arg12
  let main_cst_20 : FVec F S_ .f32 := constant S_ .f32 0x7F800000#32
  let main_v55 : FVec F S128 .f32 := broadcastInDim S128 ![] bcast_S_S128 main_cst_20
  let main_v56 : IVec S128 1 := cmpf .olt main_v54 main_v55
  let main_c_21 : IVec S_ 1 := constantI S_ 1 1#1
  let main_v57 : IVec S_ 1 := (fun x v => Host.reduce IntOp.andi x v reducesTo_S128_S_d0 h_S_) main_v56 main_c_21
  let main_v58 : IVec S_ 1 := andi main_v53 main_v57
  let main_v59 : FVec F S128 .f32 := Host.absf main_arg13
  let main_cst_22 : FVec F S_ .f32 := constant S_ .f32 0x7F800000#32
  let main_v60 : FVec F S128 .f32 := broadcastInDim S128 ![] bcast_S_S128 main_cst_22
  let main_v61 : IVec S128 1 := cmpf .olt main_v59 main_v60
  let main_c_23 : IVec S_ 1 := constantI S_ 1 1#1
  let main_v62 : IVec S_ 1 := (fun x v => Host.reduce IntOp.andi x v reducesTo_S128_S_d0 h_S_) main_v61 main_c_23
  let main_v63 : IVec S_ 1 := andi main_v58 main_v62
  let main_v64 : FVec F S128 .f32 := Host.absf main_arg14
  let main_cst_24 : FVec F S_ .f32 := constant S_ .f32 0x7F800000#32
  let main_v65 : FVec F S128 .f32 := broadcastInDim S128 ![] bcast_S_S128 main_cst_24
  let main_v66 : IVec S128 1 := cmpf .olt main_v64 main_v65
  let main_c_25 : IVec S_ 1 := constantI S_ 1 1#1
  let main_v67 : IVec S_ 1 := (fun x v => Host.reduce IntOp.andi x v reducesTo_S128_S_d0 h_S_) main_v66 main_c_25
  fn_part4 (F := F) main_arg15 main_arg16 main_arg17 main_arg18 main_arg19 main_arg20 main_arg21 main_arg22 main_arg23 main_arg24 main_v63 main_v67

def fn_part2 {F : FTy → Type} [FloatOps F] (main_arg8 : FVec F S128 .f32) (main_arg9 : FVec F S128x128 .f32) (main_arg10 : FVec F S128 .f32) (main_arg11 : FVec F S128x128 .f32) (main_arg12 : FVec F S128 .f32) (main_arg13 : FVec F S128 .f32) (main_arg14 : FVec F S128 .f32) (main_arg15 : FVec F S128 .f32) (main_arg16 : FVec F S128x128 .f32) (main_arg17 : FVec F S128 .f32) (main_arg18 : FVec F S128x128 .f32) (main_arg19 : FVec F S128 .f32) (main_arg20 : FVec F S128 .f32) (main_arg21 : FVec F S128 .f32) (main_arg22 : FVec F S128 .f32) (main_arg23 : FVec F S128x64 .f32) (main_arg24 : FVec F S64 .f32) (main_v33 : IVec S_ 1) : IVec S_ 1 :=
  let main_v34 : FVec F S128 .f32 := Host.absf main_arg8
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128x128 .f32 := Host.absf main_arg9
  let main_cst_14 : FVec F S_ .f32 := constant S_ .f32 0x7F800000#32
  let main_v40 : FVec F S128x128 .f32 := broadcastInDim S128x128 ![] bcast_S_S128x128 main_cst_14
  let main_v41 : IVec S128x128 1 := cmpf .olt main_v39 main_v40
  let main_c_15 : IVec S_ 1 := constantI S_ 1 1#1
  let main_v42 : IVec S_ 1 := (fun x v => Host.reduce IntOp.andi x v reducesTo_S128x128_S_d0_1 h_S_) main_v41 main_c_15
  let main_v43 : IVec S_ 1 := andi main_v38 main_v42
  let main_v44 : FVec F S128 .f32 := Host.absf main_arg10
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S128x128 .f32 := Host.absf main_arg11
  let main_cst_18 : FVec F S_ .f32 := constant S_ .f32 0x7F800000#32
  let main_v50 : FVec F S128x128 .f32 := broadcastInDim S128x128 ![] bcast_S_S128x128 main_cst_18
  fn_part3 (F := F) main_arg12 main_arg13 main_arg14 main_arg15 main_arg16 main_arg17 main_arg18 main_arg19 main_arg20 main_arg21 main_arg22 main_arg23 main_arg24 main_v48 main_v49 main_v50

def fn_part1 {F : FTy → Type} [FloatOps F] (main_arg5 : FVec F S128 .f32) (main_arg6 : FVec F S128 .f32) (main_arg7 : FVec F S128 .f32) (main_arg8 : FVec F S128 .f32) (main_arg9 : FVec F S128x128 .f32) (main_arg10 : FVec F S128 .f32) (main_arg11 : FVec F S128x128 .f32) (main_arg12 : FVec F S128 .f32) (main_arg13 : FVec F S128 .f32) (main_arg14 : FVec F S128 .f32) (main_arg15 : FVec F S128 .f32) (main_arg16 : FVec F S128x128 .f32) (main_arg17 : FVec F S128 .f32) (main_arg18 : FVec F S128x128 .f32) (main_arg19 : FVec F S128 .f32) (main_arg20 : FVec F S128 .f32) (main_arg21 : FVec F S128 .f32) (main_arg22 : FVec F S128 .f32) (main_arg23 : FVec F S128x64 .f32) (main_arg24 : FVec F S64 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128 .f32 := Host.absf main_arg7
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg8 main_arg9 main_arg10 main_arg11 main_arg12 main_arg13 main_arg14 main_arg15 main_arg16 main_arg17 main_arg18 main_arg19 main_arg20 main_arg21 main_arg22 main_arg23 main_arg24 main_v33

def fn {F : FTy → Type} [FloatOps F] (main_arg0 : FVec F S100000x128 .f32) (main_arg1 : IVec S2x1600000 32) (main_arg2 : FVec F S128x128 .f32) (main_arg3 : FVec F S128 .f32) (main_arg4 : FVec F S128x128 .f32) (main_arg5 : FVec F S128 .f32) (main_arg6 : FVec F S128 .f32) (main_arg7 : FVec F S128 .f32) (main_arg8 : FVec F S128 .f32) (main_arg9 : FVec F S128x128 .f32) (main_arg10 : FVec F S128 .f32) (main_arg11 : FVec F S128x128 .f32) (main_arg12 : FVec F S128 .f32) (main_arg13 : FVec F S128 .f32) (main_arg14 : FVec F S128 .f32) (main_arg15 : FVec F S128 .f32) (main_arg16 : FVec F S128x128 .f32) (main_arg17 : FVec F S128 .f32) (main_arg18 : FVec F S128x128 .f32) (main_arg19 : FVec F S128 .f32) (main_arg20 : FVec F S128 .f32) (main_arg21 : FVec F S128 .f32) (main_arg22 : FVec F S128 .f32) (main_arg23 : FVec F S128x64 .f32) (main_arg24 : FVec F S64 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_arg6 main_arg7 main_arg8 main_arg9 main_arg10 main_arg11 main_arg12 main_arg13 main_arg14 main_arg15 main_arg16 main_arg17 main_arg18 main_arg19 main_arg20 main_arg21 main_arg22 main_arg23 main_arg24 main_v13 main_v16
-- ==== Kernel.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S1600000x128 : Shape := ⟨2, ![1600000, 128]⟩
abbrev S100000x1 : Shape := ⟨2, ![100000, 1]⟩
abbrev S10000x128 : Shape := ⟨2, ![10000, 128]⟩
abbrev S10000x1 : Shape := ⟨2, ![10000, 1]⟩
abbrev S1x128 : Shape := ⟨2, ![1, 128]⟩
abbrev S100000x64 : Shape := ⟨2, ![100000, 64]⟩
abbrev S10000x64 : Shape := ⟨2, ![10000, 64]⟩
abbrev S1x64 : Shape := ⟨2, ![1, 64]⟩

abbrev nBuf : Space → Nat
  | .hbm => 87
  | .vmem => 51
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128, .f32⟩
  | .hbm, ⟨7, _⟩ => ⟨S128, .f32⟩
  | .hbm, ⟨8, _⟩ => ⟨S128, .f32⟩
  | .hbm, ⟨9, _⟩ => ⟨S128x128, .f32⟩
  | .hbm, ⟨10, _⟩ => ⟨S128, .f32⟩
  | .hbm, ⟨11, _⟩ => ⟨S128x128, .f32⟩
  | .hbm, ⟨12, _⟩ => ⟨S128, .f32⟩
  | .hbm, ⟨13, _⟩ => ⟨S128, .f32⟩
  | .hbm, ⟨14, _⟩ => ⟨S128, .f32⟩
  | .hbm, ⟨15, _⟩ => ⟨S128, .f32⟩
  | .hbm, ⟨16, _⟩ => ⟨S128x128, .f32⟩
  | .hbm, ⟨17, _⟩ => ⟨S128, .f32⟩
  | .hbm, ⟨18, _⟩ => ⟨S128x128, .f32⟩
  | .hbm, ⟨19, _⟩ => ⟨S128, .f32⟩
  | .hbm, ⟨20, _⟩ => ⟨S128, .f32⟩
  | .hbm, ⟨21, _⟩ => ⟨S128, .f32⟩
  | .hbm, ⟨22, _⟩ => ⟨S128, .f32⟩
  | .hbm, ⟨23, _⟩ => ⟨S128x64, .f32⟩
  | .hbm, ⟨24, _⟩ => ⟨S64, .f32⟩
  | .hbm, ⟨25, _⟩ => ⟨S1x1600000, .i32⟩
  | .hbm, ⟨26, _⟩ => ⟨S1600000, .i32⟩
  | .hbm, ⟨27, _⟩ => ⟨S1x1600000, .i32⟩
  | .hbm, ⟨28, _⟩ => ⟨S1600000, .i32⟩
  | .hbm, ⟨29, _⟩ => ⟨S_, .f32⟩
  | .hbm, ⟨30, _⟩ => ⟨S1600000, .f32⟩
  | .hbm, ⟨31, _⟩ => ⟨S_, .f32⟩
  | .hbm, ⟨32, _⟩ => ⟨S100000, .f32⟩
  | .hbm, ⟨33, _⟩ => ⟨S1600000x1, .i32⟩
  | .hbm, ⟨34, _⟩ => ⟨S100000, .f32⟩
  | .hbm, ⟨35, _⟩ => ⟨S_, .f32⟩
  | .hbm, ⟨36, _⟩ => ⟨S100000, .f32⟩
  | .hbm, ⟨37, _⟩ => ⟨S100000, .f32⟩
  | .hbm, ⟨38, _⟩ => ⟨S_, .f32⟩
  | .hbm, ⟨39, _⟩ => ⟨S100000, .f32⟩
  | .hbm, ⟨40, _⟩ => ⟨S100000, .f32⟩
  | .hbm, ⟨41, _⟩ => ⟨S_, .i32⟩
  | .hbm, ⟨42, _⟩ => ⟨S1600000, .i32⟩
  | .hbm, ⟨43, _⟩ => ⟨S1600000, .i1⟩
  | .hbm, ⟨44, _⟩ => ⟨S_, .i32⟩
  | .hbm, ⟨45, _⟩ => ⟨S1600000, .i32⟩
  | .hbm, ⟨46, _⟩ => ⟨S1600000, .i32⟩
  | .hbm, ⟨47, _⟩ => ⟨S1600000, .i32⟩
  | .hbm, ⟨48, _⟩ => ⟨S1600000x1, .i32⟩
  | .hbm, ⟨49, _⟩ => ⟨S1600000x128, .f32⟩
  | .hbm, ⟨50, _⟩ => ⟨S_, .f32⟩
  | .hbm, ⟨51, _⟩ => ⟨S100000x128, .f32⟩
  | .hbm, ⟨52, _⟩ => ⟨S1600000x1, .i32⟩
  | .hbm, ⟨53, _⟩ => ⟨S100000x128, .f32⟩
  | .hbm, ⟨54, _⟩ => ⟨S100000x1, .f32⟩
  | .hbm, ⟨55, _⟩ => ⟨S100000x128, .f32⟩
  | .hbm, ⟨56, _⟩ => ⟨S_, .i32⟩
  | .hbm, ⟨57, _⟩ => ⟨S1600000, .i32⟩
  | .hbm, ⟨58, _⟩ => ⟨S1600000, .i1⟩
  | .hbm, ⟨59, _⟩ => ⟨S_, .i32⟩
  | .hbm, ⟨60, _⟩ => ⟨S1600000, .i32⟩
  | .hbm, ⟨61, _⟩ => ⟨S1600000, .i32⟩
  | .hbm, ⟨62, _⟩ => ⟨S1600000, .i32⟩
  | .hbm, ⟨63, _⟩ => ⟨S1600000x1, .i32⟩
  | .hbm, ⟨64, _⟩ => ⟨S1600000x128, .f32⟩
  | .hbm, ⟨65, _⟩ => ⟨S_, .f32⟩
  | .hbm, ⟨66, _⟩ => ⟨S100000x128, .f32⟩
  | .hbm, ⟨67, _⟩ => ⟨S1600000x1, .i32⟩
  | .hbm, ⟨68, _⟩ => ⟨S100000x128, .f32⟩
  | .hbm, ⟨69, _⟩ => ⟨S100000x1, .f32⟩
  | .hbm, ⟨70, _⟩ => ⟨S100000x128, .f32⟩
  | .hbm, ⟨71, _⟩ => ⟨S_, .i32⟩
  | .hbm, ⟨72, _⟩ => ⟨S1600000, .i32⟩
  | .hbm, ⟨73, _⟩ => ⟨S1600000, .i1⟩
  | .hbm, ⟨74, _⟩ => ⟨S_, .i32⟩
  | .hbm, ⟨75, _⟩ => ⟨S1600000, .i32⟩
  | .hbm, ⟨76, _⟩ => ⟨S1600000, .i32⟩
  | .hbm, ⟨77, _⟩ => ⟨S1600000, .i32⟩
  | .hbm, ⟨78, _⟩ => ⟨S1600000x1, .i32⟩
  | .hbm, ⟨79, _⟩ => ⟨S1600000x128, .f32⟩
  | .hbm, ⟨80, _⟩ => ⟨S_, .f32⟩
  | .hbm, ⟨81, _⟩ => ⟨S100000x128, .f32⟩
  | .hbm, ⟨82, _⟩ => ⟨S1600000x1, .i32⟩
  | .hbm, ⟨83, _⟩ => ⟨S100000x128, .f32⟩
  | .hbm, ⟨84, _⟩ => ⟨S100000x1, .f32⟩
  | .hbm, ⟨85, _⟩ => ⟨S100000x128, .f32⟩
  | .hbm, ⟨86, _⟩ => ⟨S100000x64, .f32⟩
  | .local _ .vmem, ⟨0, _⟩ => ⟨S10000x128, .f32⟩
  | .local _ .vmem, ⟨1, _⟩ => ⟨S10000x128, .f32⟩
  | .local _ .vmem, ⟨2, _⟩ => ⟨S10000x1, .f32⟩
  | .local _ .vmem, ⟨3, _⟩ => ⟨S10000x1, .f32⟩
  | .local _ .vmem, ⟨4, _⟩ => ⟨S10000x128, .f32⟩
  | .local _ .vmem, ⟨5, _⟩ => ⟨S10000x128, .f32⟩
  | .local _ .vmem, ⟨6, _⟩ => ⟨S128x128, .f32⟩
  | .local _ .vmem, ⟨7, _⟩ => ⟨S128, .f32⟩
  | .local _ .vmem, ⟨8, _⟩ => ⟨S128x128, .f32⟩
  | .local _ .vmem, ⟨9, _⟩ => ⟨S128, .f32⟩
  | .local _ .vmem, ⟨10, _⟩ => ⟨S128, .f32⟩
  | .local _ .vmem, ⟨11, _⟩ => ⟨S128, .f32⟩
  | .local _ .vmem, ⟨12, _⟩ => ⟨S128, .f32⟩
  | .local _ .vmem, ⟨13, _⟩ => ⟨S10000x128, .f32⟩
  | .local _ .vmem, ⟨14, _⟩ => ⟨S10000x128, .f32⟩
  | .local _ .vmem, ⟨15, _⟩ => ⟨S10000x128, .f32⟩
  | .local _ .vmem, ⟨16, _⟩ => ⟨S10000x128, .f32⟩
  | .local _ .vmem, ⟨17, _⟩ => ⟨S10000x1, .f32⟩
  | .local _ .vmem, ⟨18, _⟩ => ⟨S10000x1, .f32⟩
  | .local _ .vmem, ⟨19, _⟩ => ⟨S10000x128, .f32⟩
  | .local _ .vmem, ⟨20, _⟩ => ⟨S10000x128, .f32⟩
  | .local _ .vmem, ⟨21, _⟩ => ⟨S128x128, .f32⟩
  | .local _ .vmem, ⟨22, _⟩ => ⟨S128, .f32⟩
  | .local _ .vmem, ⟨23, _⟩ => ⟨S128x128, .f32⟩
  | .local _ .vmem, ⟨24, _⟩ => ⟨S128, .f32⟩
  | .local _ .vmem, ⟨25, _⟩ => ⟨S128, .f32⟩
  | .local _ .vmem, ⟨26, _⟩ => ⟨S128, .f32⟩
  | .local _ .vmem, ⟨27, _⟩ => ⟨S128, .f32⟩
  | .local _ .vmem, ⟨28, _⟩ => ⟨S10000x128, .f32⟩
  | .local _ .vmem, ⟨29, _⟩ => ⟨S10000x128, .f32⟩
  | .local _ .vmem, ⟨30, _⟩ => ⟨S10000x128, .f32⟩
  | .local _ .vmem, ⟨31, _⟩ => ⟨S10000x128, .f32⟩
  | .local _ .vmem, ⟨32, _⟩ => ⟨S10000x1, .f32⟩
  | .local _ .vmem, ⟨33, _⟩ => ⟨S10000x1, .f32⟩
  | .local _ .vmem, ⟨34, _⟩ => ⟨S10000x128, .f32⟩
  | .local _ .vmem, ⟨35, _⟩ => ⟨S10000x128, .f32⟩
  | .local _ .vmem, ⟨36, _⟩ => ⟨S128x128, .f32⟩
  | .local _ .vmem, ⟨37, _⟩ => ⟨S128, .f32⟩
  | .local _ .vmem, ⟨38, _⟩ => ⟨S128x128, .f32⟩
  | .local _ .vmem, ⟨39, _⟩ => ⟨S128, .f32⟩
  | .local _ .vmem, ⟨40, _⟩ => ⟨S128, .f32⟩
  | .local _ .vmem, ⟨41, _⟩ => ⟨S128, .f32⟩
  | .local _ .vmem, ⟨42, _⟩ => ⟨S128, .f32⟩
  | .local _ .vmem, ⟨43, _⟩ => ⟨S10000x128, .f32⟩
  | .local _ .vmem, ⟨44, _⟩ => ⟨S10000x128, .f32⟩
  | .local _ .vmem, ⟨45, _⟩ => ⟨S10000x128, .f32⟩
  | .local _ .vmem, ⟨46, _⟩ => ⟨S10000x128, .f32⟩
  | .local _ .vmem, ⟨47, _⟩ => ⟨S128x64, .f32⟩
  | .local _ .vmem, ⟨48, _⟩ => ⟨S64, .f32⟩
  | .local _ .vmem, ⟨49, _⟩ => ⟨S10000x64, .f32⟩
  | .local _ .vmem, ⟨50, _⟩ => ⟨S10000x64, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | _, _ => false

abbrev semScoped : Fin 0 → Bool
  | ⟨_, h⟩ => absurd h (Nat.not_lt_zero _)

abbrev dmaSemScoped : Fin 51 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | _ => false

abbrev sig : RefSig :=
  ofTc nBuf bufTy 0 51 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_v0 : Ref sig .tc := ⟨.hbm, 25, rfl⟩
abbrev main_v1 : Ref sig .tc := ⟨.hbm, 26, rfl⟩
abbrev main_v2 : Ref sig .tc := ⟨.hbm, 27, rfl⟩
abbrev main_v3 : Ref sig .tc := ⟨.hbm, 28, rfl⟩
abbrev main_cst : Ref sig .tc := ⟨.hbm, 29, rfl⟩
abbrev main_v4 : Ref sig .tc := ⟨.hbm, 30, rfl⟩
abbrev main_cst_0 : Ref sig .tc := ⟨.hbm, 31, rfl⟩
abbrev main_v5 : Ref sig .tc := ⟨.hbm, 32, rfl⟩
abbrev main_v6 : Ref sig .tc := ⟨.hbm, 33, rfl⟩
abbrev main_v7 : Ref sig .tc := ⟨.hbm, 34, rfl⟩
abbrev main_cst_1 : Ref sig .tc := ⟨.hbm, 35, rfl⟩
abbrev main_v8 : Ref sig .tc := ⟨.hbm, 36, rfl⟩
abbrev main_v9 : Ref sig .tc := ⟨.hbm, 37, rfl⟩
abbrev main_cst_2 : Ref sig .tc := ⟨.hbm, 38, rfl⟩
abbrev main_v10 : Ref sig .tc := ⟨.hbm, 39, rfl⟩
abbrev main_v11 : Ref sig .tc := ⟨.hbm, 40, rfl⟩
abbrev main_c : Ref sig .tc := ⟨.hbm, 41, rfl⟩
abbrev main_v12 : Ref sig .tc := ⟨.hbm, 42, rfl⟩
abbrev main_v13 : Ref sig .tc := ⟨.hbm, 43, rfl⟩
abbrev main_c_3 : Ref sig .tc := ⟨.hbm, 44, rfl⟩
abbrev main_v14 : Ref sig .tc := ⟨.hbm, 45, rfl⟩
abbrev main_v15 : Ref sig .tc := ⟨.hbm, 46, rfl⟩
abbrev main_v16 : Ref sig .tc := ⟨.hbm, 47, rfl⟩
abbrev main_v17 : Ref sig .tc := ⟨.hbm, 48, rfl⟩
abbrev main_v18 : Ref sig .tc := ⟨.hbm, 49, rfl⟩
abbrev main_cst_4 : Ref sig .tc := ⟨.hbm, 50, rfl⟩
abbrev main_v19 : Ref sig .tc := ⟨.hbm, 51, rfl⟩
abbrev main_v20 : Ref sig .tc := ⟨.hbm, 52, rfl⟩
abbrev main_v21 : Ref sig .tc := ⟨.hbm, 53, rfl⟩
abbrev main_v22 : Ref sig .tc := ⟨.hbm, 54, rfl⟩
abbrev main_v23 : Ref sig .tc := ⟨.hbm, 55, rfl⟩
abbrev main_c_5 : Ref sig .tc := ⟨.hbm, 56, rfl⟩
abbrev main_v24 : Ref sig .tc := ⟨.hbm, 57, rfl⟩
abbrev main_v25 : Ref sig .tc := ⟨.hbm, 58, rfl⟩
abbrev main_c_6 : Ref sig .tc := ⟨.hbm, 59, rfl⟩
abbrev main_v26 : Ref sig .tc := ⟨.hbm, 60, rfl⟩
abbrev main_v27 : Ref sig .tc := ⟨.hbm, 61, rfl⟩
abbrev main_v28 : Ref sig .tc := ⟨.hbm, 62, rfl⟩
abbrev main_v29 : Ref sig .tc := ⟨.hbm, 63, rfl⟩
abbrev main_v30 : Ref sig .tc := ⟨.hbm, 64, rfl⟩
abbrev main_cst_7 : Ref sig .tc := ⟨.hbm, 65, rfl⟩
abbrev main_v31 : Ref sig .tc := ⟨.hbm, 66, rfl⟩
abbrev main_v32 : Ref sig .tc := ⟨.hbm, 67, rfl⟩
abbrev main_v33 : Ref sig .tc := ⟨.hbm, 68, rfl⟩
abbrev main_v34 : Ref sig .tc := ⟨.hbm, 69, rfl⟩
abbrev main_v35 : Ref sig .tc := ⟨.hbm, 70, rfl⟩
abbrev main_c_8 : Ref sig .tc := ⟨.hbm, 71, rfl⟩
abbrev main_v36 : Ref sig .tc := ⟨.hbm, 72, rfl⟩
abbrev main_v37 : Ref sig .tc := ⟨.hbm, 73, rfl⟩
abbrev main_c_9 : Ref sig .tc := ⟨.hbm, 74, rfl⟩
abbrev main_v38 : Ref sig .tc := ⟨.hbm, 75, rfl⟩
abbrev main_v39 : Ref sig .tc := ⟨.hbm, 76, rfl⟩
abbrev main_v40 : Ref sig .tc := ⟨.hbm, 77, rfl⟩
abbrev main_v41 : Ref sig .tc := ⟨.hbm, 78, rfl⟩
abbrev main_v42 : Ref sig .tc := ⟨.hbm, 79, rfl⟩
abbrev main_cst_10 : Ref sig .tc := ⟨.hbm, 80, rfl⟩
abbrev main_v43 : Ref sig .tc := ⟨.hbm, 81, rfl⟩
abbrev main_v44 : Ref sig .tc := ⟨.hbm, 82, rfl⟩
abbrev main_v45 : Ref sig .tc := ⟨.hbm, 83, rfl⟩
abbrev main_v46 : Ref sig .tc := ⟨.hbm, 84, rfl⟩
abbrev main_v47 : Ref sig .tc := ⟨.hbm, 85, rfl⟩
abbrev main_v48 : Ref sig .tc := ⟨.hbm, 86, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg10_1 : Ref sig .tc := ⟨.vmem, 14, rfl⟩
abbrev cc1_stg0_0 : Ref sig .tc := ⟨.vmem, 15, rfl⟩
abbrev cc1_stg0_1 : Ref sig .tc := ⟨.vmem, 16, rfl⟩
abbrev cc1_stg1_0 : Ref sig .tc := ⟨.vmem, 17, rfl⟩
abbrev cc1_stg1_1 : Ref sig .tc := ⟨.vmem, 18, rfl⟩
abbrev cc1_stg2_0 : Ref sig .tc := ⟨.vmem, 19, rfl⟩
abbrev cc1_stg2_1 : Ref sig .tc := ⟨.vmem, 20, rfl⟩
abbrev cc1_stg3_0 : Ref sig .tc := ⟨.vmem, 21, rfl⟩
abbrev cc1_stg4_0 : Ref sig .tc := ⟨.vmem, 22, rfl⟩
abbrev cc1_stg5_0 : Ref sig .tc := ⟨.vmem, 23, rfl⟩
abbrev cc1_stg6_0 : Ref sig .tc := ⟨.vmem, 24, rfl⟩
abbrev cc1_stg7_0 : Ref sig .tc := ⟨.vmem, 25, rfl⟩
abbrev cc1_stg8_0 : Ref sig .tc := ⟨.vmem, 26, rfl⟩
abbrev cc1_stg9_0 : Ref sig .tc := ⟨.vmem, 27, rfl⟩
abbrev cc1_stg10_0 : Ref sig .tc := ⟨.vmem, 28, rfl⟩
abbrev cc1_stg10_1 : Ref sig .tc := ⟨.vmem, 29, rfl⟩
abbrev cc2_stg0_0 : Ref sig .tc := ⟨.vmem, 30, rfl⟩
abbrev cc2_stg0_1 : Ref sig .tc := ⟨.vmem, 31, rfl⟩
abbrev cc2_stg1_0 : Ref sig .tc := ⟨.vmem, 32, rfl⟩
abbrev cc2_stg1_1 : Ref sig .tc := ⟨.vmem, 33, rfl⟩
abbrev cc2_stg2_0 : Ref sig .tc := ⟨.vmem, 34, rfl⟩
abbrev cc2_stg2_1 : Ref sig .tc := ⟨.vmem, 35, rfl⟩
abbrev cc2_stg3_0 : Ref sig .tc := ⟨.vmem, 36, rfl⟩
abbrev cc2_stg4_0 : Ref sig .tc := ⟨.vmem, 37, rfl⟩
abbrev cc2_stg5_0 : Ref sig .tc := ⟨.vmem, 38, rfl⟩
abbrev cc2_stg6_0 : Ref sig .tc := ⟨.vmem, 39, rfl⟩
abbrev cc2_stg7_0 : Ref sig .tc := ⟨.vmem, 40, rfl⟩
abbrev cc2_stg8_0 : Ref sig .tc := ⟨.vmem, 41, rfl⟩
abbrev cc2_stg9_0 : Ref sig .tc := ⟨.vmem, 42, rfl⟩
abbrev cc2_stg10_0 : Ref sig .tc := ⟨.vmem, 43, rfl⟩
abbrev cc2_stg10_1 : Ref sig .tc := ⟨.vmem, 44, rfl⟩
abbrev cc3_stg0_0 : Ref sig .tc := ⟨.vmem, 45, rfl⟩
abbrev cc3_stg0_1 : Ref sig .tc := ⟨.vmem, 46, rfl⟩
abbrev cc3_stg1_0 : Ref sig .tc := ⟨.vmem, 47, rfl⟩
abbrev cc3_stg2_0 : Ref sig .tc := ⟨.vmem, 48, rfl⟩
abbrev cc3_stg3_0 : Ref sig .tc := ⟨.vmem, 49, rfl⟩
abbrev cc3_stg3_1 : Ref sig .tc := ⟨.vmem, 50, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem10_1 : DmaSem sig := 14
abbrev cc1_sem0_0 : DmaSem sig := 15
abbrev cc1_sem0_1 : DmaSem sig := 16
abbrev cc1_sem1_0 : DmaSem sig := 17
abbrev cc1_sem1_1 : DmaSem sig := 18
abbrev cc1_sem2_0 : DmaSem sig := 19
abbrev cc1_sem2_1 : DmaSem sig := 20
abbrev cc1_sem3_0 : DmaSem sig := 21
abbrev cc1_sem4_0 : DmaSem sig := 22
abbrev cc1_sem5_0 : DmaSem sig := 23
abbrev cc1_sem6_0 : DmaSem sig := 24
abbrev cc1_sem7_0 : DmaSem sig := 25
abbrev cc1_sem8_0 : DmaSem sig := 26
abbrev cc1_sem9_0 : DmaSem sig := 27
abbrev cc1_sem10_0 : DmaSem sig := 28
abbrev cc1_sem10_1 : DmaSem sig := 29
abbrev cc2_sem0_0 : DmaSem sig := 30
abbrev cc2_sem0_1 : DmaSem sig := 31
abbrev cc2_sem1_0 : DmaSem sig := 32
abbrev cc2_sem1_1 : DmaSem sig := 33
abbrev cc2_sem2_0 : DmaSem sig := 34
abbrev cc2_sem2_1 : DmaSem sig := 35
abbrev cc2_sem3_0 : DmaSem sig := 36
abbrev cc2_sem4_0 : DmaSem sig := 37
abbrev cc2_sem5_0 : DmaSem sig := 38
abbrev cc2_sem6_0 : DmaSem sig := 39
abbrev cc2_sem7_0 : DmaSem sig := 40
abbrev cc2_sem8_0 : DmaSem sig := 41
abbrev cc2_sem9_0 : DmaSem sig := 42
abbrev cc2_sem10_0 : DmaSem sig := 43
abbrev cc2_sem10_1 : DmaSem sig := 44
abbrev cc3_sem0_0 : DmaSem sig := 45
abbrev cc3_sem0_1 : DmaSem sig := 46
abbrev cc3_sem1_0 : DmaSem sig := 47
abbrev cc3_sem2_0 : DmaSem sig := 48
abbrev cc3_sem3_0 : DmaSem sig := 49
abbrev cc3_sem3_1 : DmaSem sig := 50

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_8 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_9 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S10000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S10000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S10000x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_7 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_8 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_9 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_10 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S10000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S10000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S128 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S128 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S128 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev stage1_10 : Fin 2 → Memref sig .tc .vmem S10000x128 .f32 := fun | 0 => Memref.whole cc1_stg10_0 | 1 => Memref.whole cc1_stg10_1 | ⟨_ + 2, h⟩ => absurd h (Nat.not_lt.2 (Nat.le_add_left _ _))
abbrev sem1_10 : Fin 2 → DmaSem sig := fun | 0 => cc1_sem10_0 | 1 => cc1_sem10_1 | ⟨_ + 2, h⟩ => absurd h (Nat.not_lt.2 (Nat.le_add_left _ _))
abbrev reads1_10 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_7 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_8 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_9 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_10 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S10000x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S10000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S128x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S128x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S128 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S128 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 1 → Memref sig .tc .vmem S128 .f32 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
abbrev reads2_8 : Fin grid2.rank → Bool := ![false]

abbrev stage2_9 : Fin 1 → Memref sig .tc .vmem S128 .f32 := fun | 0 => Memref.whole cc2_stg9_0 | ⟨_ + 1, h⟩ => absurd h (Nat.not_lt.2 (Nat.le_add_left _ _))
abbrev sem2_9 : Fin 1 → DmaSem sig := fun | 0 => cc2_sem9_0 | ⟨_ + 1, h⟩ => absurd h (Nat.not_lt.2 (Nat.le_add_left _ _))
abbrev reads2_9 : Fin grid2.rank → Bool := ![false]

abbrev stage2_10 : Fin 2 → Memref sig .tc .vmem S10000x128 .f32 := fun | 0 => Memref.whole cc2_stg10_0 | 1 => Memref.whole cc2_stg10_1 | ⟨_ + 2, h⟩ => absurd h (Nat.not_lt.2 (Nat.le_add_left _ _))
abbrev sem2_10 : Fin 2 → DmaSem sig := fun | 0 => cc2_sem10_0 | 1 => cc2_sem10_1 | ⟨_ + 2, h⟩ => absurd h (Nat.not_lt.2 (Nat.le_add_left _ _))
abbrev reads2_10 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S10000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S128x64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S64 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S10000x64 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  shapeCasts_S100000_S100000x1 : S100000.ShapeCasts S100000x1
  inb_S10000x128_S10000x128_0_0 : ∀ a, (![0, 0] : Fin 2 → Nat) a + S10000x128.size a ≤ S10000x128.size a
  h_S10000x128 : 0 < S10000x128.numel
  shapeCasts_S10000x128_S10000x128 : S10000x128.ShapeCasts S10000x128
  inb_S10000x1_S10000x1_0_0 : ∀ a, (![0, 0] : Fin 2 → Nat) a + S10000x1.size a ≤ S10000x1.size a
  h_S10000x1 : 0 < S10000x1.numel
  shapeCasts_S10000x1_S10000x1 : S10000x1.ShapeCasts S10000x1
  broadcasts_S10000x1_S10000x128 : S10000x1.Broadcasts S10000x128
  inb_S128x128_S128x128_0_0 : ∀ a, (![0, 0] : Fin 2 → Nat) a + S128x128.size a ≤ S128x128.size a
  h_S128x128 : 0 < S128x128.numel
  inb_S128_S128_0 : ∀ a, (![0] : Fin 1 → Nat) a + S128.size a ≤ S128.size a
  h_S128 : 0 < S128.numel
  shapeCasts_S128_S1x128 : S128.ShapeCasts S1x128
  broadcasts_S1x128_S10000x128 : S1x128.Broadcasts S10000x128
  inb_S128x64_S128x64_0_0 : ∀ a, (![0, 0] : Fin 2 → Nat) a + S128x64.size a ≤ S128x64.size a
  h_S128x64 : 0 < S128x64.numel
  inb_S64_S64_0 : ∀ a, (![0] : Fin 1 → Nat) a + S64.size a ≤ S64.size a
  h_S64 : 0 < S64.numel
  shapeCasts_S64_S1x64 : S64.ShapeCasts S1x64
  broadcasts_S1x64_S10000x64 : S1x64.Broadcasts S10000x64
  inb_S10000x64_S10000x64_0_0 : ∀ a, (![0, 0] : Fin 2 → Nat) a + S10000x64.size a ≤ S10000x64.size a
  h_S10000x64 : 0 < S10000x64.numel
  scatter_S100000_S1600000x1_S1600000_n_0_0_1_wf : ScatterDims.WF S100000 S1600000x1 S1600000 [] [0] [0] 1
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S10000x128_S128x128_S10000x128_1_0_0_1_n_n_wf : DotDims.WF S10000x128 S128x128 S10000x128 [1] [0] [0] [1] [] []
  dot_S10000x128_S128x64_S10000x64_1_0_0_1_n_n_wf : DotDims.WF S10000x128 S128x64 S10000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S100000x128.size a
  hwx0_0 : ∀ i : grid0.Coords, EltTy.bits .f32 = 32 ∨ (Rect.block (s := S100000x128) S10000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S10000x1.size a ≤ S100000x1.size a
  hwx0_1 : ∀ i : grid0.Coords, EltTy.bits .f32 = 32 ∨ (Rect.block (s := S100000x1) S10000x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x128.size a ≤ S100000x128.size a
  hwx0_2 : ∀ i : grid0.Coords, EltTy.bits .f32 = 32 ∨ (Rect.block (s := S100000x128) S10000x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128.size a ≤ S128.size a
  hwx0_4 : ∀ i : grid0.Coords, EltTy.bits .f32 = 32 ∨ (Rect.block (s := S128) S128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x128.size a ≤ S128x128.size a
  hwx0_5 : ∀ i : grid0.Coords, EltTy.bits .f32 = 32 ∨ (Rect.block (s := S128x128) S128x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S128.size a ≤ S128.size a
  hwx0_6 : ∀ i : grid0.Coords, EltTy.bits .f32 = 32 ∨ (Rect.block (s := S128) S128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S128.size a ≤ S128.size a
  hwx0_7 : ∀ i : grid0.Coords, EltTy.bits .f32 = 32 ∨ (Rect.block (s := S128) S128.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S128.size a ≤ S128.size a
  hwx0_8 : ∀ i : grid0.Coords, EltTy.bits .f32 = 32 ∨ (Rect.block (s := S128) S128.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S128.size a ≤ S128.size a
  hwx0_9 : ∀ i : grid0.Coords, EltTy.bits .f32 = 32 ∨ (Rect.block (s := S128) S128.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S10000x128.size a ≤ S100000x128.size a
  hwx0_10 : ∀ i : grid0.Coords, EltTy.bits .f32 = 32 ∨ (Rect.block (s := S100000x128) S10000x128.size (cc0_transform_10 i) (hinb0_10 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x128.size a ≤ S100000x128.size a
  hwx1_0 : ∀ i : grid1.Coords, EltTy.bits .f32 = 32 ∨ (Rect.block (s := S100000x128) S10000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S10000x1.size a ≤ S100000x1.size a
  hwx1_1 : ∀ i : grid1.Coords, EltTy.bits .f32 = 32 ∨ (Rect.block (s := S100000x1) S10000x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S10000x128.size a ≤ S100000x128.size a
  hwx1_2 : ∀ i : grid1.Coords, EltTy.bits .f32 = 32 ∨ (Rect.block (s := S100000x128) S10000x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128.size a ≤ S128.size a
  hwx1_4 : ∀ i : grid1.Coords, EltTy.bits .f32 = 32 ∨ (Rect.block (s := S128) S128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128x128.size a ≤ S128x128.size a
  hwx1_5 : ∀ i : grid1.Coords, EltTy.bits .f32 = 32 ∨ (Rect.block (s := S128x128) S128x128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S128.size a ≤ S128.size a
  hwx1_6 : ∀ i : grid1.Coords, EltTy.bits .f32 = 32 ∨ (Rect.block (s := S128) S128.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S128.size a ≤ S128.size a
  hwx1_7 : ∀ i : grid1.Coords, EltTy.bits .f32 = 32 ∨ (Rect.block (s := S128) S128.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S128.size a ≤ S128.size a
  hwx1_8 : ∀ i : grid1.Coords, EltTy.bits .f32 = 32 ∨ (Rect.block (s := S128) S128.size (cc1_transform_8 i) (hinb1_8 i)).WholeWords (EltTy.packing .f32)
  hstage1_9 : ∀ j, (stage1_9 j).IsWhole
  nbuf1_9 : grid1.bufCount reads1_9 true = 1
  hreads1_9 : ∀ i i' : grid1.Coords, (∀ a, reads1_9 a = true → i a = i' a) → cc1_transform_9 i = cc1_transform_9 i'
  hinb1_9 : ∀ (i : grid1.Coords) a, (cc1_transform_9 i a + 1) * S128.size a ≤ S128.size a
  hwx1_9 : ∀ i : grid1.Coords, EltTy.bits .f32 = 32 ∨ (Rect.block (s := S128) S128.size (cc1_transform_9 i) (hinb1_9 i)).WholeWords (EltTy.packing .f32)
  hstage1_10 : ∀ j, (stage1_10 j).IsWhole
  nbuf1_10 : grid1.bufCount reads1_10 false = 2
  hreads1_10 : ∀ i i' : grid1.Coords, (∀ a, reads1_10 a = true → i a = i' a) → cc1_transform_10 i = cc1_transform_10 i'
  hinb1_10 : ∀ (i : grid1.Coords) a, (cc1_transform_10 i a + 1) * S10000x128.size a ≤ S100000x128.size a
  hwx1_10 : ∀ i : grid1.Coords, EltTy.bits .f32 = 32 ∨ (Rect.block (s := S100000x128) S10000x128.size (cc1_transform_10 i) (hinb1_10 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x128.size a ≤ S100000x128.size a
  hwx2_0 : ∀ i : grid2.Coords, EltTy.bits .f32 = 32 ∨ (Rect.block (s := S100000x128) S10000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S10000x1.size a ≤ S100000x1.size a
  hwx2_1 : ∀ i : grid2.Coords, EltTy.bits .f32 = 32 ∨ (Rect.block (s := S100000x1) S10000x1.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S10000x128.size a ≤ S100000x128.size a
  hwx2_2 : ∀ i : grid2.Coords, EltTy.bits .f32 = 32 ∨ (Rect.block (s := S100000x128) S10000x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x128.size a ≤ S128x128.size a
  hwx2_3 : ∀ i : grid2.Coords, EltTy.bits .f32 = 32 ∨ (Rect.block (s := S128x128) S128x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S128.size a ≤ S128.size a
  hwx2_4 : ∀ i : grid2.Coords, EltTy.bits .f32 = 32 ∨ (Rect.block (s := S128) S128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S128x128.size a ≤ S128x128.size a
  hwx2_5 : ∀ i : grid2.Coords, EltTy.bits .f32 = 32 ∨ (Rect.block (s := S128x128) S128x128.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S128.size a ≤ S128.size a
  hwx2_6 : ∀ i : grid2.Coords, EltTy.bits .f32 = 32 ∨ (Rect.block (s := S128) S128.size (cc2_transform_6 i) (hinb2_6 i)).WholeWords (EltTy.packing .f32)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S128.size a ≤ S128.size a
  hwx2_7 : ∀ i : grid2.Coords, EltTy.bits .f32 = 32 ∨ (Rect.block (s := S128) S128.size (cc2_transform_7 i) (hinb2_7 i)).WholeWords (EltTy.packing .f32)
  hstage2_8 : ∀ j, (stage2_8 j).IsWhole
  nbuf2_8 : grid2.bufCount reads2_8 true = 1
  hreads2_8 : ∀ i i' : grid2.Coords, (∀ a, reads2_8 a = true → i a = i' a) → cc2_transform_8 i = cc2_transform_8 i'
  hinb2_8 : ∀ (i : grid2.Coords) a, (cc2_transform_8 i a + 1) * S128.size a ≤ S128.size a
  hwx2_8 : ∀ i : grid2.Coords, EltTy.bits .f32 = 32 ∨ (Rect.block (s := S128) S128.size (cc2_transform_8 i) (hinb2_8 i)).WholeWords (EltTy.packing .f32)
  hstage2_9 : ∀ j, (stage2_9 j).IsWhole
  nbuf2_9 : grid2.bufCount reads2_9 true = 1
  hreads2_9 : ∀ i i' : grid2.Coords, (∀ a, reads2_9 a = true → i a = i' a) → cc2_transform_9 i = cc2_transform_9 i'
  hinb2_9 : ∀ (i : grid2.Coords) a, (cc2_transform_9 i a + 1) * S128.size a ≤ S128.size a
  hwx2_9 : ∀ i : grid2.Coords, EltTy.bits .f32 = 32 ∨ (Rect.block (s := S128) S128.size (cc2_transform_9 i) (hinb2_9 i)).WholeWords (EltTy.packing .f32)
  hstage2_10 : ∀ j, (stage2_10 j).IsWhole
  nbuf2_10 : grid2.bufCount reads2_10 false = 2
  hreads2_10 : ∀ i i' : grid2.Coords, (∀ a, reads2_10 a = true → i a = i' a) → cc2_transform_10 i = cc2_transform_10 i'
  hinb2_10 : ∀ (i : grid2.Coords) a, (cc2_transform_10 i a + 1) * S10000x128.size a ≤ S100000x128.size a
  hwx2_10 : ∀ i : grid2.Coords, EltTy.bits .f32 = 32 ∨ (Rect.block (s := S100000x128) S10000x128.size (cc2_transform_10 i) (hinb2_10 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x128.size a ≤ S100000x128.size a
  hwx3_0 : ∀ i : grid3.Coords, EltTy.bits .f32 = 32 ∨ (Rect.block (s := S100000x128) S10000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S128x64.size a ≤ S128x64.size a
  hwx3_1 : ∀ i : grid3.Coords, EltTy.bits .f32 = 32 ∨ (Rect.block (s := S128x64) S128x64.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S64.size a ≤ S64.size a
  hwx3_2 : ∀ i : grid3.Coords, EltTy.bits .f32 = 32 ∨ (Rect.block (s := S64) S64.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S10000x64.size a ≤ S100000x64.size a
  hwx3_3 : ∀ i : grid3.Coords, EltTy.bits .f32 = 32 ∨ (Rect.block (s := S100000x64) S10000x64.size (cc3_transform_3 i) (hinb3_3 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def dot_S10000x128_S128x64_S10000x64_1_0_0_1_n_n : DotDims S10000x128 S128x64 S10000x64 where
  lhsContracting := [1]
  rhsContracting := [0]
  lhsNonContracting := [0]
  rhsNonContracting := [1]
  lhsBatch := []
  rhsBatch := []
  wf := dot_S10000x128_S128x64_S10000x64_1_0_0_1_n_n_wf

abbrev win0_0 : Pipeline.Window sig grid0 :=
  Pipeline.Window.ofSpec (Memref.whole main_v21) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v22) S10000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg0) S10000x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg2) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg3) S128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg4) S128x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg5) S128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg6) S128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg7) S128.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg8) S128.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v23) S10000x128.size cc0_transform_10 reads0_10 true false 2 stage0_10 sem0_10
    hrank0 hreads0_10 hinb0_10 nbuf0_10 (Memref.isWhole_whole _) hwx0_10 hstage0_10

abbrev win0 : Fin 11 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | ⟨_ + 11, h⟩ => absurd h (Nat.not_lt.2 (Nat.le_add_left _ _))
abbrev spec0 : Fin 11 → Pipeline.WinSpec sig grid0.rank := fun w => (win0 w).toWinSpec

abbrev win1_0 : Pipeline.Window sig grid1 :=
  Pipeline.Window.ofSpec (Memref.whole main_v33) S10000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v34) S10000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v23) S10000x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg9) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg10) S128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg11) S128x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_arg12) S128.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_arg13) S128.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_arg14) S128.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_arg15) S128.size cc1_transform_9 reads1_9 false true 1 stage1_9 sem1_9
    hrank1 hreads1_9 hinb1_9 nbuf1_9 (Memref.isWhole_whole _) hwx1_9 hstage1_9

abbrev win1_10 : Pipeline.Window sig grid1 :=
  Pipeline.Window.ofSpec (Memref.whole main_v35) S10000x128.size cc1_transform_10 reads1_10 true false 2 stage1_10 sem1_10
    hrank1 hreads1_10 hinb1_10 nbuf1_10 (Memref.isWhole_whole _) hwx1_10 hstage1_10

abbrev win1 : Fin 11 → Pipeline.Window sig grid1 := fun | 0 => win1_0 | 1 => win1_1 | 2 => win1_2 | 3 => win1_3 | 4 => win1_4 | 5 => win1_5 | 6 => win1_6 | 7 => win1_7 | 8 => win1_8 | 9 => win1_9 | 10 => win1_10 | ⟨_ + 11, h⟩ => absurd h (Nat.not_lt.2 (Nat.le_add_left _ _))
abbrev spec1 : Fin 11 → Pipeline.WinSpec sig grid1.rank := fun w => (win1 w).toWinSpec

abbrev win2_0 : Pipeline.Window sig grid2 :=
  Pipeline.Window.ofSpec (Memref.whole main_v45) S10000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v46) S10000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v35) S10000x128.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_arg16) S128x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg17) S128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_arg18) S128x128.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_arg19) S128.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_arg20) S128.size cc2_transform_7 reads2_7 false true 1 stage2_7 sem2_7
    hrank2 hreads2_7 hinb2_7 nbuf2_7 (Memref.isWhole_whole _) hwx2_7 hstage2_7

abbrev win2_8 : Pipeline.Window sig grid2 :=
  Pipeline.Window.ofSpec (Memref.whole main_arg21) S128.size cc2_transform_8 reads2_8 false true 1 stage2_8 sem2_8
    hrank2 hreads2_8 hinb2_8 nbuf2_8 (Memref.isWhole_whole _) hwx2_8 hstage2_8

abbrev win2_9 : Pipeline.Window sig grid2 :=
  Pipeline.Window.ofSpec (Memref.whole main_arg22) S128.size cc2_transform_9 reads2_9 false true 1 stage2_9 sem2_9
    hrank2 hreads2_9 hinb2_9 nbuf2_9 (Memref.isWhole_whole _) hwx2_9 hstage2_9

abbrev win2_10 : Pipeline.Window sig grid2 :=
  Pipeline.Window.ofSpec (Memref.whole main_v47) S10000x128.size cc2_transform_10 reads2_10 true false 2 stage2_10 sem2_10
    hrank2 hreads2_10 hinb2_10 nbuf2_10 (Memref.isWhole_whole _) hwx2_10 hstage2_10

abbrev win2 : Fin 11 → Pipeline.Window sig grid2 := fun | 0 => win2_0 | 1 => win2_1 | 2 => win2_2 | 3 => win2_3 | 4 => win2_4 | 5 => win2_5 | 6 => win2_6 | 7 => win2_7 | 8 => win2_8 | 9 => win2_9 | 10 => win2_10 | ⟨_ + 11, h⟩ => absurd h (Nat.not_lt.2 (Nat.le_add_left _ _))
abbrev spec2 : Fin 11 → Pipeline.WinSpec sig grid2.rank := fun w => (win2 w).toWinSpec

abbrev win3_0 : Pipeline.Window sig grid3 :=
  Pipeline.Window.ofSpec (Memref.whole main_v47) S10000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg23) S128x64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_arg24) S64.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v48) S10000x64.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x128 : Shape := ⟨2, ![1600000, 128]⟩
abbrev S100000 : Shape := ⟨1, ![100000]⟩
abbrev S100000x1 : Shape := ⟨2, ![100000, 1]⟩
abbrev S1x128 : Shape := ⟨2, ![1, 128]⟩
abbrev S100000x64 : Shape := ⟨2, ![100000, 64]⟩
abbrev S1x64 : Shape := ⟨2, ![1, 64]⟩

abbrev nBuf : Space → Nat
  | .hbm => 185
  | .vmem => 0
  | .smem => 0
  | _ => 0

abbrev hbmTy0_0 (i : Nat) : BufTy := match i % 128 with
  | 0 => ⟨S100000x128, .f32⟩
  | 1 => ⟨S2x1600000, .i32⟩
  | 2 => ⟨S128x128, .f32⟩
  | 3 => ⟨S128, .f32⟩
  | 4 => ⟨S128x128, .f32⟩
  | 5 => ⟨S128, .f32⟩
  | 6 => ⟨S128, .f32⟩
  | 7 => ⟨S128, .f32⟩
  | 8 => ⟨S128, .f32⟩
  | 9 => ⟨S128x128, .f32⟩
  | 10 => ⟨S128, .f32⟩
  | 11 => ⟨S128x128, .f32⟩
  | 12 => ⟨S128, .f32⟩
  | 13 => ⟨S128, .f32⟩
  | 14 => ⟨S128, .f32⟩
  | 15 => ⟨S128, .f32⟩
  | 16 => ⟨S128x128, .f32⟩
  | 17 => ⟨S128, .f32⟩
  | 18 => ⟨S128x128, .f32⟩
  | 19 => ⟨S128, .f32⟩
  | 20 => ⟨S128, .f32⟩
  | 21 => ⟨S128, .f32⟩
  | 22 => ⟨S128, .f32⟩
  | 23 => ⟨S128x64, .f32⟩
  | 24 => ⟨S64, .f32⟩
  | 25 => ⟨S1x1600000, .i32⟩
  | 26 => ⟨S1600000, .i32⟩
  | 27 => ⟨S1x1600000, .i32⟩
  | 28 => ⟨S1600000, .i32⟩
  | 29 => ⟨S_, .i32⟩
  | 30 => ⟨S1600000, .i32⟩
  | 31 => ⟨S1600000, .i1⟩
  | 32 => ⟨S_, .i32⟩
  | 33 => ⟨S1600000, .i32⟩
  | 34 => ⟨S1600000, .i32⟩
  | 35 => ⟨S1600000, .i32⟩
  | 36 => ⟨S1600000x1, .i32⟩
  | 37 => ⟨S1600000x128, .f32⟩
  | 38 => ⟨S_, .f32⟩
  | 39 => ⟨S100000x128, .f32⟩
  | 40 => ⟨S1600000x1, .i32⟩
  | 41 => ⟨S100000x128, .f32⟩
  | 42 => ⟨S_, .f32⟩
  | 43 => ⟨S1600000, .f32⟩
  | 44 => ⟨S_, .f32⟩
  | 45 => ⟨S100000, .f32⟩
  | 46 => ⟨S1600000x1, .i32⟩
  | 47 => ⟨S100000, .f32⟩
  | 48 => ⟨S_, .f32⟩
  | 49 => ⟨S100000, .f32⟩
  | 50 => ⟨S100000, .f32⟩
  | 51 => ⟨S100000x1, .f32⟩
  | 52 => ⟨S100000x128, .f32⟩
  | 53 => ⟨S100000x128, .f32⟩
  | 54 => ⟨S100000x128, .f32⟩
  | 55 => ⟨S1x128, .f32⟩
  | 56 => ⟨S100000x128, .f32⟩
  | 57 => ⟨S100000x128, .f32⟩
  | 58 => ⟨S100000x128, .f32⟩
  | 59 => ⟨S100000x128, .f32⟩
  | 60 => ⟨S1x128, .f32⟩
  | 61 => ⟨S100000x128, .f32⟩
  | 62 => ⟨S100000x128, .f32⟩
  | 63 => ⟨S_, .f32⟩
  | 64 => ⟨S128, .f32⟩
  | 65 => ⟨S128, .f32⟩
  | 66 => ⟨S128, .f32⟩
  | 67 => ⟨S1x128, .f32⟩
  | 68 => ⟨S100000x128, .f32⟩
  | 69 => ⟨S100000x128, .f32⟩
  | 70 => ⟨S1x128, .f32⟩
  | 71 => ⟨S100000x128, .f32⟩
  | 72 => ⟨S100000x128, .f32⟩
  | 73 => ⟨S1x128, .f32⟩
  | 74 => ⟨S100000x128, .f32⟩
  | 75 => ⟨S100000x128, .f32⟩
  | 76 => ⟨S_, .f32⟩
  | 77 => ⟨S100000x128, .f32⟩
  | 78 => ⟨S100000x128, .f32⟩
  | 79 => ⟨S_, .i32⟩
  | 80 => ⟨S1600000, .i32⟩
  | 81 => ⟨S1600000, .i1⟩
  | 82 => ⟨S_, .i32⟩
  | 83 => ⟨S1600000, .i32⟩
  | 84 => ⟨S1600000, .i32⟩
  | 85 => ⟨S1600000, .i32⟩
  | 86 => ⟨S1600000x1, .i32⟩
  | 87 => ⟨S1600000x128, .f32⟩
  | 88 => ⟨S_, .f32⟩
  | 89 => ⟨S100000x128, .f32⟩
  | 90 => ⟨S1600000x1, .i32⟩
  | 91 => ⟨S100000x128, .f32⟩
  | 92 => ⟨S_, .f32⟩
  | 93 => ⟨S1600000, .f32⟩
  | 94 => ⟨S_, .f32⟩
  | 95 => ⟨S100000, .f32⟩
  | 96 => ⟨S1600000x1, .i32⟩
  | 97 => ⟨S100000, .f32⟩
  | 98 => ⟨S_, .f32⟩
  | 99 => ⟨S100000, .f32⟩
  | 100 => ⟨S100000, .f32⟩
  | 101 => ⟨S100000x1, .f32⟩
  | 102 => ⟨S100000x128, .f32⟩
  | 103 => ⟨S100000x128, .f32⟩
  | 104 => ⟨S100000x128, .f32⟩
  | 105 => ⟨S1x128, .f32⟩
  | 106 => ⟨S100000x128, .f32⟩
  | 107 => ⟨S100000x128, .f32⟩
  | 108 => ⟨S100000x128, .f32⟩
  | 109 => ⟨S100000x128, .f32⟩
  | 110 => ⟨S1x128, .f32⟩
  | 111 => ⟨S100000x128, .f32⟩
  | 112 => ⟨S100000x128, .f32⟩
  | 113 => ⟨S_, .f32⟩
  | 114 => ⟨S128, .f32⟩
  | 115 => ⟨S128, .f32⟩
  | 116 => ⟨S128, .f32⟩
  | 117 => ⟨S1x128, .f32⟩
  | 118 => ⟨S100000x128, .f32⟩
  | 119 => ⟨S100000x128, .f32⟩
  | 120 => ⟨S1x128, .f32⟩
  | 121 => ⟨S100000x128, .f32⟩
  | 122 => ⟨S100000x128, .f32⟩
  | 123 => ⟨S1x128, .f32⟩
  | 124 => ⟨S100000x128, .f32⟩
  | 125 => ⟨S100000x128, .f32⟩
  | 126 => ⟨S_, .f32⟩
  | 127 => ⟨S100000x128, .f32⟩
  | _ => ⟨S100000x128, .f32⟩

abbrev hbmTy0_1 (i : Nat) : BufTy := match i % 128 with
  | 0 => ⟨S100000x128, .f32⟩
  | 1 => ⟨S100000x128, .f32⟩
  | 2 => ⟨S_, .i32⟩
  | 3 => ⟨S1600000, .i32⟩
  | 4 => ⟨S1600000, .i1⟩
  | 5 => ⟨S_, .i32⟩
  | 6 => ⟨S1600000, .i32⟩
  | 7 => ⟨S1600000, .i32⟩
  | 8 => ⟨S1600000, .i32⟩
  | 9 => ⟨S1600000x1, .i32⟩
  | 10 => ⟨S1600000x128, .f32⟩
  | 11 => ⟨S_, .f32⟩
  | 12 => ⟨S100000x128, .f32⟩
  | 13 => ⟨S1600000x1, .i32⟩
  | 14 => ⟨S100000x128, .f32⟩
  | 15 => ⟨S_, .f32⟩
  | 16 => ⟨S1600000, .f32⟩
  | 17 => ⟨S_, .f32⟩
  | 18 => ⟨S100000, .f32⟩
  | 19 => ⟨S1600000x1, .i32⟩
  | 20 => ⟨S100000, .f32⟩
  | 21 => ⟨S_, .f32⟩
  | 22 => ⟨S100000, .f32⟩
  | 23 => ⟨S100000, .f32⟩
  | 24 => ⟨S100000x1, .f32⟩
  | 25 => ⟨S100000x128, .f32⟩
  | 26 => ⟨S100000x128, .f32⟩
  | 27 => ⟨S100000x128, .f32⟩
  | 28 => ⟨S1x128, .f32⟩
  | 29 => ⟨S100000x128, .f32⟩
  | 30 => ⟨S100000x128, .f32⟩
  | 31 => ⟨S100000x128, .f32⟩
  | 32 => ⟨S100000x128, .f32⟩
  | 33 => ⟨S1x128, .f32⟩
  | 34 => ⟨S100000x128, .f32⟩
  | 35 => ⟨S100000x128, .f32⟩
  | 36 => ⟨S_, .f32⟩
  | 37 => ⟨S128, .f32⟩
  | 38 => ⟨S128, .f32⟩
  | 39 => ⟨S128, .f32⟩
  | 40 => ⟨S1x128, .f32⟩
  | 41 => ⟨S100000x128, .f32⟩
  | 42 => ⟨S100000x128, .f32⟩
  | 43 => ⟨S1x128, .f32⟩
  | 44 => ⟨S100000x128, .f32⟩
  | 45 => ⟨S100000x128, .f32⟩
  | 46 => ⟨S1x128, .f32⟩
  | 47 => ⟨S100000x128, .f32⟩
  | 48 => ⟨S100000x128, .f32⟩
  | 49 => ⟨S_, .f32⟩
  | 50 => ⟨S100000x128, .f32⟩
  | 51 => ⟨S100000x128, .f32⟩
  | 52 => ⟨S100000x128, .f32⟩
  | 53 => ⟨S100000x64, .f32⟩
  | 54 => ⟨S1x64, .f32⟩
  | 55 => ⟨S100000x64, .f32⟩
  | 56 => ⟨S100000x64, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_v0 : Ref sig .tc := ⟨.hbm, 25, rfl⟩
abbrev main_v1 : Ref sig .tc := ⟨.hbm, 26, rfl⟩
abbrev main_v2 : Ref sig .tc := ⟨.hbm, 27, rfl⟩
abbrev main_v3 : Ref sig .tc := ⟨.hbm, 28, rfl⟩
abbrev main_c : Ref sig .tc := ⟨.hbm, 29, rfl⟩
abbrev main_v4 : Ref sig .tc := ⟨.hbm, 30, rfl⟩
abbrev main_v5 : Ref sig .tc := ⟨.hbm, 31, rfl⟩
abbrev main_c_0 : Ref sig .tc := ⟨.hbm, 32, rfl⟩
abbrev main_v6 : Ref sig .tc := ⟨.hbm, 33, rfl⟩
abbrev main_v7 : Ref sig .tc := ⟨.hbm, 34, rfl⟩
abbrev main_v8 : Ref sig .tc := ⟨.hbm, 35, rfl⟩
abbrev main_v9 : Ref sig .tc := ⟨.hbm, 36, rfl⟩
abbrev main_v10 : Ref sig .tc := ⟨.hbm, 37, rfl⟩
abbrev main_cst : Ref sig .tc := ⟨.hbm, 38, rfl⟩
abbrev main_v11 : Ref sig .tc := ⟨.hbm, 39, rfl⟩
abbrev main_v12 : Ref sig .tc := ⟨.hbm, 40, rfl⟩
abbrev main_v13 : Ref sig .tc := ⟨.hbm, 41, rfl⟩
abbrev main_cst_1 : Ref sig .tc := ⟨.hbm, 42, rfl⟩
abbrev main_v14 : Ref sig .tc := ⟨.hbm, 43, rfl⟩
abbrev main_cst_2 : Ref sig .tc := ⟨.hbm, 44, rfl⟩
abbrev main_v15 : Ref sig .tc := ⟨.hbm, 45, rfl⟩
abbrev main_v16 : Ref sig .tc := ⟨.hbm, 46, rfl⟩
abbrev main_v17 : Ref sig .tc := ⟨.hbm, 47, rfl⟩
abbrev main_cst_3 : Ref sig .tc := ⟨.hbm, 48, rfl⟩
abbrev main_v18 : Ref sig .tc := ⟨.hbm, 49, rfl⟩
abbrev main_v19 : Ref sig .tc := ⟨.hbm, 50, rfl⟩
abbrev main_v20 : Ref sig .tc := ⟨.hbm, 51, rfl⟩
abbrev main_v21 : Ref sig .tc := ⟨.hbm, 52, rfl⟩
abbrev main_v22 : Ref sig .tc := ⟨.hbm, 53, rfl⟩
abbrev main_v23 : Ref sig .tc := ⟨.hbm, 54, rfl⟩
abbrev main_v24 : Ref sig .tc := ⟨.hbm, 55, rfl⟩
abbrev main_v25 : Ref sig .tc := ⟨.hbm, 56, rfl⟩
abbrev main_v26 : Ref sig .tc := ⟨.hbm, 57, rfl⟩
abbrev main_v27 : Ref sig .tc := ⟨.hbm, 58, rfl⟩
abbrev main_v28 : Ref sig .tc := ⟨.hbm, 59, rfl⟩
abbrev main_v29 : Ref sig .tc := ⟨.hbm, 60, rfl⟩
abbrev main_v30 : Ref sig .tc := ⟨.hbm, 61, rfl⟩
abbrev main_v31 : Ref sig .tc := ⟨.hbm, 62, rfl⟩
abbrev main_cst_4 : Ref sig .tc := ⟨.hbm, 63, rfl⟩
abbrev main_v32 : Ref sig .tc := ⟨.hbm, 64, rfl⟩
abbrev main_v33 : Ref sig .tc := ⟨.hbm, 65, rfl⟩
abbrev main_v34 : Ref sig .tc := ⟨.hbm, 66, rfl⟩
abbrev main_v35 : Ref sig .tc := ⟨.hbm, 67, rfl⟩
abbrev main_v36 : Ref sig .tc := ⟨.hbm, 68, rfl⟩
abbrev main_v37 : Ref sig .tc := ⟨.hbm, 69, rfl⟩
abbrev main_v38 : Ref sig .tc := ⟨.hbm, 70, rfl⟩
abbrev main_v39 : Ref sig .tc := ⟨.hbm, 71, rfl⟩
abbrev main_v40 : Ref sig .tc := ⟨.hbm, 72, rfl⟩
abbrev main_v41 : Ref sig .tc := ⟨.hbm, 73, rfl⟩
abbrev main_v42 : Ref sig .tc := ⟨.hbm, 74, rfl⟩
abbrev main_v43 : Ref sig .tc := ⟨.hbm, 75, rfl⟩
abbrev main_call0_cst : Ref sig .tc := ⟨.hbm, 76, rfl⟩
abbrev main_call0_v0 : Ref sig .tc := ⟨.hbm, 77, rfl⟩
abbrev main_v44 : Ref sig .tc := ⟨.hbm, 78, rfl⟩
abbrev main_c_5 : Ref sig .tc := ⟨.hbm, 79, rfl⟩
abbrev main_v45 : Ref sig .tc := ⟨.hbm, 80, rfl⟩
abbrev main_v46 : Ref sig .tc := ⟨.hbm, 81, rfl⟩
abbrev main_c_6 : Ref sig .tc := ⟨.hbm, 82, rfl⟩
abbrev main_v47 : Ref sig .tc := ⟨.hbm, 83, rfl⟩
abbrev main_v48 : Ref sig .tc := ⟨.hbm, 84, rfl⟩
abbrev main_v49 : Ref sig .tc := ⟨.hbm, 85, rfl⟩
abbrev main_v50 : Ref sig .tc := ⟨.hbm, 86, rfl⟩
abbrev main_v51 : Ref sig .tc := ⟨.hbm, 87, rfl⟩
abbrev main_cst_7 : Ref sig .tc := ⟨.hbm, 88, rfl⟩
abbrev main_v52 : Ref sig .tc := ⟨.hbm, 89, rfl⟩
abbrev main_v53 : Ref sig .tc := ⟨.hbm, 90, rfl⟩
abbrev main_v54 : Ref sig .tc := ⟨.hbm, 91, rfl⟩
abbrev main_cst_8 : Ref sig .tc := ⟨.hbm, 92, rfl⟩
abbrev main_v55 : Ref sig .tc := ⟨.hbm, 93, rfl⟩
abbrev main_cst_9 : Ref sig .tc := ⟨.hbm, 94, rfl⟩
abbrev main_v56 : Ref sig .tc := ⟨.hbm, 95, rfl⟩
abbrev main_v57 : Ref sig .tc := ⟨.hbm, 96, rfl⟩
abbrev main_v58 : Ref sig .tc := ⟨.hbm, 97, rfl⟩
abbrev main_cst_10 : Ref sig .tc := ⟨.hbm, 98, rfl⟩
abbrev main_v59 : Ref sig .tc := ⟨.hbm, 99, rfl⟩
abbrev main_v60 : Ref sig .tc := ⟨.hbm, 100, rfl⟩
abbrev main_v61 : Ref sig .tc := ⟨.hbm, 101, rfl⟩
abbrev main_v62 : Ref sig .tc := ⟨.hbm, 102, rfl⟩
abbrev main_v63 : Ref sig .tc := ⟨.hbm, 103, rfl⟩
abbrev main_v64 : Ref sig .tc := ⟨.hbm, 104, rfl⟩
abbrev main_v65 : Ref sig .tc := ⟨.hbm, 105, rfl⟩
abbrev main_v66 : Ref sig .tc := ⟨.hbm, 106, rfl⟩
abbrev main_v67 : Ref sig .tc := ⟨.hbm, 107, rfl⟩
abbrev main_v68 : Ref sig .tc := ⟨.hbm, 108, rfl⟩
abbrev main_v69 : Ref sig .tc := ⟨.hbm, 109, rfl⟩
abbrev main_v70 : Ref sig .tc := ⟨.hbm, 110, rfl⟩
abbrev main_v71 : Ref sig .tc := ⟨.hbm, 111, rfl⟩
abbrev main_v72 : Ref sig .tc := ⟨.hbm, 112, rfl⟩
abbrev main_cst_11 : Ref sig .tc := ⟨.hbm, 113, rfl⟩
abbrev main_v73 : Ref sig .tc := ⟨.hbm, 114, rfl⟩
abbrev main_v74 : Ref sig .tc := ⟨.hbm, 115, rfl⟩
abbrev main_v75 : Ref sig .tc := ⟨.hbm, 116, rfl⟩
abbrev main_v76 : Ref sig .tc := ⟨.hbm, 117, rfl⟩
abbrev main_v77 : Ref sig .tc := ⟨.hbm, 118, rfl⟩
abbrev main_v78 : Ref sig .tc := ⟨.hbm, 119, rfl⟩
abbrev main_v79 : Ref sig .tc := ⟨.hbm, 120, rfl⟩
abbrev main_v80 : Ref sig .tc := ⟨.hbm, 121, rfl⟩
abbrev main_v81 : Ref sig .tc := ⟨.hbm, 122, rfl⟩
abbrev main_v82 : Ref sig .tc := ⟨.hbm, 123, rfl⟩
abbrev main_v83 : Ref sig .tc := ⟨.hbm, 124, rfl⟩
abbrev main_v84 : Ref sig .tc := ⟨.hbm, 125, rfl⟩
abbrev main_call1_cst : Ref sig .tc := ⟨.hbm, 126, rfl⟩
abbrev main_call1_v0 : Ref sig .tc := ⟨.hbm, 127, rfl⟩
abbrev main_v85 : Ref sig .tc := ⟨.hbm, 128, rfl⟩
abbrev main_v86 : Ref sig .tc := ⟨.hbm, 129, rfl⟩
abbrev main_c_12 : Ref sig .tc := ⟨.hbm, 130, rfl⟩
abbrev main_v87 : Ref sig .tc := ⟨.hbm, 131, rfl⟩
abbrev main_v88 : Ref sig .tc := ⟨.hbm, 132, rfl⟩
abbrev main_c_13 : Ref sig .tc := ⟨.hbm, 133, rfl⟩
abbrev main_v89 : Ref sig .tc := ⟨.hbm, 134, rfl⟩
abbrev main_v90 : Ref sig .tc := ⟨.hbm, 135, rfl⟩
abbrev main_v91 : Ref sig .tc := ⟨.hbm, 136, rfl⟩
abbrev main_v92 : Ref sig .tc := ⟨.hbm, 137, rfl⟩
abbrev main_v93 : Ref sig .tc := ⟨.hbm, 138, rfl⟩
abbrev main_cst_14 : Ref sig .tc := ⟨.hbm, 139, rfl⟩
abbrev main_v94 : Ref sig .tc := ⟨.hbm, 140, rfl⟩
abbrev main_v95 : Ref sig .tc := ⟨.hbm, 141, rfl⟩
abbrev main_v96 : Ref sig .tc := ⟨.hbm, 142, rfl⟩
abbrev main_cst_15 : Ref sig .tc := ⟨.hbm, 143, rfl⟩
abbrev main_v97 : Ref sig .tc := ⟨.hbm, 144, rfl⟩
abbrev main_cst_16 : Ref sig .tc := ⟨.hbm, 145, rfl⟩
abbrev main_v98 : Ref sig .tc := ⟨.hbm, 146, rfl⟩
abbrev main_v99 : Ref sig .tc := ⟨.hbm, 147, rfl⟩
abbrev main_v100 : Ref sig .tc := ⟨.hbm, 148, rfl⟩
abbrev main_cst_17 : Ref sig .tc := ⟨.hbm, 149, rfl⟩
abbrev main_v101 : Ref sig .tc := ⟨.hbm, 150, rfl⟩
abbrev main_v102 : Ref sig .tc := ⟨.hbm, 151, rfl⟩
abbrev main_v103 : Ref sig .tc := ⟨.hbm, 152, rfl⟩
abbrev main_v104 : Ref sig .tc := ⟨.hbm, 153, rfl⟩
abbrev main_v105 : Ref sig .tc := ⟨.hbm, 154, rfl⟩
abbrev main_v106 : Ref sig .tc := ⟨.hbm, 155, rfl⟩
abbrev main_v107 : Ref sig .tc := ⟨.hbm, 156, rfl⟩
abbrev main_v108 : Ref sig .tc := ⟨.hbm, 157, rfl⟩
abbrev main_v109 : Ref sig .tc := ⟨.hbm, 158, rfl⟩
abbrev main_v110 : Ref sig .tc := ⟨.hbm, 159, rfl⟩
abbrev main_v111 : Ref sig .tc := ⟨.hbm, 160, rfl⟩
abbrev main_v112 : Ref sig .tc := ⟨.hbm, 161, rfl⟩
abbrev main_v113 : Ref sig .tc := ⟨.hbm, 162, rfl⟩
abbrev main_v114 : Ref sig .tc := ⟨.hbm, 163, rfl⟩
abbrev main_cst_18 : Ref sig .tc := ⟨.hbm, 164, rfl⟩
abbrev main_v115 : Ref sig .tc := ⟨.hbm, 165, rfl⟩
abbrev main_v116 : Ref sig .tc := ⟨.hbm, 166, rfl⟩
abbrev main_v117 : Ref sig .tc := ⟨.hbm, 167, rfl⟩
abbrev main_v118 : Ref sig .tc := ⟨.hbm, 168, rfl⟩
abbrev main_v119 : Ref sig .tc := ⟨.hbm, 169, rfl⟩
abbrev main_v120 : Ref sig .tc := ⟨.hbm, 170, rfl⟩
abbrev main_v121 : Ref sig .tc := ⟨.hbm, 171, rfl⟩
abbrev main_v122 : Ref sig .tc := ⟨.hbm, 172, rfl⟩
abbrev main_v123 : Ref sig .tc := ⟨.hbm, 173, rfl⟩
abbrev main_v124 : Ref sig .tc := ⟨.hbm, 174, rfl⟩
abbrev main_v125 : Ref sig .tc := ⟨.hbm, 175, rfl⟩
abbrev main_v126 : Ref sig .tc := ⟨.hbm, 176, rfl⟩
abbrev main_call2_cst : Ref sig .tc := ⟨.hbm, 177, rfl⟩
abbrev main_call2_v0 : Ref sig .tc := ⟨.hbm, 178, rfl⟩
abbrev main_v127 : Ref sig .tc := ⟨.hbm, 179, rfl⟩
abbrev main_v128 : Ref sig .tc := ⟨.hbm, 180, rfl⟩
abbrev main_v129 : Ref sig .tc := ⟨.hbm, 181, rfl⟩
abbrev main_v130 : Ref sig .tc := ⟨.hbm, 182, rfl⟩
abbrev main_v131 : Ref sig .tc := ⟨.hbm, 183, rfl⟩
abbrev main_v132 : Ref sig .tc := ⟨.hbm, 184, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S128 : S_.BroadcastsInDim S128 (![] : Fin 0 → Fin S128.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  scatter_S100000_S1600000x1_S1600000_n_0_0_1_wf : ScatterDims.WF S100000 S1600000x1 S1600000 [] [0] [0] 1
  dot_S100000x128_S128x128_S100000x128_1_0_0_1_n_n_wf : DotDims.WF S100000x128 S128x128 S100000x128 [1] [0] [0] [1] [] []
  dot_S100000x128_S128x64_S100000x64_1_0_0_1_n_n_wf : DotDims.WF S100000x128 S128x64 S100000x64 [1] [0] [0] [1] [] []

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf

class Facts : Prop extends Facts₀ where

variable [Facts]
-- ==== Proof.KernelRun.lean ====
/-
  The idealized kernel program's run, with its result named.

  @main is seven segments: a stretch of host operations, the first layer's pallas_call, a second stretch, the second
  layer's call, a third stretch, the third layer's call and the projection's call.  The contents of the device's buffers
  at each segment boundary are a fold from the launch memory: a stretch applies its operations, a call leaves each of its
  arrays at what its grid points wrote back.  The launch theorem for such a chain says that every weakly fair execution
  terminates without a fault with every unscoped buffer at the last boundary's contents.  The frame claim reads only
  the argument buffers off that final state; here the result buffer is read off it as well: it holds the last
  boundary's contents at the projection's output array.
-/
import proofs.«155787_j30477087932645_1_alg».proof.Proof.GenP.KernelIdeal.Frame

set_option maxRecDepth 16384

noncomputable section

namespace Cert.KernelIdeal.RunValue

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Cert.KernelIdeal.GenP

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, and any property of the final memory that follows
    from "every unscoped buffer of every core holds the last boundary's contents" holds of it: the launch theorem for a
    chain of host stretches and pallas_calls, over the frame certificate's segments. -/
theorem run_final {Q : PUnit × MemSt nD τ sig (Elt F) → Prop}
    (hQ : ∀ s : MemSt nD τ sig (Elt F),
      (∀ c : Dev nD, ∀ b ∈ Pipeline.ucRefs τ sig, s.mem (((c : Thread nD τ)).1, b) = W7 m ρ c b) → Q (⟨⟩, s)) :
    θ_run defs (onTc (τ := τ) (main (F := F))) ⟨m, fun _ => 0, ρ⟩ Q :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := hQ)

/-- The result buffer ends at the last boundary's contents and the argument buffers end as launched. -/
theorem run_result : θ_run defs (onTc (τ := τ) (main (F := F))) ⟨m, fun _ => 0, ρ⟩ (fun r => ∀ c : Dev nD,
      r.2.mem ((c.tc : Thread nD τ).loc main_v48) = W7 m ρ c (Proc.devRef .tc main_v48)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)) :=
  run_final m ρ (fun s h c =>
    ⟨h c _ (mem_uc main_v48 (by decide)),
     (h c _ (mem_uc main_arg0 (by decide))).trans (W7_main_arg0 m ρ c),
     (h c _ (mem_uc main_arg1 (by decide))).trans (W7_main_arg1 m ρ c),
     (h c _ (mem_uc main_arg2 (by decide))).trans (W7_main_arg2 m ρ c),
     (h c _ (mem_uc main_arg3 (by decide))).trans (W7_main_arg3 m ρ c),
     (h c _ (mem_uc main_arg4 (by decide))).trans (W7_main_arg4 m ρ c),
     (h c _ (mem_uc main_arg5 (by decide))).trans (W7_main_arg5 m ρ c),
     (h c _ (mem_uc main_arg6 (by decide))).trans (W7_main_arg6 m ρ c),
     (h c _ (mem_uc main_arg7 (by decide))).trans (W7_main_arg7 m ρ c),
     (h c _ (mem_uc main_arg8 (by decide))).trans (W7_main_arg8 m ρ c),
     (h c _ (mem_uc main_arg9 (by decide))).trans (W7_main_arg9 m ρ c),
     (h c _ (mem_uc main_arg10 (by decide))).trans (W7_main_arg10 m ρ c),
     (h c _ (mem_uc main_arg11 (by decide))).trans (W7_main_arg11 m ρ c),
     (h c _ (mem_uc main_arg12 (by decide))).trans (W7_main_arg12 m ρ c),
     (h c _ (mem_uc main_arg13 (by decide))).trans (W7_main_arg13 m ρ c),
     (h c _ (mem_uc main_arg14 (by decide))).trans (W7_main_arg14 m ρ c),
     (h c _ (mem_uc main_arg15 (by decide))).trans (W7_main_arg15 m ρ c),
     (h c _ (mem_uc main_arg16 (by decide))).trans (W7_main_arg16 m ρ c),
     (h c _ (mem_uc main_arg17 (by decide))).trans (W7_main_arg17 m ρ c),
     (h c _ (mem_uc main_arg18 (by decide))).trans (W7_main_arg18 m ρ c),
     (h c _ (mem_uc main_arg19 (by decide))).trans (W7_main_arg19 m ρ c),
     (h c _ (mem_uc main_arg20 (by decide))).trans (W7_main_arg20 m ρ c),
     (h c _ (mem_uc main_arg21 (by decide))).trans (W7_main_arg21 m ρ c),
     (h c _ (mem_uc main_arg22 (by decide))).trans (W7_main_arg22 m ρ c),
     (h c _ (mem_uc main_arg23 (by decide))).trans (W7_main_arg23 m ρ c),
     (h c _ (mem_uc main_arg24 (by decide))).trans (W7_main_arg24 m ρ c)⟩)

end Cert.KernelIdeal.RunValue

end
-- ==== Proof.Spec.lean ====
/-
  The network both programs compute, written once as plain functions on extended-real arrays.

  A node table `h : [100000, 128]` goes through three message-passing layers and a final projection.  A layer takes
  the neighbourhood mean `mean` of `h` (how it is obtained is not this file's business) and returns, at node `n` and
  feature `j`,

      relu( ((Σₖ mean[n,k]·Wl[k,j] + bl[j] + Σₖ h[n,k]·Wr[k,j]) − rm[j]) · rsqrt(rv[j] + ε) · g[j] + be[j] )

  (the two matrix products, the bias, then batch normalisation with running statistics, then `max · 0`); layers two and
  three add the layer's own input `h[n,j]` to that.  The projection is `Σₖ h[n,k]·W[k,j] + b[j]`.

  The one place where the two programs spell something differently is the mean: one multiplies the neighbourhood sum by
  the reciprocal `1 / c` of the clamped in-degree `c = max(count, 1)`, the other divides the sum by `c`.  On the
  extended reals `x · (1 / c) = x / c` whenever `c ≠ 0` (`meanMul_eq_meanDiv_of`), and `max(count, 1) ≥ 1` is never zero
  (`max_one_ne_zero`).
-/
import Idealize.ShloMosaic.PureOps.Ideal.Laws
import Idealize.ShloMosaic.Lib.ValueIdx
import Idealize.ShloMosaic.Lib.IdealHost

noncomputable section

namespace Cert.Sage

open Idealize.ShloMosaic Idealize.ShloMosaic.ValueIdx

/-- A two-axis array of extended reals. -/
abbrev Arr2 (a b : Nat) : Type := (⟨2, ![a, b]⟩ : Shape).Idx → EReal
/-- A one-axis array of extended reals. -/
abbrev Arr1 (a : Nat) : Type := (⟨1, ![a]⟩ : Shape).Idx → EReal

/-- The batch-norm epsilon, the f32 nearest to 1e-5, as both programs carry it. -/
abbrev eps : EReal := Ideal.ofBits .f32 0x3727C5AC#32
/-- The f32 zero that `relu` compares with. -/
abbrev zero32 : EReal := Ideal.ofBits .f32 0x00000000#32

/-- The linear part of a layer at node `n`, feature `j`: neighbours through `Wl`, bias, the node itself through `Wr`. -/
def linAt (mean h : Arr2 100000 128) (Wl : Arr2 128 128) (bl : Arr1 128) (Wr : Arr2 128 128) (n : Fin 100000) (j : Fin 128) : EReal :=
  (∑ k : Fin 128, mean (ix2 n k) * Wl (ix2 k j)) + bl (ix1 j) + ∑ k : Fin 128, h (ix2 n k) * Wr (ix2 k j)

/-- Batch normalisation with running statistics followed by `relu`, applied to a value `z` of feature `j`. -/
def normAct (g be rm rv : Arr1 128) (j : Fin 128) (z : EReal) : EReal :=
  max ((z - rm (ix1 j)) * Ideal.rsqrt (rv (ix1 j) + eps) * g (ix1 j) + be (ix1 j)) zero32

/-- A layer without the residual connection, at node `n`, feature `j`. -/
def layerAt (mean h : Arr2 100000 128) (Wl : Arr2 128 128) (bl : Arr1 128) (Wr : Arr2 128 128) (g be rm rv : Arr1 128)
    (n : Fin 100000) (j : Fin 128) : EReal :=
  normAct g be rm rv j (linAt mean h Wl bl Wr n j)

/-- The first layer: no residual connection. -/
def layer (mean h : Arr2 100000 128) (Wl : Arr2 128 128) (bl : Arr1 128) (Wr : Arr2 128 128) (g be rm rv : Arr1 128) :
    Arr2 100000 128 :=
  fun i => layerAt mean h Wl bl Wr g be rm rv (i 0) (i 1)

/-- Layers two and three: the layer's input is added back. -/
def layerRes (mean h : Arr2 100000 128) (Wl : Arr2 128 128) (bl : Arr1 128) (Wr : Arr2 128 128) (g be rm rv : Arr1 128) :
    Arr2 100000 128 :=
  fun i => layerAt mean h Wl bl Wr g be rm rv (i 0) (i 1) + h (ix2 (i 0) (i 1))

/-- The output projection at node `n`, output feature `j`. -/
def projAt (h : Arr2 100000 128) (W : Arr2 128 64) (b : Arr1 64) (n : Fin 100000) (j : Fin 64) : EReal :=
  (∑ k : Fin 128, h (ix2 n k) * W (ix2 k j)) + b (ix1 j)

/-- The output projection. -/
def proj (h : Arr2 100000 128) (W : Arr2 128 64) (b : Arr1 64) : Arr2 100000 64 :=
  fun i => projAt h W b (i 0) (i 1)

/-- The mean as a quotient: the neighbourhood sum divided by the clamped in-degree of the node. -/
def meanDiv (agg : Arr2 100000 128) (c : Arr1 100000) : Arr2 100000 128 :=
  fun i => Ideal.div (agg i) (c (ix1 (i 0)))

/-- The mean as a product: the neighbourhood sum times a per-node scale held as a column `[100000, 1]`. -/
def meanMul (agg : Arr2 100000 128) (s : Arr2 100000 1) : Arr2 100000 128 :=
  fun i => agg i * s (ix2 (i 0) 0)

/-- A clamped count `max(x, 1)` is at least one, so it is not zero. -/
theorem max_one_ne_zero (x : EReal) : max x (Ideal.ofBits .f32 0x3F800000#32) ≠ 0 := by
  rw [Ideal.ofBits_one_f32]
  intro e
  have h1 : (1 : EReal) ≤ max x 1 := le_max_right x 1
  rw [e] at h1
  exact absurd h1 (by simp)

/-- Multiplying by a column of reciprocals is dividing: `x · (1 / d) = x / d` entry by entry, when no `d` is zero and
    the column holds `1 / d`. -/
theorem meanMul_eq_meanDiv_of (agg : Arr2 100000 128) (d : Arr1 100000) (s : Arr2 100000 1)
    (hd : ∀ n : Fin 100000, d (ix1 n) ≠ 0)
    (hs : ∀ n : Fin 100000, s (ix2 n 0) = Ideal.div (Ideal.ofBits .f32 0x3F800000#32) (d (ix1 n))) :
    meanMul agg s = meanDiv agg d := by
  funext i
  show agg i * s (ix2 (i 0) 0) = Ideal.div (agg i) (d (ix1 (i 0)))
  rw [hs (i 0), Ideal.ofBits_one_f32]
  exact Ideal.mul_one_div (hd (i 0))

end Cert.Sage

end
-- ==== Proof.Net.lean ====
/-
  The whole network as one function of the 25 argument arrays.

  The graph enters through the edge list `e : [2, 1600000]` (row 0 the source node of each edge, row 1 its destination).
  Two things are computed from it by operations that both programs apply in the same way, so they are kept here as
  opaque terms and never opened:
    * `degree e`  — for every node, the number of edges that end in it, clamped below by one
                     (a scatter-add of ones over the destinations, then `max · 1`);
    * `nbrSum h e` — for every node, the sum of the rows `h[src]` over the edges that end in it
                     (a gather of `h` at the wrapped source indices, then a scatter-add over the destinations).
  The neighbourhood mean of a node table is `nbrSum h e / degree e`, and the network is three layers over it and a
  projection (Spec.lean has the layer and the projection entry by entry).
-/
import proofs.«155787_j30477087932645_1_alg».proof.Proof.Gen.ReferenceIdeal.Read
import proofs.«155787_j30477087932645_1_alg».proof.Proof.Spec

noncomputable section

namespace Cert.Sage

open Idealize.ShloMosaic Cert.ReferenceIdeal

/-- The edge list as the programs hold it. -/
abbrev Edges : Type := (⟨S2x1600000, .i32⟩ : BufTy).Contents (Elt Ideal)

/-- The clamped in-degree `max(#{edges into n}, 1)` of every node. -/
def degree (e : Edges) : Arr1 100000 := Read.val_main_v19 (F := Ideal) e

/-- The sum of `h[src]` over the edges into each node. -/
def nbrSum (h : Arr2 100000 128) (e : Edges) : Arr2 100000 128 :=
  (Host.scatterAdd (F := Ideal) scatter_S100000x128_S1600000x1_S1600000x128_1_0_0_1 (Read.val_main_v11 (F := Ideal)) (Read.val_main_v12 (F := Ideal) e)
    (Host.gather gather_S100000x128_S1600000x1_S1600000x128_1_0_n_n_0_1_1128 (h : FVec Ideal S100000x128 .f32) (Read.val_main_v9 (F := Ideal) e)) :
      FVec Ideal S100000x128 .f32)

/-- The neighbourhood mean of a node table. -/
def mean (h : Arr2 100000 128) (e : Edges) : Arr2 100000 128 := meanDiv (nbrSum h e) (degree e)

/-- The node table after the first layer. -/
def hidden1 (x0 : (⟨S100000x128, .f32⟩ : BufTy).Contents (Elt Ideal)) (e : Edges) (x2 : (⟨S128x128, .f32⟩ : BufTy).Contents (Elt Ideal)) (x3 : (⟨S128, .f32⟩ : BufTy).Contents (Elt Ideal)) (x4 : (⟨S128x128, .f32⟩ : BufTy).Contents (Elt Ideal)) (x5 x6 x7 x8 : (⟨S128, .f32⟩ : BufTy).Contents (Elt Ideal)) : Arr2 100000 128 :=
  layer (mean x0 e) x0 x2 x3 x4 x5 x6 x7 x8

/-- The node table after the second layer. -/
def hidden2 (x0 : (⟨S100000x128, .f32⟩ : BufTy).Contents (Elt Ideal)) (e : Edges) (x2 : (⟨S128x128, .f32⟩ : BufTy).Contents (Elt Ideal)) (x3 : (⟨S128, .f32⟩ : BufTy).Contents (Elt Ideal)) (x4 : (⟨S128x128, .f32⟩ : BufTy).Contents (Elt Ideal)) (x5 x6 x7 x8 : (⟨S128, .f32⟩ : BufTy).Contents (Elt Ideal)) (x9 : (⟨S128x128, .f32⟩ : BufTy).Contents (Elt Ideal)) (x10 : (⟨S128, .f32⟩ : BufTy).Contents (Elt Ideal)) (x11 : (⟨S128x128, .f32⟩ : BufTy).Contents (Elt Ideal)) (x12 x13 x14 x15 : (⟨S128, .f32⟩ : BufTy).Contents (Elt Ideal)) : Arr2 100000 128 :=
  layerRes (mean (hidden1 x0 e x2 x3 x4 x5 x6 x7 x8) e) (hidden1 x0 e x2 x3 x4 x5 x6 x7 x8) x9 x10 x11 x12 x13 x14 x15

/-- The node table after the third layer. -/
def hidden3 (x0 : (⟨S100000x128, .f32⟩ : BufTy).Contents (Elt Ideal)) (e : Edges) (x2 : (⟨S128x128, .f32⟩ : BufTy).Contents (Elt Ideal)) (x3 : (⟨S128, .f32⟩ : BufTy).Contents (Elt Ideal)) (x4 : (⟨S128x128, .f32⟩ : BufTy).Contents (Elt Ideal)) (x5 x6 x7 x8 : (⟨S128, .f32⟩ : BufTy).Contents (Elt Ideal)) (x9 : (⟨S128x128, .f32⟩ : BufTy).Contents (Elt Ideal)) (x10 : (⟨S128, .f32⟩ : BufTy).Contents (Elt Ideal)) (x11 : (⟨S128x128, .f32⟩ : BufTy).Contents (Elt Ideal)) (x12 x13 x14 x15 : (⟨S128, .f32⟩ : BufTy).Contents (Elt Ideal)) (x16 : (⟨S128x128, .f32⟩ : BufTy).Contents (Elt Ideal)) (x17 : (⟨S128, .f32⟩ : BufTy).Contents (Elt Ideal)) (x18 : (⟨S128x128, .f32⟩ : BufTy).Contents (Elt Ideal)) (x19 x20 x21 x22 : (⟨S128, .f32⟩ : BufTy).Contents (Elt Ideal)) : Arr2 100000 128 :=
  layerRes (mean (hidden2 x0 e x2 x3 x4 x5 x6 x7 x8 x9 x10 x11 x12 x13 x14 x15) e) (hidden2 x0 e x2 x3 x4 x5 x6 x7 x8 x9 x10 x11 x12 x13 x14 x15) x16 x17 x18 x19 x20 x21 x22

/-- The network's output. -/
def net (x0 : (⟨S100000x128, .f32⟩ : BufTy).Contents (Elt Ideal)) (e : Edges) (x2 : (⟨S128x128, .f32⟩ : BufTy).Contents (Elt Ideal)) (x3 : (⟨S128, .f32⟩ : BufTy).Contents (Elt Ideal)) (x4 : (⟨S128x128, .f32⟩ : BufTy).Contents (Elt Ideal)) (x5 x6 x7 x8 : (⟨S128, .f32⟩ : BufTy).Contents (Elt Ideal)) (x9 : (⟨S128x128, .f32⟩ : BufTy).Contents (Elt Ideal)) (x10 : (⟨S128, .f32⟩ : BufTy).Contents (Elt Ideal)) (x11 : (⟨S128x128, .f32⟩ : BufTy).Contents (Elt Ideal)) (x12 x13 x14 x15 : (⟨S128, .f32⟩ : BufTy).Contents (Elt Ideal)) (x16 : (⟨S128x128, .f32⟩ : BufTy).Contents (Elt Ideal)) (x17 : (⟨S128, .f32⟩ : BufTy).Contents (Elt Ideal)) (x18 : (⟨S128x128, .f32⟩ : BufTy).Contents (Elt Ideal)) (x19 x20 x21 x22 : (⟨S128, .f32⟩ : BufTy).Contents (Elt Ideal))
    (x23 : (⟨S128x64, .f32⟩ : BufTy).Contents (Elt Ideal)) (x24 : (⟨S64, .f32⟩ : BufTy).Contents (Elt Ideal)) : Arr2 100000 64 :=
  proj (hidden3 x0 e x2 x3 x4 x5 x6 x7 x8 x9 x10 x11 x12 x13 x14 x15 x16 x17 x18 x19 x20 x21 x22) x23 x24

end Cert.Sage

end
-- ==== Proof.Layer0.lean ====
/-
  The first layer's pipelined region, read as one function of its input arrays.

  The region visits ten grid points; at point `t` it stages rows `10000·t … 10000·t + 9999` of the neighbour sums, of the
  per-node scale and of the node table, together with the whole of the two weight matrices, the bias and the four
  batch-normalisation vectors, and writes back one `[10000, 128]` block of the output.  At row `p` and feature `q` of
  that block the body computes

      max( ((Σₖ (agg[p,k]·s[p,0])·Wl[k,q] + bl[q] + Σₖ h[p,k]·Wr[k,q]) − rm[q]) · rsqrt(rv[q] + ε) · g[q] + be[q], 0 )

  on the staged blocks (`pay_apply`).  A staged block read at `(p, ·)` is the array read at row `10000·t + p`, and a
  whole-array block is the array itself (`blk_*`), so what point `t` writes back is block `t` of the layer function of
  the arrays (`flushed_eq`).  Row `r` of the output lies in the block of point `r / 10000`, so the ten blocks cover the
  output array, which therefore ends holding the layer function everywhere (`final`).
-/
import proofs.«155787_j30477087932645_1_alg».proof.Proof.GenP.KernelIdeal.Frame
import proofs.«155787_j30477087932645_1_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Layer0

open Idealize.ShloMosaic Idealize.ShloMosaic.TcCoe Idealize.SL.Sem Idealize.ShloMosaic.ValueIdx
open Idealize.ShloMosaic.Pipeline (Dat)
open Cert.KernelIdeal Cert.KernelIdeal.Gen Cert.KernelIdeal.GenP Cert.Sage

/-! ## The two operations of the body that are not pointwise -/

/-- A `[a, 1]` column broadcast to `[a, b]` reads, at `(p, c)`, the column's entry of row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The left operand's index in the product: its row is the output's row. -/
theorem lhs_row (i : S10000x128.Idx) (r : dot_S10000x128_S128x128_S10000x128_1_0_0_1_n_n.contr.Idx) :
    (dot_S10000x128_S128x128_S10000x128_1_0_0_1_n_n.lhsIdx i r 0).val = (i 0).val := by
  unfold DotDims.lhsIdx
  rw [dif_neg (show ¬(0 : Fin S10000x128.rank) ∈ dot_S10000x128_S128x128_S10000x128_1_0_0_1_n_n.lhsBatch by decide),
    dif_pos (show (0 : Fin S10000x128.rank) ∈ dot_S10000x128_S128x128_S10000x128_1_0_0_1_n_n.lhsNonContracting by decide)]
  rfl
/-- Its column is the contracted coordinate. -/
theorem lhs_col (i : S10000x128.Idx) (r : dot_S10000x128_S128x128_S10000x128_1_0_0_1_n_n.contr.Idx) :
    (dot_S10000x128_S128x128_S10000x128_1_0_0_1_n_n.lhsIdx i r 1).val = (r ⟨0, by decide⟩).val :=
  dot_S10000x128_S128x128_S10000x128_1_0_0_1_n_n.lhsIdx_val_of_single rfl i r
/-- The right operand's row is the contracted coordinate. -/
theorem rhs_row (i : S10000x128.Idx) (r : dot_S10000x128_S128x128_S10000x128_1_0_0_1_n_n.contr.Idx) :
    (dot_S10000x128_S128x128_S10000x128_1_0_0_1_n_n.rhsIdx i r 0).val = (r ⟨0, by decide⟩).val :=
  dot_S10000x128_S128x128_S10000x128_1_0_0_1_n_n.rhsIdx_val_of_single rfl i r
/-- Its column is the output's column. -/
theorem rhs_col (i : S10000x128.Idx) (r : dot_S10000x128_S128x128_S10000x128_1_0_0_1_n_n.contr.Idx) :
    (dot_S10000x128_S128x128_S10000x128_1_0_0_1_n_n.rhsIdx i r 1).val = (i 1).val := by
  unfold DotDims.rhsIdx
  rw [dif_neg (show ¬(1 : Fin S128x128.rank) ∈ dot_S10000x128_S128x128_S10000x128_1_0_0_1_n_n.rhsBatch by decide),
    dif_pos (show (1 : Fin S128x128.rank) ∈ dot_S10000x128_S128x128_S10000x128_1_0_0_1_n_n.rhsNonContracting by decide)]
  rfl

/-- The body's matrix product with a zero accumulator, read at `(p, q)`: row `p` of the left operand against column `q`
    of the right one. -/
theorem matmul_apply (A : FVec Ideal S10000x128 .f32) (W : FVec Ideal S128x128 .f32) (p : Fin 10000) (q : Fin 128) :
    matmul (F := Ideal) (φ₁ := .f32) (φ₂ := .f32) dot_S10000x128_S128x128_S10000x128_1_0_0_1_n_n (some .fp32) A W
        (constant (F := Ideal) S10000x128 .f32 0x00000000#32) (ix2 p q)
      = ∑ k : Fin 128, A (ix2 p k) * W (ix2 k q) := by
  show FloatOps.matmul dot_S10000x128_S128x128_S10000x128_1_0_0_1_n_n (some .fp32) A W
        (constant (F := Ideal) S10000x128 .f32 0x00000000#32) (ix2 p q) = _
  rw [Ideal.matmul_constant_zero_apply,
    ← Equiv.sum_comp (contrEquiv1 dot_S10000x128_S128x128_S10000x128_1_0_0_1_n_n 128 rfl rfl).symm]
  refine Finset.sum_congr rfl fun k _ => ?_
  have hk := contrEquiv1_symm_val dot_S10000x128_S128x128_S10000x128_1_0_0_1_n_n 128 rfl rfl k
  have el : dot_S10000x128_S128x128_S10000x128_1_0_0_1_n_n.lhsIdx (ix2 p q) ((contrEquiv1 dot_S10000x128_S128x128_S10000x128_1_0_0_1_n_n 128 rfl rfl).symm k) = ix2 p k :=
    funext fun a => Fin.ext (by
      match a with
      | ⟨0, _⟩ => exact lhs_row _ _
      | ⟨1, _⟩ => exact (lhs_col _ _).trans hk)
  have er : dot_S10000x128_S128x128_S10000x128_1_0_0_1_n_n.rhsIdx (ix2 p q) ((contrEquiv1 dot_S10000x128_S128x128_S10000x128_1_0_0_1_n_n 128 rfl rfl).symm k) = ix2 k q :=
    funext fun a => Fin.ext (by
      match a with
      | ⟨0, _⟩ => exact (rhs_row _ _).trans hk
      | ⟨1, _⟩ => exact rhs_col _ _)
  rw [el, er]

/-- A `[128]` vector laid out as one row and repeated down the block reads, at `(p, q)`, the vector at `q`. -/
theorem row_apply (v : FVec Ideal S128 .f32) (p : Fin 10000) (q : Fin 128) :
    broadcastTo S10000x128 (shapeCast S1x128 v shapeCasts_S128_S1x128) broadcasts_S1x128_S10000x128 (ix2 p q)
      = v (ix1 q) :=
  (broadcastTo_1b_ab_apply _ _ p q).trans (shapeCast_a_1a_apply v _ 0 q)

/-! ## The body's payload at an index -/

/-- What the body computes at row `p`, feature `q` of its block, from the staged blocks: the neighbour sums scaled per row
    and taken through `Wl`, the bias, the rows of the node table through `Wr`, then the normalisation and the clamp at zero. -/
theorem pay_apply (x0 : Vec Ideal S10000x128 .f32) (x1 : Vec Ideal S10000x1 .f32) (x2 : Vec Ideal S10000x128 .f32)
    (x3 : Vec Ideal S128x128 .f32) (x4 : Vec Ideal S128 .f32) (x5 : Vec Ideal S128x128 .f32)
    (rm rv g be : Vec Ideal S128 .f32) (p : Fin 10000) (q : Fin 128) :
    k0_pay1 (F := Ideal) x0 x1 x2 x3 x4 x5 rm rv g be (ix2 p q)
      = max (((((∑ k : Fin 128, (x0 (ix2 p k) * x1 (ix2 p (0 : Fin 1))) * x3 (ix2 k q)) + x4 (ix1 q)
            + ∑ k : Fin 128, x2 (ix2 p k) * x5 (ix2 k q)) - rm (ix1 q))
          * Ideal.rsqrt (rv (ix1 q) + eps) * g (ix1 q) + be (ix1 q))) zero32 := by
  unfold k0_pay1
  simp only [maximumf_apply, addf_apply, subf_apply, mulf_apply, broadcast_apply]
  rw [matmul_apply, matmul_apply, row_apply, row_apply, row_apply, row_apply, row_apply]
  simp only [mulf_apply, shapeCast_self, broadcastTo_a1_ab_apply]
  rfl

variable (V : (c : Dev nD) → (b : Ref sig .tc) → Buf (Elt Ideal) ((c : Thread nD τ).loc b))

/-! ## The blocks a point reads, as rows of the arrays -/

theorem hz : (![0, 0] : Fin 2 → Nat) = fun _ => 0 := funext fun a => by fin_cases a <;> rfl
theorem hz1 : (![0] : Fin 1 → Nat) = fun _ => 0 := funext fun a => by fin_cases a; rfl

/-- The index maps of the three row-blocked inputs over the ten grid points: their row block moves with the output's
    and their column block is the only one; the output's row-block index stays below ten. -/
theorem idx_rows : ∀ t : Fin cfg0.N,
    win0_0.index t (0 : Fin 2) = win0_10.index t (0 : Fin 2) ∧ win0_0.index t (1 : Fin 2) = 0
    ∧ win0_1.index t (0 : Fin 2) = win0_10.index t (0 : Fin 2) ∧ win0_1.index t (1 : Fin 2) = 0
    ∧ win0_2.index t (0 : Fin 2) = win0_10.index t (0 : Fin 2) ∧ win0_2.index t (1 : Fin 2) = 0
    ∧ win0_10.index t (1 : Fin 2) = 0 ∧ win0_10.index t (0 : Fin 2) ≤ 9 :=
  (by decide +kernel : ∀ t : Fin grid0.N, _)

/-- The index maps of the seven parameter arrays: every block index is zero, the array is staged whole. -/
theorem idx_whole : ∀ t : Fin cfg0.N,
    win0_3.index t (0 : Fin 2) = 0 ∧ win0_3.index t (1 : Fin 2) = 0
    ∧ win0_5.index t (0 : Fin 2) = 0 ∧ win0_5.index t (1 : Fin 2) = 0
    ∧ win0_4.index t (0 : Fin 1) = 0 ∧ win0_6.index t (0 : Fin 1) = 0 ∧ win0_7.index t (0 : Fin 1) = 0
    ∧ win0_8.index t (0 : Fin 1) = 0 ∧ win0_9.index t (0 : Fin 1) = 0 :=
  (by decide +kernel : ∀ t : Fin grid0.N, _)

/-- Every row block of the output is some point's. -/
theorem idx_onto : ∀ q0 : Fin 10, ∃ t : Fin cfg0.N, win0_10.index t = ![q0.val, 0] :=
  (by decide +kernel : ∀ q0 : Fin 10, ∃ t : Fin grid0.N, win0_10.index t = ![q0.val, 0])

/-- Row `p` of the neighbour sums' block at point `t` is row `10000·(t's block index) + p` of the array. -/
theorem blk_agg (c : Dev nD) (t : Fin cfg0.N) (x : S10000x128.Idx) (k : S100000x128.Idx)
    (hk0 : (k 0).val = win0_10.index t (0 : Fin 2) * 10000 + (x 0).val) (hk1 : (k 1).val = (x 1).val) :
    (iblk0 V c 0 t : Vec Ideal S10000x128 .f32) x = (V c main_v21 : S100000x128.Idx → EReal) k := by
  obtain ⟨e0, e1, -⟩ := idx_rows t
  unfold iblk0
  rw [View.read_apply]
  show V c main_v21 _ = V c main_v21 _
  refine congrArg (V c main_v21) ?_
  funext a
  apply Fin.ext
  match a with
  | ⟨0, _⟩ => show win0_0.index t (0 : Fin 2) * 10000 + 1 * (x 0).val = (k 0).val; rw [e0, hk0]; omega
  | ⟨1, _⟩ => show win0_0.index t (1 : Fin 2) * 128 + 1 * (x 1).val = (k 1).val; rw [e1, hk1]; omega

/-- Row `p` of the per-node scale's block at point `t` is row `10000·(t's block index) + p` of the array. -/
theorem blk_scale (c : Dev nD) (t : Fin cfg0.N) (x : S10000x1.Idx) (k : S100000x1.Idx)
    (hk0 : (k 0).val = win0_10.index t (0 : Fin 2) * 10000 + (x 0).val) (hk1 : (k 1).val = (x 1).val) :
    (iblk0 V c 1 t : Vec Ideal S10000x1 .f32) x = (V c main_v22 : S100000x1.Idx → EReal) k := by
  obtain ⟨-, -, e0, e1, -⟩ := idx_rows t
  unfold iblk0
  rw [View.read_apply]
  show V c main_v22 _ = V c main_v22 _
  refine congrArg (V c main_v22) ?_
  funext a
  apply Fin.ext
  match a with
  | ⟨0, _⟩ => show win0_1.index t (0 : Fin 2) * 10000 + 1 * (x 0).val = (k 0).val; rw [e0, hk0]; omega
  | ⟨1, _⟩ => show win0_1.index t (1 : Fin 2) * 1 + 1 * (x 1).val = (k 1).val; rw [e1, hk1]; omega

/-- Row `p` of the node table's block at point `t` is row `10000·(t's block index) + p` of the array. -/
theorem blk_h (c : Dev nD) (t : Fin cfg0.N) (x : S10000x128.Idx) (k : S100000x128.Idx)
    (hk0 : (k 0).val = win0_10.index t (0 : Fin 2) * 10000 + (x 0).val) (hk1 : (k 1).val = (x 1).val) :
    (iblk0 V c 2 t : Vec Ideal S10000x128 .f32) x = (V c main_arg0 : S100000x128.Idx → EReal) k := by
  obtain ⟨-, -, -, -, e0, e1, -⟩ := idx_rows t
  unfold iblk0
  rw [View.read_apply]
  show V c main_arg0 _ = V c main_arg0 _
  refine congrArg (V c main_arg0) ?_
  funext a
  apply Fin.ext
  match a with
  | ⟨0, _⟩ => show win0_2.index t (0 : Fin 2) * 10000 + 1 * (x 0).val = (k 0).val; rw [e0, hk0]; omega
  | ⟨1, _⟩ => show win0_2.index t (1 : Fin 2) * 128 + 1 * (x 1).val = (k 1).val; rw [e1, hk1]; omega

/-- The neighbours' weight matrix is staged whole at every point. -/
theorem blk_Wl (c : Dev nD) (t : Fin cfg0.N) (x : S128x128.Idx) :
    (iblk0 V c 3 t : Vec Ideal S128x128 .f32) x = (V c main_arg2 : S128x128.Idx → EReal) x := by
  obtain ⟨e0, e1, -⟩ := idx_whole t
  unfold iblk0
  rw [View.read_apply]
  show V c main_arg2 _ = V c main_arg2 _
  refine congrArg (V c main_arg2) ?_
  funext a
  apply Fin.ext
  match a with
  | ⟨0, _⟩ => show win0_3.index t (0 : Fin 2) * 128 + 1 * (x 0).val = (x 0).val; rw [e0]; omega
  | ⟨1, _⟩ => show win0_3.index t (1 : Fin 2) * 128 + 1 * (x 1).val = (x 1).val; rw [e1]; omega

/-- The nodes' weight matrix is staged whole at every point. -/
theorem blk_Wr (c : Dev nD) (t : Fin cfg0.N) (x : S128x128.Idx) :
    (iblk0 V c 5 t : Vec Ideal S128x128 .f32) x = (V c main_arg4 : S128x128.Idx → EReal) x := by
  obtain ⟨-, -, e0, e1, -⟩ := idx_whole t
  unfold iblk0
  rw [View.read_apply]
  show V c main_arg4 _ = V c main_arg4 _
  refine congrArg (V c main_arg4) ?_
  funext a
  apply Fin.ext
  match a with
  | ⟨0, _⟩ => show win0_5.index t (0 : Fin 2) * 128 + 1 * (x 0).val = (x 0).val; rw [e0]; omega
  | ⟨1, _⟩ => show win0_5.index t (1 : Fin 2) * 128 + 1 * (x 1).val = (x 1).val; rw [e1]; omega

/-- The bias is staged whole at every point. -/
theorem blk_bl (c : Dev nD) (t : Fin cfg0.N) (x : S128.Idx) :
    (iblk0 V c 4 t : Vec Ideal S128 .f32) x = (V c main_arg3 : S128.Idx → EReal) x := by
  obtain ⟨-, -, -, -, e0, -⟩ := idx_whole t
  unfold iblk0
  rw [View.read_apply]
  show V c main_arg3 _ = V c main_arg3 _
  refine congrArg (V c main_arg3) ?_
  funext a
  apply Fin.ext
  match a with
  | ⟨0, _⟩ => show win0_4.index t (0 : Fin 1) * 128 + 1 * (x 0).val = (x 0).val; rw [e0]; omega

/-- The normalisation's scale is staged whole at every point. -/
theorem blk_g (c : Dev nD) (t : Fin cfg0.N) (x : S128.Idx) :
    (iblk0 V c 6 t : Vec Ideal S128 .f32) x = (V c main_arg5 : S128.Idx → EReal) x := by
  obtain ⟨-, -, -, -, -, e0, -⟩ := idx_whole t
  unfold iblk0
  rw [View.read_apply]
  show V c main_arg5 _ = V c main_arg5 _
  refine congrArg (V c main_arg5) ?_
  funext a
  apply Fin.ext
  match a with
  | ⟨0, _⟩ => show win0_6.index t (0 : Fin 1) * 128 + 1 * (x 0).val = (x 0).val; rw [e0]; omega

/-- The normalisation's shift is staged whole at every point. -/
theorem blk_be (c : Dev nD) (t : Fin cfg0.N) (x : S128.Idx) :
    (iblk0 V c 7 t : Vec Ideal S128 .f32) x = (V c main_arg6 : S128.Idx → EReal) x := by
  obtain ⟨-, -, -, -, -, -, e0, -⟩ := idx_whole t
  unfold iblk0
  rw [View.read_apply]
  show V c main_arg6 _ = V c main_arg6 _
  refine congrArg (V c main_arg6) ?_
  funext a
  apply Fin.ext
  match a with
  | ⟨0, _⟩ => show win0_7.index t (0 : Fin 1) * 128 + 1 * (x 0).val = (x 0).val; rw [e0]; omega

/-- The running mean is staged whole at every point. -/
theorem blk_rm (c : Dev nD) (t : Fin cfg0.N) (x : S128.Idx) :
    (iblk0 V c 8 t : Vec Ideal S128 .f32) x = (V c main_arg7 : S128.Idx → EReal) x := by
  obtain ⟨-, -, -, -, -, -, -, e0, -⟩ := idx_whole t
  unfold iblk0
  rw [View.read_apply]
  show V c main_arg7 _ = V c main_arg7 _
  refine congrArg (V c main_arg7) ?_
  funext a
  apply Fin.ext
  match a with
  | ⟨0, _⟩ => show win0_8.index t (0 : Fin 1) * 128 + 1 * (x 0).val = (x 0).val; rw [e0]; omega

/-- The running variance is staged whole at every point. -/
theorem blk_rv (c : Dev nD) (t : Fin cfg0.N) (x : S128.Idx) :
    (iblk0 V c 9 t : Vec Ideal S128 .f32) x = (V c main_arg8 : S128.Idx → EReal) x := by
  obtain ⟨-, -, -, -, -, -, -, -, e0⟩ := idx_whole t
  unfold iblk0
  rw [View.read_apply]
  show V c main_arg8 _ = V c main_arg8 _
  refine congrArg (V c main_arg8) ?_
  funext a
  apply Fin.ext
  match a with
  | ⟨0, _⟩ => show win0_9.index t (0 : Fin 1) * 128 + 1 * (x 0).val = (x 0).val; rw [e0]; omega

/-! ## From the blocks to the array -/

/-- The layer function read at an index whose row is `n` and whose feature is `q`, with the mean spelt as the product it is. -/
theorem layer_apply (agg h : Arr2 100000 128) (s : Arr2 100000 1) (Wl : Arr2 128 128) (bl : Arr1 128) (Wr : Arr2 128 128)
    (g be rm rv : Arr1 128) (i : S100000x128.Idx) (n : Fin 100000) (q : Fin 128) (h0 : i 0 = n) (h1 : i 1 = q) :
    layer (meanMul agg s) h Wl bl Wr g be rm rv i
      = max (((((∑ k : Fin 128, (agg (ix2 n k) * s (ix2 n (0 : Fin 1))) * Wl (ix2 k q)) + bl (ix1 q)
            + ∑ k : Fin 128, h (ix2 n k) * Wr (ix2 k q)) - rm (ix1 q))
          * Ideal.rsqrt (rv (ix1 q) + eps) * g (ix1 q) + be (ix1 q))) zero32 := by
  subst h0 h1
  rfl

/-- What point `t` writes back is block `t` of the layer function of the arrays as the call finds them. -/
theorem flushed_eq (c : Dev nD) (t : Fin cfg0.N) :
    (dat0 (F := Ideal) V c).flushed 10 t
      = ((cfg0.win 10).blk t).view.read (Elt Ideal) (layer (meanMul (V c main_v21) (V c main_v22)) (V c main_arg0) (V c main_arg2) (V c main_arg3) (V c main_arg4) (V c main_arg5) (V c main_arg6) (V c main_arg7) (V c main_arg8)) := by
  show (cfg0.win 10).cut (grid0.coords t) ((dat0 V c).after 10 t) = _
  rw [after0_10]
  unfold out0_10
  rw [View.canon_unit_zero hz]
  simp only [View.ld_unit_zero (S := S10000x128) hz, View.ld_unit_zero (S := S10000x1) hz,
    View.ld_unit_zero (S := S128x128) hz, View.ld_unit_zero (S := S128) hz1]
  obtain ⟨-, -, -, -, -, -, e6, e7⟩ := idx_rows t
  funext j
  obtain ⟨p, q, rfl⟩ : ∃ (p : Fin 10000) (q : Fin 128), j = ix2 p q := ⟨j 0, j 1, eq_ix2 j⟩
  show k0_pay1 (F := Ideal) (iblk0 V c 0 t) (iblk0 V c 1 t) (iblk0 V c 2 t) (iblk0 V c 3 t) (iblk0 V c 4 t) (iblk0 V c 5 t) (iblk0 V c 8 t) (iblk0 V c 9 t) (iblk0 V c 6 t) (iblk0 V c 7 t) (ix2 p q)
      = layer (meanMul (V c main_v21) (V c main_v22)) (V c main_arg0) (V c main_arg2) (V c main_arg3) (V c main_arg4) (V c main_arg5) (V c main_arg6) (V c main_arg7) (V c main_arg8) (((cfg0.win 10).blk t).view.emb (ix2 p q))
  refine (pay_apply (iblk0 V c 0 t) (iblk0 V c 1 t) (iblk0 V c 2 t) (iblk0 V c 3 t) (iblk0 V c 4 t) (iblk0 V c 5 t) (iblk0 V c 8 t) (iblk0 V c 9 t) (iblk0 V c 6 t) (iblk0 V c 7 t) p q).trans ?_
  obtain ⟨n, hn0⟩ : ∃ n : Fin 100000, (((cfg0.win 10).blk t).view.emb (ix2 p q)) 0 = n := ⟨_, rfl⟩
  have hj : (((cfg0.win 10).blk t).view.emb (ix2 p q)) 1 = q := Fin.ext (by
    show win0_10.index t (1 : Fin 2) * 128 + 1 * q.val = q.val
    rw [e6]; omega)
  have hn : n.val = win0_10.index t (0 : Fin 2) * 10000 + p.val := by
    rw [← hn0]
    show win0_10.index t (0 : Fin 2) * 10000 + 1 * p.val = _
    omega
  refine Eq.trans ?_ (layer_apply _ _ _ _ _ _ _ _ _ _ _ n q hn0 hj).symm
  have a0 : ∀ k : Fin 128, (iblk0 V c 0 t : Vec Ideal S10000x128 .f32) (ix2 p k) = (V c main_v21 : S100000x128.Idx → EReal) (ix2 n k) :=
    fun k => blk_agg V c t (ix2 p k) (ix2 n k) hn rfl
  have a1 : (iblk0 V c 1 t : Vec Ideal S10000x1 .f32) (ix2 p (0 : Fin 1)) = (V c main_v22 : S100000x1.Idx → EReal) (ix2 n (0 : Fin 1)) :=
    blk_scale V c t (ix2 p (0 : Fin 1)) (ix2 n (0 : Fin 1)) hn rfl
  have a2 : ∀ k : Fin 128, (iblk0 V c 2 t : Vec Ideal S10000x128 .f32) (ix2 p k) = (V c main_arg0 : S100000x128.Idx → EReal) (ix2 n k) :=
    fun k => blk_h V c t (ix2 p k) (ix2 n k) hn rfl
  simp only [a0, a1, a2, blk_Wl V c t, blk_bl V c t, blk_Wr V c t, blk_g V c t, blk_be V c t, blk_rm V c t, blk_rv V c t]

/-- An index of the output is in point `t`'s block iff each coordinate is in the block's range on its axis. -/
theorem mem_blk (t : Fin cfg0.N) (i : S100000x128.Idx) :
    i ∈ ((cfg0.win 10).blk t).view.set ↔ ∀ a : Fin 2, win0_10.index t a * S10000x128.size a ≤ (i a).val
      ∧ (i a).val < win0_10.index t a * S10000x128.size a + S10000x128.size a := by
  show i ∈ ((View.whole main_v23).slice (win0_10.rect t)).set ↔ _
  rw [View.set_slice_whole, Rect.mem_set_unit]
  exact Iff.rfl

/-- The ten row blocks tile the output: row `r` is in the block of the point whose block index is `r / 10000`. -/
theorem cover (i : S100000x128.Idx) :
    ∃ t : Fin cfg0.N, (cfg0.win 10).flush t = true ∧ i ∈ ((cfg0.win 10).blk t).view.set := by
  have hi0 : (i 0).val < 100000 := (i 0).isLt
  have hi1 : (i 1).val < 128 := (i 1).isLt
  obtain ⟨t, ht⟩ := idx_onto ⟨(i 0).val / 10000, by omega⟩
  have q0 : win0_10.index t (0 : Fin 2) = (i 0).val / 10000 := congrFun ht 0
  have q1 : win0_10.index t (1 : Fin 2) = 0 := congrFun ht 1
  refine ⟨t, flush0_10 t, ?_⟩
  rw [mem_blk]
  intro a
  match a with
  | ⟨0, _⟩ =>
    show win0_10.index t (0 : Fin 2) * 10000 ≤ (i 0).val ∧ (i 0).val < win0_10.index t (0 : Fin 2) * 10000 + 10000
    omega
  | ⟨1, _⟩ =>
    show win0_10.index t (1 : Fin 2) * 128 ≤ (i 1).val ∧ (i 1).val < win0_10.index t (1 : Fin 2) * 128 + 128
    omega

/-- The output array after the call: the layer function of the arrays as the call finds them. -/

theorem final (c : Dev nD) :
    (dat0 (F := Ideal) V c).arrAt 10 cfg0.N
      = layer (meanMul (V c main_v21) (V c main_v22)) (V c main_arg0) (V c main_arg2) (V c main_arg3) (V c main_arg4) (V c main_arg5) (V c main_arg6) (V c main_arg7) (V c main_arg8) := by
  exact (dat0 (F := Ideal) V c).arrAt_eq_of_cover 10 (layer (meanMul (V c main_v21) (V c main_v22)) (V c main_arg0) (V c main_arg2) (V c main_arg3) (V c main_arg4) (V c main_arg5) (V c main_arg6) (V c main_arg7) (V c main_arg8))
    (fun t _ => flushed_eq V c t) cover

end Cert.KernelIdeal.Layer0

end
-- ==== Proof.Layer1.lean ====
/-
  The second layer's pipelined region, read as one function of its input arrays.

  The region visits ten grid points; at point `t` it stages rows `10000·t … 10000·t + 9999` of the neighbour sums, of the
  per-node scale and of the layer's input table, together with the whole of the two weight matrices, the bias and the four
  batch-normalisation vectors, and writes back one `[10000, 128]` block of the output.  At row `p` and feature `q` of
  that block the body computes

      max( ((Σₖ (agg[p,k]·s[p,0])·Wl[k,q] + bl[q] + Σₖ h[p,k]·Wr[k,q]) − rm[q]) · rsqrt(rv[q] + ε) · g[q] + be[q], 0 ) + h[p,q]

  on the staged blocks (`pay_apply`): the normalised, clamped linear part with the layer's own input added back.  A staged
  block read at `(p, ·)` is the array read at row `10000·t + p`, and a whole-array block is the array itself (`blk_*`), so
  what point `t` writes back is block `t` of the residual layer function of the arrays (`flushed_eq`).  Row `r` of the
  output lies in the block of point `r / 10000`, so the ten blocks cover the output array, which therefore ends holding
  the residual layer function everywhere (`final`).
-/
import proofs.«155787_j30477087932645_1_alg».proof.Proof.GenP.KernelIdeal.Frame
import proofs.«155787_j30477087932645_1_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Layer1

open Idealize.ShloMosaic Idealize.ShloMosaic.TcCoe Idealize.SL.Sem Idealize.ShloMosaic.ValueIdx
open Idealize.ShloMosaic.Pipeline (Dat)
open Cert.KernelIdeal Cert.KernelIdeal.Gen Cert.KernelIdeal.GenP Cert.Sage

/-! ## The two operations of the body that are not pointwise -/

/-- A `[a, 1]` column broadcast to `[a, b]` reads, at `(p, c)`, the column's entry of row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The left operand's index in the product: its row is the output's row. -/
theorem lhs_row (i : S10000x128.Idx) (r : dot_S10000x128_S128x128_S10000x128_1_0_0_1_n_n.contr.Idx) :
    (dot_S10000x128_S128x128_S10000x128_1_0_0_1_n_n.lhsIdx i r 0).val = (i 0).val := by
  unfold DotDims.lhsIdx
  rw [dif_neg (show ¬(0 : Fin S10000x128.rank) ∈ dot_S10000x128_S128x128_S10000x128_1_0_0_1_n_n.lhsBatch by decide),
    dif_pos (show (0 : Fin S10000x128.rank) ∈ dot_S10000x128_S128x128_S10000x128_1_0_0_1_n_n.lhsNonContracting by decide)]
  rfl
/-- Its column is the contracted coordinate. -/
theorem lhs_col (i : S10000x128.Idx) (r : dot_S10000x128_S128x128_S10000x128_1_0_0_1_n_n.contr.Idx) :
    (dot_S10000x128_S128x128_S10000x128_1_0_0_1_n_n.lhsIdx i r 1).val = (r ⟨0, by decide⟩).val :=
  dot_S10000x128_S128x128_S10000x128_1_0_0_1_n_n.lhsIdx_val_of_single rfl i r
/-- The right operand's row is the contracted coordinate. -/
theorem rhs_row (i : S10000x128.Idx) (r : dot_S10000x128_S128x128_S10000x128_1_0_0_1_n_n.contr.Idx) :
    (dot_S10000x128_S128x128_S10000x128_1_0_0_1_n_n.rhsIdx i r 0).val = (r ⟨0, by decide⟩).val :=
  dot_S10000x128_S128x128_S10000x128_1_0_0_1_n_n.rhsIdx_val_of_single rfl i r
/-- Its column is the output's column. -/
theorem rhs_col (i : S10000x128.Idx) (r : dot_S10000x128_S128x128_S10000x128_1_0_0_1_n_n.contr.Idx) :
    (dot_S10000x128_S128x128_S10000x128_1_0_0_1_n_n.rhsIdx i r 1).val = (i 1).val := by
  unfold DotDims.rhsIdx
  rw [dif_neg (show ¬(1 : Fin S128x128.rank) ∈ dot_S10000x128_S128x128_S10000x128_1_0_0_1_n_n.rhsBatch by decide),
    dif_pos (show (1 : Fin S128x128.rank) ∈ dot_S10000x128_S128x128_S10000x128_1_0_0_1_n_n.rhsNonContracting by decide)]
  rfl

/-- The body's matrix product with a zero accumulator, read at `(p, q)`: row `p` of the left operand against column `q`
    of the right one. -/
theorem matmul_apply (A : FVec Ideal S10000x128 .f32) (W : FVec Ideal S128x128 .f32) (p : Fin 10000) (q : Fin 128) :
    matmul (F := Ideal) (φ₁ := .f32) (φ₂ := .f32) dot_S10000x128_S128x128_S10000x128_1_0_0_1_n_n (some .fp32) A W
        (constant (F := Ideal) S10000x128 .f32 0x00000000#32) (ix2 p q)
      = ∑ k : Fin 128, A (ix2 p k) * W (ix2 k q) := by
  show FloatOps.matmul dot_S10000x128_S128x128_S10000x128_1_0_0_1_n_n (some .fp32) A W
        (constant (F := Ideal) S10000x128 .f32 0x00000000#32) (ix2 p q) = _
  rw [Ideal.matmul_constant_zero_apply,
    ← Equiv.sum_comp (contrEquiv1 dot_S10000x128_S128x128_S10000x128_1_0_0_1_n_n 128 rfl rfl).symm]
  refine Finset.sum_congr rfl fun k _ => ?_
  have hk := contrEquiv1_symm_val dot_S10000x128_S128x128_S10000x128_1_0_0_1_n_n 128 rfl rfl k
  have el : dot_S10000x128_S128x128_S10000x128_1_0_0_1_n_n.lhsIdx (ix2 p q) ((contrEquiv1 dot_S10000x128_S128x128_S10000x128_1_0_0_1_n_n 128 rfl rfl).symm k) = ix2 p k :=
    funext fun a => Fin.ext (by
      match a with
      | ⟨0, _⟩ => exact lhs_row _ _
      | ⟨1, _⟩ => exact (lhs_col _ _).trans hk)
  have er : dot_S10000x128_S128x128_S10000x128_1_0_0_1_n_n.rhsIdx (ix2 p q) ((contrEquiv1 dot_S10000x128_S128x128_S10000x128_1_0_0_1_n_n 128 rfl rfl).symm k) = ix2 k q :=
    funext fun a => Fin.ext (by
      match a with
      | ⟨0, _⟩ => exact (rhs_row _ _).trans hk
      | ⟨1, _⟩ => exact rhs_col _ _)
  rw [el, er]

/-- A `[128]` vector laid out as one row and repeated down the block reads, at `(p, q)`, the vector at `q`. -/
theorem row_apply (v : FVec Ideal S128 .f32) (p : Fin 10000) (q : Fin 128) :
    broadcastTo S10000x128 (shapeCast S1x128 v shapeCasts_S128_S1x128) broadcasts_S1x128_S10000x128 (ix2 p q)
      = v (ix1 q) :=
  (broadcastTo_1b_ab_apply _ _ p q).trans (shapeCast_a_1a_apply v _ 0 q)

/-! ## The body's payload at an index -/

/-- What the body computes at row `p`, feature `q` of its block, from the staged blocks: the neighbour sums scaled per row
    and taken through `Wl`, the bias, the rows of the input table through `Wr`, then the normalisation and the clamp at zero,
    and last the input's own entry added back. -/
theorem pay_apply (x0 : Vec Ideal S10000x128 .f32) (x1 : Vec Ideal S10000x1 .f32) (x2 : Vec Ideal S10000x128 .f32)
    (x3 : Vec Ideal S128x128 .f32) (x4 : Vec Ideal S128 .f32) (x5 : Vec Ideal S128x128 .f32)
    (rm rv g be : Vec Ideal S128 .f32) (p : Fin 10000) (q : Fin 128) :
    k1_pay1 (F := Ideal) x0 x1 x2 x3 x4 x5 rm rv g be (ix2 p q)
      = max (((((∑ k : Fin 128, (x0 (ix2 p k) * x1 (ix2 p (0 : Fin 1))) * x3 (ix2 k q)) + x4 (ix1 q)
            + ∑ k : Fin 128, x2 (ix2 p k) * x5 (ix2 k q)) - rm (ix1 q))
          * Ideal.rsqrt (rv (ix1 q) + eps) * g (ix1 q) + be (ix1 q))) zero32 + x2 (ix2 p q) := by
  unfold k1_pay1
  simp only [maximumf_apply, addf_apply, subf_apply, mulf_apply, broadcast_apply]
  rw [matmul_apply, matmul_apply, row_apply, row_apply, row_apply, row_apply, row_apply]
  simp only [mulf_apply, shapeCast_self, broadcastTo_a1_ab_apply]
  rfl

variable (V : (c : Dev nD) → (b : Ref sig .tc) → Buf (Elt Ideal) ((c : Thread nD τ).loc b))

/-! ## The blocks a point reads, as rows of the arrays -/

theorem hz : (![0, 0] : Fin 2 → Nat) = fun _ => 0 := funext fun a => by fin_cases a <;> rfl
theorem hz1 : (![0] : Fin 1 → Nat) = fun _ => 0 := funext fun a => by fin_cases a; rfl

/-- The index maps of the three row-blocked inputs over the ten grid points: their row block moves with the output's
    and their column block is the only one; the output's row-block index stays below ten. -/
theorem idx_rows : ∀ t : Fin cfg1.N,
    win1_0.index t (0 : Fin 2) = win1_10.index t (0 : Fin 2) ∧ win1_0.index t (1 : Fin 2) = 0
    ∧ win1_1.index t (0 : Fin 2) = win1_10.index t (0 : Fin 2) ∧ win1_1.index t (1 : Fin 2) = 0
    ∧ win1_2.index t (0 : Fin 2) = win1_10.index t (0 : Fin 2) ∧ win1_2.index t (1 : Fin 2) = 0
    ∧ win1_10.index t (1 : Fin 2) = 0 ∧ win1_10.index t (0 : Fin 2) ≤ 9 :=
  (by decide +kernel : ∀ t : Fin grid1.N, _)

/-- The index maps of the seven parameter arrays: every block index is zero, the array is staged whole. -/
theorem idx_whole : ∀ t : Fin cfg1.N,
    win1_3.index t (0 : Fin 2) = 0 ∧ win1_3.index t (1 : Fin 2) = 0
    ∧ win1_5.index t (0 : Fin 2) = 0 ∧ win1_5.index t (1 : Fin 2) = 0
    ∧ win1_4.index t (0 : Fin 1) = 0 ∧ win1_6.index t (0 : Fin 1) = 0 ∧ win1_7.index t (0 : Fin 1) = 0
    ∧ win1_8.index t (0 : Fin 1) = 0 ∧ win1_9.index t (0 : Fin 1) = 0 :=
  (by decide +kernel : ∀ t : Fin grid1.N, _)

/-- Every row block of the output is some point's. -/
theorem idx_onto : ∀ q0 : Fin 10, ∃ t : Fin cfg1.N, win1_10.index t = ![q0.val, 0] :=
  (by decide +kernel : ∀ q0 : Fin 10, ∃ t : Fin grid1.N, win1_10.index t = ![q0.val, 0])

/-- Row `p` of the neighbour sums' block at point `t` is row `10000·(t's block index) + p` of the array. -/
theorem blk_agg (c : Dev nD) (t : Fin cfg1.N) (x : S10000x128.Idx) (k : S100000x128.Idx)
    (hk0 : (k 0).val = win1_10.index t (0 : Fin 2) * 10000 + (x 0).val) (hk1 : (k 1).val = (x 1).val) :
    (iblk1 V c 0 t : Vec Ideal S10000x128 .f32) x = (V c main_v33 : S100000x128.Idx → EReal) k := by
  obtain ⟨e0, e1, -⟩ := idx_rows t
  unfold iblk1
  rw [View.read_apply]
  show V c main_v33 _ = V c main_v33 _
  refine congrArg (V c main_v33) ?_
  funext a
  apply Fin.ext
  match a with
  | ⟨0, _⟩ => show win1_0.index t (0 : Fin 2) * 10000 + 1 * (x 0).val = (k 0).val; rw [e0, hk0]; omega
  | ⟨1, _⟩ => show win1_0.index t (1 : Fin 2) * 128 + 1 * (x 1).val = (k 1).val; rw [e1, hk1]; omega

/-- Row `p` of the per-node scale's block at point `t` is row `10000·(t's block index) + p` of the array. -/
theorem blk_scale (c : Dev nD) (t : Fin cfg1.N) (x : S10000x1.Idx) (k : S100000x1.Idx)
    (hk0 : (k 0).val = win1_10.index t (0 : Fin 2) * 10000 + (x 0).val) (hk1 : (k 1).val = (x 1).val) :
    (iblk1 V c 1 t : Vec Ideal S10000x1 .f32) x = (V c main_v34 : S100000x1.Idx → EReal) k := by
  obtain ⟨-, -, e0, e1, -⟩ := idx_rows t
  unfold iblk1
  rw [View.read_apply]
  show V c main_v34 _ = V c main_v34 _
  refine congrArg (V c main_v34) ?_
  funext a
  apply Fin.ext
  match a with
  | ⟨0, _⟩ => show win1_1.index t (0 : Fin 2) * 10000 + 1 * (x 0).val = (k 0).val; rw [e0, hk0]; omega
  | ⟨1, _⟩ => show win1_1.index t (1 : Fin 2) * 1 + 1 * (x 1).val = (k 1).val; rw [e1, hk1]; omega

/-- Row `p` of the node table's block at point `t` is row `10000·(t's block index) + p` of the array. -/
theorem blk_h (c : Dev nD) (t : Fin cfg1.N) (x : S10000x128.Idx) (k : S100000x128.Idx)
    (hk0 : (k 0).val = win1_10.index t (0 : Fin 2) * 10000 + (x 0).val) (hk1 : (k 1).val = (x 1).val) :
    (iblk1 V c 2 t : Vec Ideal S10000x128 .f32) x = (V c main_v23 : S100000x128.Idx → EReal) k := by
  obtain ⟨-, -, -, -, e0, e1, -⟩ := idx_rows t
  unfold iblk1
  rw [View.read_apply]
  show V c main_v23 _ = V c main_v23 _
  refine congrArg (V c main_v23) ?_
  funext a
  apply Fin.ext
  match a with
  | ⟨0, _⟩ => show win1_2.index t (0 : Fin 2) * 10000 + 1 * (x 0).val = (k 0).val; rw [e0, hk0]; omega
  | ⟨1, _⟩ => show win1_2.index t (1 : Fin 2) * 128 + 1 * (x 1).val = (k 1).val; rw [e1, hk1]; omega

/-- The neighbours' weight matrix is staged whole at every point. -/
theorem blk_Wl (c : Dev nD) (t : Fin cfg1.N) (x : S128x128.Idx) :
    (iblk1 V c 3 t : Vec Ideal S128x128 .f32) x = (V c main_arg9 : S128x128.Idx → EReal) x := by
  obtain ⟨e0, e1, -⟩ := idx_whole t
  unfold iblk1
  rw [View.read_apply]
  show V c main_arg9 _ = V c main_arg9 _
  refine congrArg (V c main_arg9) ?_
  funext a
  apply Fin.ext
  match a with
  | ⟨0, _⟩ => show win1_3.index t (0 : Fin 2) * 128 + 1 * (x 0).val = (x 0).val; rw [e0]; omega
  | ⟨1, _⟩ => show win1_3.index t (1 : Fin 2) * 128 + 1 * (x 1).val = (x 1).val; rw [e1]; omega

/-- The nodes' weight matrix is staged whole at every point. -/
theorem blk_Wr (c : Dev nD) (t : Fin cfg1.N) (x : S128x128.Idx) :
    (iblk1 V c 5 t : Vec Ideal S128x128 .f32) x = (V c main_arg11 : S128x128.Idx → EReal) x := by
  obtain ⟨-, -, e0, e1, -⟩ := idx_whole t
  unfold iblk1
  rw [View.read_apply]
  show V c main_arg11 _ = V c main_arg11 _
  refine congrArg (V c main_arg11) ?_
  funext a
  apply Fin.ext
  match a with
  | ⟨0, _⟩ => show win1_5.index t (0 : Fin 2) * 128 + 1 * (x 0).val = (x 0).val; rw [e0]; omega
  | ⟨1, _⟩ => show win1_5.index t (1 : Fin 2) * 128 + 1 * (x 1).val = (x 1).val; rw [e1]; omega

/-- The bias is staged whole at every point. -/
theorem blk_bl (c : Dev nD) (t : Fin cfg1.N) (x : S128.Idx) :
    (iblk1 V c 4 t : Vec Ideal S128 .f32) x = (V c main_arg10 : S128.Idx → EReal) x := by
  obtain ⟨-, -, -, -, e0, -⟩ := idx_whole t
  unfold iblk1
  rw [View.read_apply]
  show V c main_arg10 _ = V c main_arg10 _
  refine congrArg (V c main_arg10) ?_
  funext a
  apply Fin.ext
  match a with
  | ⟨0, _⟩ => show win1_4.index t (0 : Fin 1) * 128 + 1 * (x 0).val = (x 0).val; rw [e0]; omega

/-- The normalisation's scale is staged whole at every point. -/
theorem blk_g (c : Dev nD) (t : Fin cfg1.N) (x : S128.Idx) :
    (iblk1 V c 6 t : Vec Ideal S128 .f32) x = (V c main_arg12 : S128.Idx → EReal) x := by
  obtain ⟨-, -, -, -, -, e0, -⟩ := idx_whole t
  unfold iblk1
  rw [View.read_apply]
  show V c main_arg12 _ = V c main_arg12 _
  refine congrArg (V c main_arg12) ?_
  funext a
  apply Fin.ext
  match a with
  | ⟨0, _⟩ => show win1_6.index t (0 : Fin 1) * 128 + 1 * (x 0).val = (x 0).val; rw [e0]; omega

/-- The normalisation's shift is staged whole at every point. -/
theorem blk_be (c : Dev nD) (t : Fin cfg1.N) (x : S128.Idx) :
    (iblk1 V c 7 t : Vec Ideal S128 .f32) x = (V c main_arg13 : S128.Idx → EReal) x := by
  obtain ⟨-, -, -, -, -, -, e0, -⟩ := idx_whole t
  unfold iblk1
  rw [View.read_apply]
  show V c main_arg13 _ = V c main_arg13 _
  refine congrArg (V c main_arg13) ?_
  funext a
  apply Fin.ext
  match a with
  | ⟨0, _⟩ => show win1_7.index t (0 : Fin 1) * 128 + 1 * (x 0).val = (x 0).val; rw [e0]; omega

/-- The running mean is staged whole at every point. -/
theorem blk_rm (c : Dev nD) (t : Fin cfg1.N) (x : S128.Idx) :
    (iblk1 V c 8 t : Vec Ideal S128 .f32) x = (V c main_arg14 : S128.Idx → EReal) x := by
  obtain ⟨-, -, -, -, -, -, -, e0, -⟩ := idx_whole t
  unfold iblk1
  rw [View.read_apply]
  show V c main_arg14 _ = V c main_arg14 _
  refine congrArg (V c main_arg14) ?_
  funext a
  apply Fin.ext
  match a with
  | ⟨0, _⟩ => show win1_8.index t (0 : Fin 1) * 128 + 1 * (x 0).val = (x 0).val; rw [e0]; omega

/-- The running variance is staged whole at every point. -/
theorem blk_rv (c : Dev nD) (t : Fin cfg1.N) (x : S128.Idx) :
    (iblk1 V c 9 t : Vec Ideal S128 .f32) x = (V c main_arg15 : S128.Idx → EReal) x := by
  obtain ⟨-, -, -, -, -, -, -, -, e0⟩ := idx_whole t
  unfold iblk1
  rw [View.read_apply]
  show V c main_arg15 _ = V c main_arg15 _
  refine congrArg (V c main_arg15) ?_
  funext a
  apply Fin.ext
  match a with
  | ⟨0, _⟩ => show win1_9.index t (0 : Fin 1) * 128 + 1 * (x 0).val = (x 0).val; rw [e0]; omega

/-! ## From the blocks to the array -/

/-- The layer function read at an index whose row is `n` and whose feature is `q`, with the mean spelt as the product it is. -/
theorem layer_apply (agg h : Arr2 100000 128) (s : Arr2 100000 1) (Wl : Arr2 128 128) (bl : Arr1 128) (Wr : Arr2 128 128)
    (g be rm rv : Arr1 128) (i : S100000x128.Idx) (n : Fin 100000) (q : Fin 128) (h0 : i 0 = n) (h1 : i 1 = q) :
    layerRes (meanMul agg s) h Wl bl Wr g be rm rv i
      = max (((((∑ k : Fin 128, (agg (ix2 n k) * s (ix2 n (0 : Fin 1))) * Wl (ix2 k q)) + bl (ix1 q)
            + ∑ k : Fin 128, h (ix2 n k) * Wr (ix2 k q)) - rm (ix1 q))
          * Ideal.rsqrt (rv (ix1 q) + eps) * g (ix1 q) + be (ix1 q))) zero32 + h (ix2 n q) := by
  subst h0 h1
  rfl

/-- What point `t` writes back is block `t` of the layer function of the arrays as the call finds them. -/
theorem flushed_eq (c : Dev nD) (t : Fin cfg1.N) :
    (dat1 (F := Ideal) V c).flushed 10 t
      = ((cfg1.win 10).blk t).view.read (Elt Ideal) (layerRes (meanMul (V c main_v33) (V c main_v34)) (V c main_v23) (V c main_arg9) (V c main_arg10) (V c main_arg11) (V c main_arg12) (V c main_arg13) (V c main_arg14) (V c main_arg15)) := by
  show (cfg1.win 10).cut (grid1.coords t) ((dat1 V c).after 10 t) = _
  rw [after1_10]
  unfold out1_10
  rw [View.canon_unit_zero hz]
  simp only [View.ld_unit_zero (S := S10000x128) hz, View.ld_unit_zero (S := S10000x1) hz,
    View.ld_unit_zero (S := S128x128) hz, View.ld_unit_zero (S := S128) hz1]
  obtain ⟨-, -, -, -, -, -, e6, e7⟩ := idx_rows t
  funext j
  obtain ⟨p, q, rfl⟩ : ∃ (p : Fin 10000) (q : Fin 128), j = ix2 p q := ⟨j 0, j 1, eq_ix2 j⟩
  show k1_pay1 (F := Ideal) (iblk1 V c 0 t) (iblk1 V c 1 t) (iblk1 V c 2 t) (iblk1 V c 3 t) (iblk1 V c 4 t) (iblk1 V c 5 t) (iblk1 V c 8 t) (iblk1 V c 9 t) (iblk1 V c 6 t) (iblk1 V c 7 t) (ix2 p q)
      = layerRes (meanMul (V c main_v33) (V c main_v34)) (V c main_v23) (V c main_arg9) (V c main_arg10) (V c main_arg11) (V c main_arg12) (V c main_arg13) (V c main_arg14) (V c main_arg15) (((cfg1.win 10).blk t).view.emb (ix2 p q))
  refine (pay_apply (iblk1 V c 0 t) (iblk1 V c 1 t) (iblk1 V c 2 t) (iblk1 V c 3 t) (iblk1 V c 4 t) (iblk1 V c 5 t) (iblk1 V c 8 t) (iblk1 V c 9 t) (iblk1 V c 6 t) (iblk1 V c 7 t) p q).trans ?_
  obtain ⟨n, hn0⟩ : ∃ n : Fin 100000, (((cfg1.win 10).blk t).view.emb (ix2 p q)) 0 = n := ⟨_, rfl⟩
  have hj : (((cfg1.win 10).blk t).view.emb (ix2 p q)) 1 = q := Fin.ext (by
    show win1_10.index t (1 : Fin 2) * 128 + 1 * q.val = q.val
    rw [e6]; omega)
  have hn : n.val = win1_10.index t (0 : Fin 2) * 10000 + p.val := by
    rw [← hn0]
    show win1_10.index t (0 : Fin 2) * 10000 + 1 * p.val = _
    omega
  refine Eq.trans ?_ (layer_apply _ _ _ _ _ _ _ _ _ _ _ n q hn0 hj).symm
  have a0 : ∀ k : Fin 128, (iblk1 V c 0 t : Vec Ideal S10000x128 .f32) (ix2 p k) = (V c main_v33 : S100000x128.Idx → EReal) (ix2 n k) :=
    fun k => blk_agg V c t (ix2 p k) (ix2 n k) hn rfl
  have a1 : (iblk1 V c 1 t : Vec Ideal S10000x1 .f32) (ix2 p (0 : Fin 1)) = (V c main_v34 : S100000x1.Idx → EReal) (ix2 n (0 : Fin 1)) :=
    blk_scale V c t (ix2 p (0 : Fin 1)) (ix2 n (0 : Fin 1)) hn rfl
  have a2 : ∀ k : Fin 128, (iblk1 V c 2 t : Vec Ideal S10000x128 .f32) (ix2 p k) = (V c main_v23 : S100000x128.Idx → EReal) (ix2 n k) :=
    fun k => blk_h V c t (ix2 p k) (ix2 n k) hn rfl
  simp only [a0, a1, a2, blk_Wl V c t, blk_bl V c t, blk_Wr V c t, blk_g V c t, blk_be V c t, blk_rm V c t, blk_rv V c t]

/-- An index of the output is in point `t`'s block iff each coordinate is in the block's range on its axis. -/
theorem mem_blk (t : Fin cfg1.N) (i : S100000x128.Idx) :
    i ∈ ((cfg1.win 10).blk t).view.set ↔ ∀ a : Fin 2, win1_10.index t a * S10000x128.size a ≤ (i a).val
      ∧ (i a).val < win1_10.index t a * S10000x128.size a + S10000x128.size a := by
  show i ∈ ((View.whole main_v35).slice (win1_10.rect t)).set ↔ _
  rw [View.set_slice_whole, Rect.mem_set_unit]
  exact Iff.rfl

/-- The ten row blocks tile the output: row `r` is in the block of the point whose block index is `r / 10000`. -/
theorem cover (i : S100000x128.Idx) :
    ∃ t : Fin cfg1.N, (cfg1.win 10).flush t = true ∧ i ∈ ((cfg1.win 10).blk t).view.set := by
  have hi0 : (i 0).val < 100000 := (i 0).isLt
  have hi1 : (i 1).val < 128 := (i 1).isLt
  obtain ⟨t, ht⟩ := idx_onto ⟨(i 0).val / 10000, by omega⟩
  have q0 : win1_10.index t (0 : Fin 2) = (i 0).val / 10000 := congrFun ht 0
  have q1 : win1_10.index t (1 : Fin 2) = 0 := congrFun ht 1
  refine ⟨t, flush1_10 t, ?_⟩
  rw [mem_blk]
  intro a
  match a with
  | ⟨0, _⟩ =>
    show win1_10.index t (0 : Fin 2) * 10000 ≤ (i 0).val ∧ (i 0).val < win1_10.index t (0 : Fin 2) * 10000 + 10000
    omega
  | ⟨1, _⟩ =>
    show win1_10.index t (1 : Fin 2) * 128 ≤ (i 1).val ∧ (i 1).val < win1_10.index t (1 : Fin 2) * 128 + 128
    omega

/-- The output array after the call: the layer function of the arrays as the call finds them. -/

theorem final (c : Dev nD) :
    (dat1 (F := Ideal) V c).arrAt 10 cfg1.N
      = layerRes (meanMul (V c main_v33) (V c main_v34)) (V c main_v23) (V c main_arg9) (V c main_arg10) (V c main_arg11) (V c main_arg12) (V c main_arg13) (V c main_arg14) (V c main_arg15) := by
  exact (dat1 (F := Ideal) V c).arrAt_eq_of_cover 10 (layerRes (meanMul (V c main_v33) (V c main_v34)) (V c main_v23) (V c main_arg9) (V c main_arg10) (V c main_arg11) (V c main_arg12) (V c main_arg13) (V c main_arg14) (V c main_arg15))
    (fun t _ => flushed_eq V c t) cover

end Cert.KernelIdeal.Layer1

end
-- ==== Proof.Layer2.lean ====
/-
  The third layer's pipelined region, read as one function of its input arrays.

  The region has ten grid points.  Point `t` stages the ten-thousand rows `10000·t ≤ r < 10000·(t + 1)` of three arrays —
  the neighbour sums, the per-node scale column and the layer's input table — and, whole, the two weight matrices, the
  bias and the four normalisation vectors; it writes one `[10000, 128]` block of the output.  On the staged blocks the
  body computes, at row `p` and feature `q`,

      max( ((Σₖ (agg[p,k]·s[p,0])·Wl[k,q] + bl[q] + Σₖ h[p,k]·Wr[k,q]) − rm[q]) · rsqrt(rv[q] + ε) · g[q] + be[q], 0 ) + h[p,q]

  (`pay_apply`): the layer with the mean spelt as a product, and the input added back.  Row `p` of a row-blocked
  input at point `t` is row `10000·t + p` of its array, and a block staged whole is its array (`blk_*`); hence the
  block written at point `t` is block `t` of the residual layer function of the arrays (`flushed_eq`).  Output row
  `r` belongs to the block of point `r / 10000`, so the ten blocks cover the output, and after the region the output
  array is that function everywhere (`final`).
-/
import proofs.«155787_j30477087932645_1_alg».proof.Proof.GenP.KernelIdeal.Frame
import proofs.«155787_j30477087932645_1_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Layer2

open Idealize.ShloMosaic Idealize.ShloMosaic.TcCoe Idealize.SL.Sem Idealize.ShloMosaic.ValueIdx
open Idealize.ShloMosaic.Pipeline (Dat)
open Cert.KernelIdeal Cert.KernelIdeal.Gen Cert.KernelIdeal.GenP Cert.Sage

/-! ## The two operations of the body that are not pointwise -/

/-- A `[a, 1]` column broadcast to `[a, b]` reads, at `(p, c)`, the column's entry of row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The left operand's index in the product: its row is the output's row. -/
theorem lhs_row (i : S10000x128.Idx) (r : dot_S10000x128_S128x128_S10000x128_1_0_0_1_n_n.contr.Idx) :
    (dot_S10000x128_S128x128_S10000x128_1_0_0_1_n_n.lhsIdx i r 0).val = (i 0).val := by
  unfold DotDims.lhsIdx
  rw [dif_neg (show ¬(0 : Fin S10000x128.rank) ∈ dot_S10000x128_S128x128_S10000x128_1_0_0_1_n_n.lhsBatch by decide),
    dif_pos (show (0 : Fin S10000x128.rank) ∈ dot_S10000x128_S128x128_S10000x128_1_0_0_1_n_n.lhsNonContracting by decide)]
  rfl
/-- Its column is the contracted coordinate. -/
theorem lhs_col (i : S10000x128.Idx) (r : dot_S10000x128_S128x128_S10000x128_1_0_0_1_n_n.contr.Idx) :
    (dot_S10000x128_S128x128_S10000x128_1_0_0_1_n_n.lhsIdx i r 1).val = (r ⟨0, by decide⟩).val :=
  dot_S10000x128_S128x128_S10000x128_1_0_0_1_n_n.lhsIdx_val_of_single rfl i r
/-- The right operand's row is the contracted coordinate. -/
theorem rhs_row (i : S10000x128.Idx) (r : dot_S10000x128_S128x128_S10000x128_1_0_0_1_n_n.contr.Idx) :
    (dot_S10000x128_S128x128_S10000x128_1_0_0_1_n_n.rhsIdx i r 0).val = (r ⟨0, by decide⟩).val :=
  dot_S10000x128_S128x128_S10000x128_1_0_0_1_n_n.rhsIdx_val_of_single rfl i r
/-- Its column is the output's column. -/
theorem rhs_col (i : S10000x128.Idx) (r : dot_S10000x128_S128x128_S10000x128_1_0_0_1_n_n.contr.Idx) :
    (dot_S10000x128_S128x128_S10000x128_1_0_0_1_n_n.rhsIdx i r 1).val = (i 1).val := by
  unfold DotDims.rhsIdx
  rw [dif_neg (show ¬(1 : Fin S128x128.rank) ∈ dot_S10000x128_S128x128_S10000x128_1_0_0_1_n_n.rhsBatch by decide),
    dif_pos (show (1 : Fin S128x128.rank) ∈ dot_S10000x128_S128x128_S10000x128_1_0_0_1_n_n.rhsNonContracting by decide)]
  rfl

/-- The body's matrix product with a zero accumulator, read at `(p, q)`: row `p` of the left operand against column `q`
    of the right one. -/
theorem matmul_apply (A : FVec Ideal S10000x128 .f32) (W : FVec Ideal S128x128 .f32) (p : Fin 10000) (q : Fin 128) :
    matmul (F := Ideal) (φ₁ := .f32) (φ₂ := .f32) dot_S10000x128_S128x128_S10000x128_1_0_0_1_n_n (some .fp32) A W
        (constant (F := Ideal) S10000x128 .f32 0x00000000#32) (ix2 p q)
      = ∑ k : Fin 128, A (ix2 p k) * W (ix2 k q) := by
  show FloatOps.matmul dot_S10000x128_S128x128_S10000x128_1_0_0_1_n_n (some .fp32) A W
        (constant (F := Ideal) S10000x128 .f32 0x00000000#32) (ix2 p q) = _
  rw [Ideal.matmul_constant_zero_apply,
    ← Equiv.sum_comp (contrEquiv1 dot_S10000x128_S128x128_S10000x128_1_0_0_1_n_n 128 rfl rfl).symm]
  refine Finset.sum_congr rfl fun k _ => ?_
  have hk := contrEquiv1_symm_val dot_S10000x128_S128x128_S10000x128_1_0_0_1_n_n 128 rfl rfl k
  have el : dot_S10000x128_S128x128_S10000x128_1_0_0_1_n_n.lhsIdx (ix2 p q) ((contrEquiv1 dot_S10000x128_S128x128_S10000x128_1_0_0_1_n_n 128 rfl rfl).symm k) = ix2 p k :=
    funext fun a => Fin.ext (by
      match a with
      | ⟨0, _⟩ => exact lhs_row _ _
      | ⟨1, _⟩ => exact (lhs_col _ _).trans hk)
  have er : dot_S10000x128_S128x128_S10000x128_1_0_0_1_n_n.rhsIdx (ix2 p q) ((contrEquiv1 dot_S10000x128_S128x128_S10000x128_1_0_0_1_n_n 128 rfl rfl).symm k) = ix2 k q :=
    funext fun a => Fin.ext (by
      match a with
      | ⟨0, _⟩ => exact (rhs_row _ _).trans hk
      | ⟨1, _⟩ => exact rhs_col _ _)
  rw [el, er]

/-- A `[128]` vector laid out as one row and repeated down the block reads, at `(p, q)`, the vector at `q`. -/
theorem row_apply (v : FVec Ideal S128 .f32) (p : Fin 10000) (q : Fin 128) :
    broadcastTo S10000x128 (shapeCast S1x128 v shapeCasts_S128_S1x128) broadcasts_S1x128_S10000x128 (ix2 p q)
      = v (ix1 q) :=
  (broadcastTo_1b_ab_apply _ _ p q).trans (shapeCast_a_1a_apply v _ 0 q)

/-! ## The body's payload at an index -/

/-- What the body computes at row `p`, feature `q` of its block, from the staged blocks: the neighbour sums scaled per row
    and taken through `Wl`, the bias, the rows of the input table through `Wr`, the normalisation, the clamp at zero, and
    last the input's own entry added back. -/
theorem pay_apply (x0 : Vec Ideal S10000x128 .f32) (x1 : Vec Ideal S10000x1 .f32) (x2 : Vec Ideal S10000x128 .f32)
    (x3 : Vec Ideal S128x128 .f32) (x4 : Vec Ideal S128 .f32) (x5 : Vec Ideal S128x128 .f32)
    (rm rv g be : Vec Ideal S128 .f32) (p : Fin 10000) (q : Fin 128) :
    k2_pay1 (F := Ideal) x0 x1 x2 x3 x4 x5 rm rv g be (ix2 p q)
      = max (((((∑ k : Fin 128, (x0 (ix2 p k) * x1 (ix2 p (0 : Fin 1))) * x3 (ix2 k q)) + x4 (ix1 q)
            + ∑ k : Fin 128, x2 (ix2 p k) * x5 (ix2 k q)) - rm (ix1 q))
          * Ideal.rsqrt (rv (ix1 q) + eps) * g (ix1 q) + be (ix1 q))) zero32 + x2 (ix2 p q) := by
  unfold k2_pay1
  simp only [maximumf_apply, addf_apply, subf_apply, mulf_apply, broadcast_apply]
  rw [matmul_apply, matmul_apply, row_apply, row_apply, row_apply, row_apply, row_apply]
  simp only [mulf_apply, shapeCast_self, broadcastTo_a1_ab_apply]
  rfl

variable (V : (c : Dev nD) → (b : Ref sig .tc) → Buf (Elt Ideal) ((c : Thread nD τ).loc b))

/-! ## The blocks a point reads, as rows of the arrays -/

theorem hz : (![0, 0] : Fin 2 → Nat) = fun _ => 0 := funext fun a => by fin_cases a <;> rfl
theorem hz1 : (![0] : Fin 1 → Nat) = fun _ => 0 := funext fun a => by fin_cases a; rfl

/-- The index maps of the three row-blocked inputs over the ten grid points: their row block moves with the output's
    and their column block is the only one; the output's row-block index stays below ten. -/
theorem idx_rows : ∀ t : Fin cfg2.N,
    win2_0.index t (0 : Fin 2) = win2_10.index t (0 : Fin 2) ∧ win2_0.index t (1 : Fin 2) = 0
    ∧ win2_1.index t (0 : Fin 2) = win2_10.index t (0 : Fin 2) ∧ win2_1.index t (1 : Fin 2) = 0
    ∧ win2_2.index t (0 : Fin 2) = win2_10.index t (0 : Fin 2) ∧ win2_2.index t (1 : Fin 2) = 0
    ∧ win2_10.index t (1 : Fin 2) = 0 ∧ win2_10.index t (0 : Fin 2) ≤ 9 :=
  (by decide +kernel : ∀ t : Fin grid2.N, _)

/-- The index maps of the seven parameter arrays: every block index is zero, the array is staged whole. -/
theorem idx_whole : ∀ t : Fin cfg2.N,
    win2_3.index t (0 : Fin 2) = 0 ∧ win2_3.index t (1 : Fin 2) = 0
    ∧ win2_5.index t (0 : Fin 2) = 0 ∧ win2_5.index t (1 : Fin 2) = 0
    ∧ win2_4.index t (0 : Fin 1) = 0 ∧ win2_6.index t (0 : Fin 1) = 0 ∧ win2_7.index t (0 : Fin 1) = 0
    ∧ win2_8.index t (0 : Fin 1) = 0 ∧ win2_9.index t (0 : Fin 1) = 0 :=
  (by decide +kernel : ∀ t : Fin grid2.N, _)

/-- Every row block of the output is some point's. -/
theorem idx_onto : ∀ q0 : Fin 10, ∃ t : Fin cfg2.N, win2_10.index t = ![q0.val, 0] :=
  (by decide +kernel : ∀ q0 : Fin 10, ∃ t : Fin grid2.N, win2_10.index t = ![q0.val, 0])

/-- Row `p` of the neighbour sums' block at point `t` is row `10000·(t's block index) + p` of the array. -/
theorem blk_agg (c : Dev nD) (t : Fin cfg2.N) (x : S10000x128.Idx) (k : S100000x128.Idx)
    (hk0 : (k 0).val = win2_10.index t (0 : Fin 2) * 10000 + (x 0).val) (hk1 : (k 1).val = (x 1).val) :
    (iblk2 V c 0 t : Vec Ideal S10000x128 .f32) x = (V c main_v45 : S100000x128.Idx → EReal) k := by
  obtain ⟨e0, e1, -⟩ := idx_rows t
  unfold iblk2
  rw [View.read_apply]
  show V c main_v45 _ = V c main_v45 _
  refine congrArg (V c main_v45) ?_
  funext a
  apply Fin.ext
  match a with
  | ⟨0, _⟩ => show win2_0.index t (0 : Fin 2) * 10000 + 1 * (x 0).val = (k 0).val; rw [e0, hk0]; omega
  | ⟨1, _⟩ => show win2_0.index t (1 : Fin 2) * 128 + 1 * (x 1).val = (k 1).val; rw [e1, hk1]; omega

/-- Row `p` of the per-node scale's block at point `t` is row `10000·(t's block index) + p` of the array. -/
theorem blk_scale (c : Dev nD) (t : Fin cfg2.N) (x : S10000x1.Idx) (k : S100000x1.Idx)
    (hk0 : (k 0).val = win2_10.index t (0 : Fin 2) * 10000 + (x 0).val) (hk1 : (k 1).val = (x 1).val) :
    (iblk2 V c 1 t : Vec Ideal S10000x1 .f32) x = (V c main_v46 : S100000x1.Idx → EReal) k := by
  obtain ⟨-, -, e0, e1, -⟩ := idx_rows t
  unfold iblk2
  rw [View.read_apply]
  show V c main_v46 _ = V c main_v46 _
  refine congrArg (V c main_v46) ?_
  funext a
  apply Fin.ext
  match a with
  | ⟨0, _⟩ => show win2_1.index t (0 : Fin 2) * 10000 + 1 * (x 0).val = (k 0).val; rw [e0, hk0]; omega
  | ⟨1, _⟩ => show win2_1.index t (1 : Fin 2) * 1 + 1 * (x 1).val = (k 1).val; rw [e1, hk1]; omega

/-- Row `p` of the input table's block at point `t` is row `10000·(t's block index) + p` of the array. -/
theorem blk_h (c : Dev nD) (t : Fin cfg2.N) (x : S10000x128.Idx) (k : S100000x128.Idx)
    (hk0 : (k 0).val = win2_10.index t (0 : Fin 2) * 10000 + (x 0).val) (hk1 : (k 1).val = (x 1).val) :
    (iblk2 V c 2 t : Vec Ideal S10000x128 .f32) x = (V c main_v35 : S100000x128.Idx → EReal) k := by
  obtain ⟨-, -, -, -, e0, e1, -⟩ := idx_rows t
  unfold iblk2
  rw [View.read_apply]
  show V c main_v35 _ = V c main_v35 _
  refine congrArg (V c main_v35) ?_
  funext a
  apply Fin.ext
  match a with
  | ⟨0, _⟩ => show win2_2.index t (0 : Fin 2) * 10000 + 1 * (x 0).val = (k 0).val; rw [e0, hk0]; omega
  | ⟨1, _⟩ => show win2_2.index t (1 : Fin 2) * 128 + 1 * (x 1).val = (k 1).val; rw [e1, hk1]; omega

/-- The neighbours' weight matrix is staged whole at every point. -/
theorem blk_Wl (c : Dev nD) (t : Fin cfg2.N) (x : S128x128.Idx) :
    (iblk2 V c 3 t : Vec Ideal S128x128 .f32) x = (V c main_arg16 : S128x128.Idx → EReal) x := by
  obtain ⟨e0, e1, -⟩ := idx_whole t
  unfold iblk2
  rw [View.read_apply]
  show V c main_arg16 _ = V c main_arg16 _
  refine congrArg (V c main_arg16) ?_
  funext a
  apply Fin.ext
  match a with
  | ⟨0, _⟩ => show win2_3.index t (0 : Fin 2) * 128 + 1 * (x 0).val = (x 0).val; rw [e0]; omega
  | ⟨1, _⟩ => show win2_3.index t (1 : Fin 2) * 128 + 1 * (x 1).val = (x 1).val; rw [e1]; omega

/-- The nodes' weight matrix is staged whole at every point. -/
theorem blk_Wr (c : Dev nD) (t : Fin cfg2.N) (x : S128x128.Idx) :
    (iblk2 V c 5 t : Vec Ideal S128x128 .f32) x = (V c main_arg18 : S128x128.Idx → EReal) x := by
  obtain ⟨-, -, e0, e1, -⟩ := idx_whole t
  unfold iblk2
  rw [View.read_apply]
  show V c main_arg18 _ = V c main_arg18 _
  refine congrArg (V c main_arg18) ?_
  funext a
  apply Fin.ext
  match a with
  | ⟨0, _⟩ => show win2_5.index t (0 : Fin 2) * 128 + 1 * (x 0).val = (x 0).val; rw [e0]; omega
  | ⟨1, _⟩ => show win2_5.index t (1 : Fin 2) * 128 + 1 * (x 1).val = (x 1).val; rw [e1]; omega

/-- The bias is staged whole at every point. -/
theorem blk_bl (c : Dev nD) (t : Fin cfg2.N) (x : S128.Idx) :
    (iblk2 V c 4 t : Vec Ideal S128 .f32) x = (V c main_arg17 : S128.Idx → EReal) x := by
  obtain ⟨-, -, -, -, e0, -⟩ := idx_whole t
  unfold iblk2
  rw [View.read_apply]
  show V c main_arg17 _ = V c main_arg17 _
  refine congrArg (V c main_arg17) ?_
  funext a
  apply Fin.ext
  match a with
  | ⟨0, _⟩ => show win2_4.index t (0 : Fin 1) * 128 + 1 * (x 0).val = (x 0).val; rw [e0]; omega

/-- The normalisation's scale is staged whole at every point. -/
theorem blk_g (c : Dev nD) (t : Fin cfg2.N) (x : S128.Idx) :
    (iblk2 V c 6 t : Vec Ideal S128 .f32) x = (V c main_arg19 : S128.Idx → EReal) x := by
  obtain ⟨-, -, -, -, -, e0, -⟩ := idx_whole t
  unfold iblk2
  rw [View.read_apply]
  show V c main_arg19 _ = V c main_arg19 _
  refine congrArg (V c main_arg19) ?_
  funext a
  apply Fin.ext
  match a with
  | ⟨0, _⟩ => show win2_6.index t (0 : Fin 1) * 128 + 1 * (x 0).val = (x 0).val; rw [e0]; omega

/-- The normalisation's shift is staged whole at every point. -/
theorem blk_be (c : Dev nD) (t : Fin cfg2.N) (x : S128.Idx) :
    (iblk2 V c 7 t : Vec Ideal S128 .f32) x = (V c main_arg20 : S128.Idx → EReal) x := by
  obtain ⟨-, -, -, -, -, -, e0, -⟩ := idx_whole t
  unfold iblk2
  rw [View.read_apply]
  show V c main_arg20 _ = V c main_arg20 _
  refine congrArg (V c main_arg20) ?_
  funext a
  apply Fin.ext
  match a with
  | ⟨0, _⟩ => show win2_7.index t (0 : Fin 1) * 128 + 1 * (x 0).val = (x 0).val; rw [e0]; omega

/-- The running mean is staged whole at every point. -/
theorem blk_rm (c : Dev nD) (t : Fin cfg2.N) (x : S128.Idx) :
    (iblk2 V c 8 t : Vec Ideal S128 .f32) x = (V c main_arg21 : S128.Idx → EReal) x := by
  obtain ⟨-, -, -, -, -, -, -, e0, -⟩ := idx_whole t
  unfold iblk2
  rw [View.read_apply]
  show V c main_arg21 _ = V c main_arg21 _
  refine congrArg (V c main_arg21) ?_
  funext a
  apply Fin.ext
  match a with
  | ⟨0, _⟩ => show win2_8.index t (0 : Fin 1) * 128 + 1 * (x 0).val = (x 0).val; rw [e0]; omega

/-- The running variance is staged whole at every point. -/
theorem blk_rv (c : Dev nD) (t : Fin cfg2.N) (x : S128.Idx) :
    (iblk2 V c 9 t : Vec Ideal S128 .f32) x = (V c main_arg22 : S128.Idx → EReal) x := by
  obtain ⟨-, -, -, -, -, -, -, -, e0⟩ := idx_whole t
  unfold iblk2
  rw [View.read_apply]
  show V c main_arg22 _ = V c main_arg22 _
  refine congrArg (V c main_arg22) ?_
  funext a
  apply Fin.ext
  match a with
  | ⟨0, _⟩ => show win2_9.index t (0 : Fin 1) * 128 + 1 * (x 0).val = (x 0).val; rw [e0]; omega

/-! ## From the blocks to the array -/

/-- The residual layer function read at an index whose row is `n` and whose feature is `q`, with the mean spelt as the
    product it is. -/
theorem layer_apply (agg h : Arr2 100000 128) (s : Arr2 100000 1) (Wl : Arr2 128 128) (bl : Arr1 128) (Wr : Arr2 128 128)
    (g be rm rv : Arr1 128) (i : S100000x128.Idx) (n : Fin 100000) (q : Fin 128) (h0 : i 0 = n) (h1 : i 1 = q) :
    layerRes (meanMul agg s) h Wl bl Wr g be rm rv i
      = max (((((∑ k : Fin 128, (agg (ix2 n k) * s (ix2 n (0 : Fin 1))) * Wl (ix2 k q)) + bl (ix1 q)
            + ∑ k : Fin 128, h (ix2 n k) * Wr (ix2 k q)) - rm (ix1 q))
          * Ideal.rsqrt (rv (ix1 q) + eps) * g (ix1 q) + be (ix1 q))) zero32 + h (ix2 n q) := by
  subst h0 h1
  rfl

/-- What point `t` writes back is block `t` of the residual layer function of the arrays as the call finds them. -/
theorem flushed_eq (c : Dev nD) (t : Fin cfg2.N) :
    (dat2 (F := Ideal) V c).flushed 10 t
      = ((cfg2.win 10).blk t).view.read (Elt Ideal) (layerRes (meanMul (V c main_v45) (V c main_v46)) (V c main_v35) (V c main_arg16) (V c main_arg17) (V c main_arg18) (V c main_arg19) (V c main_arg20) (V c main_arg21) (V c main_arg22)) := by
  show (cfg2.win 10).cut (grid2.coords t) ((dat2 V c).after 10 t) = _
  rw [after2_10]
  unfold out2_10
  rw [View.canon_unit_zero hz]
  simp only [View.ld_unit_zero (S := S10000x128) hz, View.ld_unit_zero (S := S10000x1) hz,
    View.ld_unit_zero (S := S128x128) hz, View.ld_unit_zero (S := S128) hz1]
  obtain ⟨-, -, -, -, -, -, e6, e7⟩ := idx_rows t
  funext j
  obtain ⟨p, q, rfl⟩ : ∃ (p : Fin 10000) (q : Fin 128), j = ix2 p q := ⟨j 0, j 1, eq_ix2 j⟩
  show k2_pay1 (F := Ideal) (iblk2 V c 0 t) (iblk2 V c 1 t) (iblk2 V c 2 t) (iblk2 V c 3 t) (iblk2 V c 4 t) (iblk2 V c 5 t) (iblk2 V c 8 t) (iblk2 V c 9 t) (iblk2 V c 6 t) (iblk2 V c 7 t) (ix2 p q)
      = layerRes (meanMul (V c main_v45) (V c main_v46)) (V c main_v35) (V c main_arg16) (V c main_arg17) (V c main_arg18) (V c main_arg19) (V c main_arg20) (V c main_arg21) (V c main_arg22) (((cfg2.win 10).blk t).view.emb (ix2 p q))
  refine (pay_apply (iblk2 V c 0 t) (iblk2 V c 1 t) (iblk2 V c 2 t) (iblk2 V c 3 t) (iblk2 V c 4 t) (iblk2 V c 5 t) (iblk2 V c 8 t) (iblk2 V c 9 t) (iblk2 V c 6 t) (iblk2 V c 7 t) p q).trans ?_
  obtain ⟨n, hn0⟩ : ∃ n : Fin 100000, (((cfg2.win 10).blk t).view.emb (ix2 p q)) 0 = n := ⟨_, rfl⟩
  have hj : (((cfg2.win 10).blk t).view.emb (ix2 p q)) 1 = q := Fin.ext (by
    show win2_10.index t (1 : Fin 2) * 128 + 1 * q.val = q.val
    rw [e6]; omega)
  have hn : n.val = win2_10.index t (0 : Fin 2) * 10000 + p.val := by
    rw [← hn0]
    show win2_10.index t (0 : Fin 2) * 10000 + 1 * p.val = _
    omega
  refine Eq.trans ?_ (layer_apply _ _ _ _ _ _ _ _ _ _ _ n q hn0 hj).symm
  have a0 : ∀ k : Fin 128, (iblk2 V c 0 t : Vec Ideal S10000x128 .f32) (ix2 p k) = (V c main_v45 : S100000x128.Idx → EReal) (ix2 n k) :=
    fun k => blk_agg V c t (ix2 p k) (ix2 n k) hn rfl
  have a1 : (iblk2 V c 1 t : Vec Ideal S10000x1 .f32) (ix2 p (0 : Fin 1)) = (V c main_v46 : S100000x1.Idx → EReal) (ix2 n (0 : Fin 1)) :=
    blk_scale V c t (ix2 p (0 : Fin 1)) (ix2 n (0 : Fin 1)) hn rfl
  have a2 : ∀ k : Fin 128, (iblk2 V c 2 t : Vec Ideal S10000x128 .f32) (ix2 p k) = (V c main_v35 : S100000x128.Idx → EReal) (ix2 n k) :=
    fun k => blk_h V c t (ix2 p k) (ix2 n k) hn rfl
  simp only [a0, a1, a2, blk_Wl V c t, blk_bl V c t, blk_Wr V c t, blk_g V c t, blk_be V c t, blk_rm V c t, blk_rv V c t]

/-- An index of the output is in point `t`'s block iff each coordinate is in the block's range on its axis. -/
theorem mem_blk (t : Fin cfg2.N) (i : S100000x128.Idx) :
    i ∈ ((cfg2.win 10).blk t).view.set ↔ ∀ a : Fin 2, win2_10.index t a * S10000x128.size a ≤ (i a).val
      ∧ (i a).val < win2_10.index t a * S10000x128.size a + S10000x128.size a := by
  show i ∈ ((View.whole main_v47).slice (win2_10.rect t)).set ↔ _
  rw [View.set_slice_whole, Rect.mem_set_unit]
  exact Iff.rfl

/-- The ten row blocks tile the output: row `r` is in the block of the point whose block index is `r / 10000`. -/
theorem cover (i : S100000x128.Idx) :
    ∃ t : Fin cfg2.N, (cfg2.win 10).flush t = true ∧ i ∈ ((cfg2.win 10).blk t).view.set := by
  have hi0 : (i 0).val < 100000 := (i 0).isLt
  have hi1 : (i 1).val < 128 := (i 1).isLt
  obtain ⟨t, ht⟩ := idx_onto ⟨(i 0).val / 10000, by omega⟩
  have q0 : win2_10.index t (0 : Fin 2) = (i 0).val / 10000 := congrFun ht 0
  have q1 : win2_10.index t (1 : Fin 2) = 0 := congrFun ht 1
  refine ⟨t, flush2_10 t, ?_⟩
  rw [mem_blk]
  intro a
  match a with
  | ⟨0, _⟩ =>
    show win2_10.index t (0 : Fin 2) * 10000 ≤ (i 0).val ∧ (i 0).val < win2_10.index t (0 : Fin 2) * 10000 + 10000
    omega
  | ⟨1, _⟩ =>
    show win2_10.index t (1 : Fin 2) * 128 ≤ (i 1).val ∧ (i 1).val < win2_10.index t (1 : Fin 2) * 128 + 128
    omega

/-- The output array after the call: the residual layer function of the arrays as the call finds them. -/
theorem final (c : Dev nD) :
    (dat2 (F := Ideal) V c).arrAt 10 cfg2.N
      = layerRes (meanMul (V c main_v45) (V c main_v46)) (V c main_v35) (V c main_arg16) (V c main_arg17) (V c main_arg18) (V c main_arg19) (V c main_arg20) (V c main_arg21) (V c main_arg22) := by
  exact (dat2 (F := Ideal) V c).arrAt_eq_of_cover 10 (layerRes (meanMul (V c main_v45) (V c main_v46)) (V c main_v35) (V c main_arg16) (V c main_arg17) (V c main_arg18) (V c main_arg19) (V c main_arg20) (V c main_arg21) (V c main_arg22))
    (fun t _ => flushed_eq V c t) cover

end Cert.KernelIdeal.Layer2

end
-- ==== Proof.Projection.lean ====
/-
  The projection call: its output array after all ten write-backs, as one function of its input arrays.

  The call's grid has ten points; point `t` fetches rows `10000·t … 10000·t + 9999` of the node table `h` (all 128
  columns), the whole weight matrix `W : [128, 64]` and the whole bias `b : [64]`, computes `h_blk · W + b` (a matrix
  product into a zero accumulator, the bias row broadcast over the rows) and writes the `[10000, 64]` result back as rows
  `10000·t …` of the output.  Entry `(p, q)` of the block is `Σₖ h_blk[p,k]·W[k,q] + b[q]`; block row `p` of point `t`
  is row `10000·t + p` of `h`; the ten blocks tile the output's rows.  So the output array is
  `(n, j) ↦ Σₖ h[n,k]·W[k,j] + b[j]` everywhere.
-/
import proofs.«155787_j30477087932645_1_alg».proof.Proof.GenP.KernelIdeal.Frame
import proofs.«155787_j30477087932645_1_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Projection

open Idealize.ShloMosaic Idealize.ShloMosaic.TcCoe Idealize.SL.Sem Idealize.ShloMosaic.ValueIdx
open Idealize.ShloMosaic.Pipeline (Dat)
open Cert.KernelIdeal Cert.KernelIdeal.Gen Cert.KernelIdeal.GenP Cert.Sage

variable (V : (c : Dev nD) → (b : Ref sig .tc) → Buf (Elt Ideal) ((c : Thread nD τ).loc b))

/-! ## The body's arithmetic at one entry of the block -/

-- the matrix product's dimension record: rows of the left operand against columns of the right, one contracted axis
local notation "DD" => dot_S10000x128_S128x64_S10000x64_1_0_0_1_n_n

theorem lhs_row (i : S10000x64.Idx) (s : dot_S10000x128_S128x64_S10000x64_1_0_0_1_n_n.contr.Idx) :
    (dot_S10000x128_S128x64_S10000x64_1_0_0_1_n_n.lhsIdx i s 0).val = (i 0).val := by
  unfold DotDims.lhsIdx
  rw [dif_neg (show ¬(0 : Fin S10000x128.rank) ∈ dot_S10000x128_S128x64_S10000x64_1_0_0_1_n_n.lhsBatch by decide),
    dif_pos (show (0 : Fin S10000x128.rank) ∈ dot_S10000x128_S128x64_S10000x64_1_0_0_1_n_n.lhsNonContracting by decide)]
  rfl

theorem lhs_col (i : S10000x64.Idx) (s : dot_S10000x128_S128x64_S10000x64_1_0_0_1_n_n.contr.Idx) :
    (dot_S10000x128_S128x64_S10000x64_1_0_0_1_n_n.lhsIdx i s 1).val = (s ⟨0, by decide⟩).val :=
  dot_S10000x128_S128x64_S10000x64_1_0_0_1_n_n.lhsIdx_val_of_single rfl i s

theorem rhs_row (i : S10000x64.Idx) (s : dot_S10000x128_S128x64_S10000x64_1_0_0_1_n_n.contr.Idx) :
    (dot_S10000x128_S128x64_S10000x64_1_0_0_1_n_n.rhsIdx i s 0).val = (s ⟨0, by decide⟩).val :=
  dot_S10000x128_S128x64_S10000x64_1_0_0_1_n_n.rhsIdx_val_of_single rfl i s

theorem rhs_col (i : S10000x64.Idx) (s : dot_S10000x128_S128x64_S10000x64_1_0_0_1_n_n.contr.Idx) :
    (dot_S10000x128_S128x64_S10000x64_1_0_0_1_n_n.rhsIdx i s 1).val = (i 1).val := by
  unfold DotDims.rhsIdx
  rw [dif_neg (show ¬(1 : Fin S128x64.rank) ∈ dot_S10000x128_S128x64_S10000x64_1_0_0_1_n_n.rhsBatch by decide),
    dif_pos (show (1 : Fin S128x64.rank) ∈ dot_S10000x128_S128x64_S10000x64_1_0_0_1_n_n.rhsNonContracting by decide)]
  rfl

/-- The block's matrix product into the zero accumulator, at entry `(p, q)`: the sum over the 128 contracted columns. -/
theorem matmul_at (x : FVec Ideal S10000x128 .f32) (w : FVec Ideal S128x64 .f32) (p : Fin 10000) (q : Fin 64) :
    matmul (F := Ideal) dot_S10000x128_S128x64_S10000x64_1_0_0_1_n_n (some .fp32) x w (constant S10000x64 .f32 0x00000000#32) (ix2 p q)
      = ∑ k : Fin 128, x (ix2 p k) * w (ix2 k q) := by
  simp only [matmul]
  rw [Ideal.matmul_constant_zero_apply,
    ← Equiv.sum_comp (ValueIdx.contrEquiv1 dot_S10000x128_S128x64_S10000x64_1_0_0_1_n_n 128 rfl rfl).symm]
  refine Finset.sum_congr rfl fun k _ => ?_
  have hk := ValueIdx.contrEquiv1_symm_val dot_S10000x128_S128x64_S10000x64_1_0_0_1_n_n 128 rfl rfl k
  have el : dot_S10000x128_S128x64_S10000x64_1_0_0_1_n_n.lhsIdx (ix2 p q)
      ((ValueIdx.contrEquiv1 dot_S10000x128_S128x64_S10000x64_1_0_0_1_n_n 128 rfl rfl).symm k) = ix2 p k :=
    funext fun a => Fin.ext (by
      match a with
      | ⟨0, _⟩ => exact lhs_row _ _
      | ⟨1, _⟩ => exact (lhs_col _ _).trans hk)
  have er : dot_S10000x128_S128x64_S10000x64_1_0_0_1_n_n.rhsIdx (ix2 p q)
      ((ValueIdx.contrEquiv1 dot_S10000x128_S128x64_S10000x64_1_0_0_1_n_n 128 rfl rfl).symm k) = ix2 k q :=
    funext fun a => Fin.ext (by
      match a with
      | ⟨0, _⟩ => exact (rhs_row _ _).trans hk
      | ⟨1, _⟩ => exact rhs_col _ _)
  rw [el, er]

/-- The body's stored value at entry `(p, q)` of the block: `Σₖ x[p,k]·w[k,q] + b[q]`. -/
theorem pay_at (x : Vec Ideal S10000x128 .f32) (w : Vec Ideal S128x64 .f32) (b : Vec Ideal S64 .f32) (p : Fin 10000) (q : Fin 64) :
    k3_pay1 (F := Ideal) x w b (ix2 p q) = (∑ k : Fin 128, x (ix2 p k) * w (ix2 k q)) + b (ix1 q) := by
  unfold k3_pay1
  show matmul (F := Ideal) dot_S10000x128_S128x64_S10000x64_1_0_0_1_n_n (some .fp32) (shapeCast S10000x128 x shapeCasts_S10000x128_S10000x128) w (constant S10000x64 .f32 0x00000000#32) (ix2 p q)
      + broadcastTo S10000x64 (shapeCast S1x64 b shapeCasts_S64_S1x64) broadcasts_S1x64_S10000x64 (ix2 p q) = _
  rw [shapeCast_self, matmul_at, broadcastTo_1b_ab_apply, shapeCast_a_1a_apply]

/-! ## The blocks a point reads, as rows of the arrays -/

theorem hz : (![0, 0] : Fin 2 → Nat) = fun _ => 0 := funext fun a => by fin_cases a <;> rfl
theorem hz1 : (![0] : Fin 1 → Nat) = fun _ => 0 := funext fun a => by fin_cases a; rfl

/-- The index maps over the ten grid points: the node table's row block moves with the output's, every other block
    index is zero, and the output's row-block index stays below ten. -/
theorem idx_facts : ∀ t : Fin cfg3.N, win3_0.index t (0 : Fin 2) = win3_3.index t (0 : Fin 2) ∧ win3_0.index t (1 : Fin 2) = 0
    ∧ win3_1.index t (0 : Fin 2) = 0 ∧ win3_1.index t (1 : Fin 2) = 0 ∧ win3_2.index t (0 : Fin 1) = 0
    ∧ win3_3.index t (1 : Fin 2) = 0 ∧ win3_3.index t (0 : Fin 2) ≤ 9 :=
  (by decide +kernel : ∀ t : Fin grid3.N, _)

/-- Every row block of the output is some point's. -/
theorem idx_onto : ∀ q0 : Fin 10, ∃ t : Fin cfg3.N, win3_3.index t = ![q0.val, 0] :=
  (by decide +kernel : ∀ q0 : Fin 10, ∃ t : Fin grid3.N, win3_3.index t = ![q0.val, 0])

/-- Row `p` of the node table's block at point `t` is row `10000·(t's block index) + p` of the table. -/
theorem blk_h (c : Dev nD) (t : Fin cfg3.N) (x : S10000x128.Idx) (k : S100000x128.Idx)
    (hk0 : (k 0).val = win3_3.index t (0 : Fin 2) * 10000 + (x 0).val) (hk1 : (k 1).val = (x 1).val) :
    (iblk3 V c 0 t : Vec Ideal S10000x128 .f32) x = (V c main_v47 : S100000x128.Idx → EReal) k := by
  obtain ⟨e0, e1, -⟩ := idx_facts t
  unfold iblk3
  rw [View.read_apply]
  show V c main_v47 _ = V c main_v47 _
  refine congrArg (V c main_v47) ?_
  funext a
  apply Fin.ext
  match a with
  | ⟨0, _⟩ => show win3_0.index t (0 : Fin 2) * 10000 + 1 * (x 0).val = (k 0).val; rw [e0, hk0]; omega
  | ⟨1, _⟩ => show win3_0.index t (1 : Fin 2) * 128 + 1 * (x 1).val = (k 1).val; rw [e1, hk1]; omega

/-- The weight matrix is fetched whole at every point. -/
theorem blk_w (c : Dev nD) (t : Fin cfg3.N) (x : S128x64.Idx) :
    (iblk3 V c 1 t : Vec Ideal S128x64 .f32) x = (V c main_arg23 : S128x64.Idx → EReal) x := by
  obtain ⟨-, -, e0, e1, -⟩ := idx_facts t
  unfold iblk3
  rw [View.read_apply]
  show V c main_arg23 _ = V c main_arg23 _
  refine congrArg (V c main_arg23) ?_
  funext a
  apply Fin.ext
  match a with
  | ⟨0, _⟩ => show win3_1.index t (0 : Fin 2) * 128 + 1 * (x 0).val = (x 0).val; rw [e0]; omega
  | ⟨1, _⟩ => show win3_1.index t (1 : Fin 2) * 64 + 1 * (x 1).val = (x 1).val; rw [e1]; omega

/-- The bias is fetched whole at every point. -/
theorem blk_b (c : Dev nD) (t : Fin cfg3.N) (x : S64.Idx) :
    (iblk3 V c 2 t : Vec Ideal S64 .f32) x = (V c main_arg24 : S64.Idx → EReal) x := by
  obtain ⟨-, -, -, -, e0, -⟩ := idx_facts t
  unfold iblk3
  rw [View.read_apply]
  show V c main_arg24 _ = V c main_arg24 _
  refine congrArg (V c main_arg24) ?_
  funext a
  apply Fin.ext
  match a with
  | ⟨0, _⟩ => show win3_2.index t (0 : Fin 1) * 64 + 1 * (x 0).val = (x 0).val; rw [e0]; omega

/-! ## From the blocks to the array -/

/-- What point `t` writes back is block `t` of the projection of the arrays as the call finds them. -/
theorem flushed_eq (c : Dev nD) (t : Fin cfg3.N) :
    (dat3 (F := Ideal) V c).flushed 3 t
      = ((cfg3.win 3).blk t).view.read (Elt Ideal) (proj (V c main_v47) (V c main_arg23) (V c main_arg24)) := by
  show (cfg3.win 3).cut (grid3.coords t) ((dat3 V c).after 3 t) = _
  rw [after3_3]
  unfold out3_3
  rw [View.canon_unit_zero hz]
  simp only [View.ld_unit_zero (S := S10000x128) hz, View.ld_unit_zero (S := S128x64) hz, View.ld_unit_zero (S := S64) hz1]
  obtain ⟨e0, e1, e2, e3, e4, e5, e6⟩ := idx_facts t
  funext j
  obtain ⟨p, q, rfl⟩ : ∃ (p : Fin 10000) (q : Fin 64), j = ix2 p q := ⟨j 0, j 1, eq_ix2 j⟩
  show k3_pay1 (F := Ideal) (iblk3 V c 0 t) (iblk3 V c 1 t) (iblk3 V c 2 t) (ix2 p q)
      = proj (V c main_v47) (V c main_arg23) (V c main_arg24) (((cfg3.win 3).blk t).view.emb (ix2 p q))
  refine (pay_at (iblk3 V c 0 t) (iblk3 V c 1 t) (iblk3 V c 2 t) p q).trans ?_
  have hj : (((cfg3.win 3).blk t).view.emb (ix2 p q)) 1 = q := Fin.ext (by
    show win3_3.index t (1 : Fin 2) * 64 + 1 * q.val = q.val
    rw [e5]; omega)
  have hn : ((((cfg3.win 3).blk t).view.emb (ix2 p q)) 0).val = win3_3.index t (0 : Fin 2) * 10000 + p.val := by
    show win3_3.index t (0 : Fin 2) * 10000 + 1 * p.val = _
    omega
  unfold proj projAt
  rw [hj]
  refine congrArg₂ (· + ·) (Finset.sum_congr rfl fun k _ => ?_) (blk_b V c t (ix1 q))
  rw [blk_w V c t (ix2 k q)]
  exact congrArg (· * _) (blk_h V c t (ix2 p k) _ hn rfl)

/-- An index of the output is in point `t`'s block iff each coordinate is in the block's range on its axis. -/
theorem mem_blk (t : Fin cfg3.N) (i : S100000x64.Idx) :
    i ∈ ((cfg3.win 3).blk t).view.set ↔ ∀ a : Fin 2, win3_3.index t a * S10000x64.size a ≤ (i a).val
      ∧ (i a).val < win3_3.index t a * S10000x64.size a + S10000x64.size a := by
  show i ∈ ((View.whole main_v48).slice (win3_3.rect t)).set ↔ _
  rw [View.set_slice_whole, Rect.mem_set_unit]
  exact Iff.rfl

/-- The ten row blocks tile the output: row `r` is in the block of the point whose block index is `r / 10000`. -/
theorem cover (i : S100000x64.Idx) :
    ∃ t : Fin cfg3.N, (cfg3.win 3).flush t = true ∧ i ∈ ((cfg3.win 3).blk t).view.set := by
  have hi0 : (i 0).val < 100000 := (i 0).isLt
  have hi1 : (i 1).val < 64 := (i 1).isLt
  obtain ⟨t, ht⟩ := idx_onto ⟨(i 0).val / 10000, by omega⟩
  have q0 : win3_3.index t (0 : Fin 2) = (i 0).val / 10000 := congrFun ht 0
  have q1 : win3_3.index t (1 : Fin 2) = 0 := congrFun ht 1
  refine ⟨t, flush3_3 t, ?_⟩
  rw [mem_blk]
  intro a
  match a with
  | ⟨0, _⟩ =>
    show win3_3.index t (0 : Fin 2) * 10000 ≤ (i 0).val ∧ (i 0).val < win3_3.index t (0 : Fin 2) * 10000 + 10000
    omega
  | ⟨1, _⟩ =>
    show win3_3.index t (1 : Fin 2) * 64 ≤ (i 1).val ∧ (i 1).val < win3_3.index t (1 : Fin 2) * 64 + 64
    omega

/-- The output array after the call: the projection of the node table, the weights and the bias as the call finds them. -/
theorem final (c : Dev nD) :
    (dat3 (F := Ideal) V c).arrAt 3 cfg3.N = proj (V c main_v47) (V c main_arg23) (V c main_arg24) :=
  (dat3 (F := Ideal) V c).arrAt_eq_of_cover 3 (proj (V c main_v47) (V c main_arg23) (V c main_arg24))
    (fun t _ => flushed_eq V c t) cover

end Cert.KernelIdeal.Projection

end
-- ==== Proof.Boundaries.lean ====
/-
  The idealized kernel program from launch to return: what each boundary between its segments holds.

  @main is: a stretch of host operations (the two index columns of the edge list, the reciprocal of the clamped
  in-degree, the first neighbourhood sums), the first layer's call, a stretch (gather the new table, scatter-add it,
  reshape the reciprocal degrees into a column), the second layer's call, the same stretch again, the third layer's call,
  and the projection's call.  Each call leaves its output array at the layer function of its input arrays (Layer0 …
  Projection); a stretch leaves each result buffer at its operations' term and every other buffer as it was.  Walking
  the seven segments, the table after layer k is `hidden k` of the arguments and the result buffer ends at `net` of
  them.  The only arithmetic on the way is the mean: the calls multiply the neighbourhood sum by the column
  `1 / degree`, and `x · (1 / d) = x / d` because a clamped degree is never zero.
-/
import proofs.«155787_j30477087932645_1_alg».proof.Proof.GenP.KernelIdeal.Frame
import proofs.«155787_j30477087932645_1_alg».proof.Proof.Net
import proofs.«155787_j30477087932645_1_alg».proof.Proof.Layer0
import proofs.«155787_j30477087932645_1_alg».proof.Proof.Layer1
import proofs.«155787_j30477087932645_1_alg».proof.Proof.Layer2
import proofs.«155787_j30477087932645_1_alg».proof.Proof.Projection
import Idealize.ShloMosaic.Lib.Pipeline.Value
import Idealize.ShloMosaic.Lib.ValueIdx
import Idealize.ShloMosaic.Lib.ValueLayout
import Idealize.ShloMosaic.Lib.IdealHost
import Idealize.ShloMosaic.Lib.StableHlo.Run
import Idealize.ShloMosaic.PureOps.Ideal.Laws

noncomputable section

namespace Cert.KernelIdeal.Boundaries

open Idealize.ShloMosaic Idealize.ShloMosaic.TcCoe Idealize.SL.Sem Idealize.ShloMosaic.ValueIdx Idealize.ShloMosaic.StableHlo
open Cert.KernelIdeal Cert.KernelIdeal.Gen Cert.KernelIdeal.GenP Cert.Sage

variable (m : (ℓ : Loc nD τ sig) → Buf (Elt Ideal) ℓ) (ρ : Dev nD → PrngReg)

/-! ## A stretch leaves alone what it does not write -/

/-- The buffers the first stretch writes: the result of each of its operations. -/
def written0 : List (Ref sig .tc) :=
  [main_v0, main_v1, main_v2, main_v3, main_cst, main_v4, main_cst_0, main_v5, main_v6, main_v7, main_cst_1, main_v8, main_v9,
   main_cst_2, main_v10, main_v11, main_c, main_v12, main_v13, main_c_3, main_v14, main_v15, main_v16, main_v17, main_v18,
   main_cst_4, main_v19, main_v20, main_v21, main_v22]

/-- The buffers the second stretch writes. -/
def written1 : List (Ref sig .tc) :=
  [main_c_5, main_v24, main_v25, main_c_6, main_v26, main_v27, main_v28, main_v29, main_v30, main_cst_7, main_v31, main_v32,
   main_v33, main_v34]

/-- The buffers the third stretch writes. -/
def written2 : List (Ref sig .tc) :=
  [main_c_8, main_v36, main_v37, main_c_9, main_v38, main_v39, main_v40, main_v41, main_v42, main_cst_10, main_v43, main_v44,
   main_v45, main_v46]

section Stretches

variable (W : Valuation τ sig (Elt Ideal))

theorem keep0 (b : Ref sig .tc) (hb : b ∉ written0) :
    StableHlo.after (hostOps0 (F := Ideal)) W (Proc.devRef .tc b) = W (Proc.devRef .tc b) := by
  refine StableHlo.after_of_forall_not_mem (b := Proc.devRef .tc b) _ _ (List.forall_iff_forall_mem.mp ?_)
  simp only [hostOps0, List.Forall, StableHlo.nullary_writes, StableHlo.unary_writes, StableHlo.binary_writes,
    StableHlo.ternary_writes, StableHlo.quaternary_writes, StableHlo.reshape_writes, StableHlo.binaryIndexed_writes,
    Finset.mem_singleton]
  repeat' apply And.intro
  all_goals exact StableHlo.devRef_ne_of_ne (fun h => hb (by rw [h]; decide))

theorem keep1 (b : Ref sig .tc) (hb : b ∉ written1) :
    StableHlo.after (hostOps1 (F := Ideal)) W (Proc.devRef .tc b) = W (Proc.devRef .tc b) := by
  refine StableHlo.after_of_forall_not_mem (b := Proc.devRef .tc b) _ _ (List.forall_iff_forall_mem.mp ?_)
  simp only [hostOps1, List.Forall, StableHlo.nullary_writes, StableHlo.unary_writes, StableHlo.binary_writes,
    StableHlo.ternary_writes, StableHlo.quaternary_writes, StableHlo.reshape_writes, StableHlo.binaryIndexed_writes,
    Finset.mem_singleton]
  repeat' apply And.intro
  all_goals exact StableHlo.devRef_ne_of_ne (fun h => hb (by rw [h]; decide))

theorem keep2 (b : Ref sig .tc) (hb : b ∉ written2) :
    StableHlo.after (hostOps2 (F := Ideal)) W (Proc.devRef .tc b) = W (Proc.devRef .tc b) := by
  refine StableHlo.after_of_forall_not_mem (b := Proc.devRef .tc b) _ _ (List.forall_iff_forall_mem.mp ?_)
  simp only [hostOps2, List.Forall, StableHlo.nullary_writes, StableHlo.unary_writes, StableHlo.binary_writes,
    StableHlo.ternary_writes, StableHlo.quaternary_writes, StableHlo.reshape_writes, StableHlo.binaryIndexed_writes,
    Finset.mem_singleton]
  repeat' apply And.intro
  all_goals exact StableHlo.devRef_ne_of_ne (fun h => hb (by rw [h]; decide))

/-! ## What the stretches compute -/

/-- The neighbourhood sums of a table from the two index columns: gather the rows at the wrapped sources, scatter-add
    them at the destinations.  (The same operations as `nbrSum`, with the columns handed in.) -/
def nbrSumAt (h : Arr2 100000 128) (s d : (⟨S1600000, .i32⟩ : BufTy).Contents (Elt Ideal)) : Arr2 100000 128 :=
  (Host.scatterAdd (F := Ideal) scatter_S100000x128_S1600000x1_S1600000x128_1_0_0_1
    (broadcastInDim S100000x128 ![] bcast_S_S100000x128 (constant S_ .f32 0x00000000#32))
    (broadcastInDim S1600000x1 ![0] bcast_S1600000_S1600000x1_0 d)
    (Host.gather gather_S100000x128_S1600000x1_S1600000x128_1_0_n_n_0_1_1128 (h : FVec Ideal S100000x128 .f32)
      (broadcastInDim S1600000x1 ![0] bcast_S1600000_S1600000x1_0
        (select (cmpi .slt s (broadcastInDim S1600000 ![] bcast_S_S1600000 (constantI S_ 32 0#32)))
          (addi s (broadcastInDim S1600000 ![] bcast_S_S1600000 (constantI S_ 32 100000#32))) s))) :
      FVec Ideal S100000x128 .f32)

/-- With the columns of an edge list it is the network's neighbourhood sum. -/
theorem nbrSumAt_edges (h : Arr2 100000 128) (e : Edges) :
    nbrSumAt h (Cert.ReferenceIdeal.Read.val_main_v1 (F := Ideal) e) (Cert.ReferenceIdeal.Read.val_main_v3 (F := Ideal) e)
      = nbrSum h e := rfl

/-- The reciprocal of the clamped in-degree, one entry per node. -/
def recipDeg (e : Edges) : FVec Ideal S100000 .f32 :=
  Host.divf (F := Ideal) (broadcastInDim S100000 ![] bcast_S_S100000 (constant S_ .f32 0x3F800000#32)) (degree e)

/-- A per-node vector as a column `[100000, 1]`. -/
def colOf (v : FVec Ideal S100000 .f32) : Arr2 100000 1 := shapeCast S100000x1 v shapeCasts_S100000_S100000x1

set_option maxHeartbeats 2000000 in
theorem s0_src : StableHlo.after (hostOps0 (F := Ideal)) W (Proc.devRef .tc main_v1)
    = Cert.ReferenceIdeal.Read.val_main_v1 (F := Ideal) (W (Proc.devRef .tc main_arg1)) := by
  simp only [hostOps0]; after_results; rfl

set_option maxHeartbeats 2000000 in
theorem s0_dst : StableHlo.after (hostOps0 (F := Ideal)) W (Proc.devRef .tc main_v3)
    = Cert.ReferenceIdeal.Read.val_main_v3 (F := Ideal) (W (Proc.devRef .tc main_arg1)) := by
  simp only [hostOps0]; after_results; rfl

set_option maxHeartbeats 2000000 in
theorem s0_recip : StableHlo.after (hostOps0 (F := Ideal)) W (Proc.devRef .tc main_v11) = recipDeg (W (Proc.devRef .tc main_arg1)) := by
  simp only [hostOps0]; after_results; rfl

set_option maxHeartbeats 2000000 in
theorem s0_sums : StableHlo.after (hostOps0 (F := Ideal)) W (Proc.devRef .tc main_v21)
    = nbrSum (W (Proc.devRef .tc main_arg0)) (W (Proc.devRef .tc main_arg1)) := by
  simp only [hostOps0]; after_results; rfl

set_option maxHeartbeats 2000000 in
theorem s0_scale : StableHlo.after (hostOps0 (F := Ideal)) W (Proc.devRef .tc main_v22)
    = colOf (recipDeg (W (Proc.devRef .tc main_arg1))) := by
  simp only [hostOps0]; after_results; rfl

set_option maxHeartbeats 2000000 in
theorem s1_sums : StableHlo.after (hostOps1 (F := Ideal)) W (Proc.devRef .tc main_v33)
    = nbrSumAt (W (Proc.devRef .tc main_v23)) (W (Proc.devRef .tc main_v1)) (W (Proc.devRef .tc main_v3)) := by
  simp only [hostOps1]; after_results; rfl

set_option maxHeartbeats 2000000 in
theorem s1_scale : StableHlo.after (hostOps1 (F := Ideal)) W (Proc.devRef .tc main_v34) = colOf (W (Proc.devRef .tc main_v11)) := by
  simp only [hostOps1]; after_results; rfl

set_option maxHeartbeats 2000000 in
theorem s2_sums : StableHlo.after (hostOps2 (F := Ideal)) W (Proc.devRef .tc main_v45)
    = nbrSumAt (W (Proc.devRef .tc main_v35)) (W (Proc.devRef .tc main_v1)) (W (Proc.devRef .tc main_v3)) := by
  simp only [hostOps2]; after_results; rfl

set_option maxHeartbeats 2000000 in
theorem s2_scale : StableHlo.after (hostOps2 (F := Ideal)) W (Proc.devRef .tc main_v46) = colOf (W (Proc.devRef .tc main_v11)) := by
  simp only [hostOps2]; after_results; rfl

end Stretches

/-! ## The mean: the calls' product with the column `1 / degree` is the quotient by the degree -/

/-- A node's clamped in-degree is `max(count, 1)`. -/
theorem degree_apply (e : Edges) (n : Fin 100000) :
    degree e (ix1 n) = max (Cert.ReferenceIdeal.Read.val_main_v17 (F := Ideal) e (ix1 n)) (Ideal.ofBits .f32 0x3F800000#32) := by
  unfold degree
  rw [Cert.ReferenceIdeal.Read.val_main_v19_apply, Cert.ReferenceIdeal.Read.val_main_v18_apply,
    Cert.ReferenceIdeal.Read.val_main_cst_3_apply]
  rfl

/-- So it is never zero. -/
theorem degree_ne_zero (e : Edges) (n : Fin 100000) : degree e (ix1 n) ≠ 0 := by
  rw [degree_apply]; exact max_one_ne_zero _

/-- The column read at a node is the vector read at the node. -/
theorem colOf_apply (v : FVec Ideal S100000 .f32) (n : Fin 100000) : colOf v (ix2 n 0) = v (ix1 n) := by
  unfold colOf
  refine shapeCast_apply v shapeCasts_S100000_S100000x1 (ix2 n (0 : Fin 1)) (ix1 n) ?_
  rw [Shape.rowMajor_val_two, Shape.rowMajor_val_one]
  show n.val = n.val * 1 + 0
  omega

/-- The scale column holds the reciprocal degrees. -/
theorem scale_apply (e : Edges) (n : Fin 100000) :
    colOf (recipDeg e) (ix2 n 0) = Ideal.div (Ideal.ofBits .f32 0x3F800000#32) (degree e (ix1 n)) := by
  rw [colOf_apply]
  unfold recipDeg
  rw [hostDivf_apply, broadcastInDim_scalar_apply]
  rfl

/-- The neighbourhood sums times the scale column are the neighbourhood mean. -/
theorem mean_of_scale (h : Arr2 100000 128) (e : Edges) : meanMul (nbrSum h e) (colOf (recipDeg e)) = mean h e :=
  meanMul_eq_meanDiv_of (nbrSum h e) (degree e) (colOf (recipDeg e)) (degree_ne_zero e) (scale_apply e)

/-! ## The walk from launch to return -/

section Walk

variable (c : Dev nD)

/-- A buffer that nothing before the first call writes holds its launch contents there, … -/
theorem at1 (b : Ref sig .tc) (h0 : b ∉ written0) :
    W1 m ρ c (Proc.devRef .tc b) = m ((c.tc : Thread nD τ).loc b) := keep0 (W0 m ρ c) b h0

/-- … after the first call if it is not that call's output, … -/
theorem at2 (b : Ref sig .tc) (h0 : b ∉ written0) (a0 : ∀ w, Pipeline.arrRef spec0 w ≠ b) :
    W2 m ρ c (Proc.devRef .tc b) = m ((c.tc : Thread nD τ).loc b) := (W2_of_ne m ρ c b a0).trans (at1 m ρ c b h0)

/-- … and so on through the second stretch, … -/
theorem at3 (b : Ref sig .tc) (h0 : b ∉ written0) (a0 : ∀ w, Pipeline.arrRef spec0 w ≠ b) (h1 : b ∉ written1) :
    W3 m ρ c (Proc.devRef .tc b) = m ((c.tc : Thread nD τ).loc b) := (keep1 (W2 m ρ c) b h1).trans (at2 m ρ c b h0 a0)

/-- … the second call, … -/
theorem at4 (b : Ref sig .tc) (h0 : b ∉ written0) (a0 : ∀ w, Pipeline.arrRef spec0 w ≠ b) (h1 : b ∉ written1)
    (a1 : ∀ w, Pipeline.arrRef spec1 w ≠ b) :
    W4 m ρ c (Proc.devRef .tc b) = m ((c.tc : Thread nD τ).loc b) := (W4_of_ne m ρ c b a1).trans (at3 m ρ c b h0 a0 h1)

/-- … the third stretch, … -/
theorem at5 (b : Ref sig .tc) (h0 : b ∉ written0) (a0 : ∀ w, Pipeline.arrRef spec0 w ≠ b) (h1 : b ∉ written1)
    (a1 : ∀ w, Pipeline.arrRef spec1 w ≠ b) (h2 : b ∉ written2) :
    W5 m ρ c (Proc.devRef .tc b) = m ((c.tc : Thread nD τ).loc b) := (keep2 (W4 m ρ c) b h2).trans (at4 m ρ c b h0 a0 h1 a1)

/-- … and the third call. -/
theorem at6 (b : Ref sig .tc) (h0 : b ∉ written0) (a0 : ∀ w, Pipeline.arrRef spec0 w ≠ b) (h1 : b ∉ written1)
    (a1 : ∀ w, Pipeline.arrRef spec1 w ≠ b) (h2 : b ∉ written2) (a2 : ∀ w, Pipeline.arrRef spec2 w ≠ b) :
    W6 m ρ c (Proc.devRef .tc b) = m ((c.tc : Thread nD τ).loc b) := (W6_of_ne m ρ c b a2).trans (at5 m ρ c b h0 a0 h1 a1 h2)

/-- What the first stretch computed is still there after the first call, … -/
theorem carry2 (b : Ref sig .tc) (a0 : ∀ w, Pipeline.arrRef spec0 w ≠ b) :
    W2 m ρ c (Proc.devRef .tc b) = W1 m ρ c (Proc.devRef .tc b) := W2_of_ne m ρ c b a0

/-- … and after the second. -/
theorem carry4 (b : Ref sig .tc) (a0 : ∀ w, Pipeline.arrRef spec0 w ≠ b) (h1 : b ∉ written1) (a1 : ∀ w, Pipeline.arrRef spec1 w ≠ b) :
    W4 m ρ c (Proc.devRef .tc b) = W1 m ρ c (Proc.devRef .tc b) :=
  (W4_of_ne m ρ c b a1).trans ((keep1 (W2 m ρ c) b h1).trans (W2_of_ne m ρ c b a0))

-- many small decided side conditions (which stretch writes which buffer), each cheap, together past the default budget
set_option maxHeartbeats 4000000 in
/-- The first layer's output array is `hidden1` of the arguments. -/
theorem table1 : W2 m ρ c (Proc.devRef .tc main_v23) = hidden1 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) := by
  refine (W2_arr m ρ c 10).trans ((Cert.KernelIdeal.Layer0.final (V1 m ρ) c).trans ?_)
  have e0 : V1 m ρ c main_v21 = nbrSum (m ((c.tc : Thread nD τ).loc main_arg0)) (m ((c.tc : Thread nD τ).loc main_arg1)) := s0_sums (W0 m ρ c)
  have e1 : V1 m ρ c main_v22 = colOf (recipDeg (m ((c.tc : Thread nD τ).loc main_arg1))) := s0_scale (W0 m ρ c)
  rw [e0, e1, show V1 m ρ c main_arg0 = _ from at1 m ρ c main_arg0 (by decide), show V1 m ρ c main_arg2 = _ from at1 m ρ c main_arg2 (by decide),
    show V1 m ρ c main_arg3 = _ from at1 m ρ c main_arg3 (by decide), show V1 m ρ c main_arg4 = _ from at1 m ρ c main_arg4 (by decide),
    show V1 m ρ c main_arg5 = _ from at1 m ρ c main_arg5 (by decide), show V1 m ρ c main_arg6 = _ from at1 m ρ c main_arg6 (by decide),
    show V1 m ρ c main_arg7 = _ from at1 m ρ c main_arg7 (by decide), show V1 m ρ c main_arg8 = _ from at1 m ρ c main_arg8 (by decide),
    mean_of_scale]
  rfl

-- many small decided side conditions (which stretch writes which buffer), each cheap, together past the default budget
set_option maxHeartbeats 4000000 in
/-- The second layer's output array is `hidden2` of the arguments. -/
theorem table2 : W4 m ρ c (Proc.devRef .tc main_v35) = hidden2 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) := by
  refine (W4_arr m ρ c 10).trans ((Cert.KernelIdeal.Layer1.final (V3 m ρ) c).trans ?_)
  have src : W2 m ρ c (Proc.devRef .tc main_v1) = Cert.ReferenceIdeal.Read.val_main_v1 (F := Ideal) (m ((c.tc : Thread nD τ).loc main_arg1)) :=
    (carry2 m ρ c main_v1 (by decide)).trans (s0_src (W0 m ρ c))
  have dst : W2 m ρ c (Proc.devRef .tc main_v3) = Cert.ReferenceIdeal.Read.val_main_v3 (F := Ideal) (m ((c.tc : Thread nD τ).loc main_arg1)) :=
    (carry2 m ρ c main_v3 (by decide)).trans (s0_dst (W0 m ρ c))
  have rcp : W2 m ρ c (Proc.devRef .tc main_v11) = recipDeg (m ((c.tc : Thread nD τ).loc main_arg1)) :=
    (carry2 m ρ c main_v11 (by decide)).trans (s0_recip (W0 m ρ c))
  have e0 : V3 m ρ c main_v33 = nbrSum (hidden1 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8))) (m ((c.tc : Thread nD τ).loc main_arg1)) := by
    refine (s1_sums (W2 m ρ c)).trans ?_
    rw [table1 m ρ c, src, dst]
    exact nbrSumAt_edges _ _
  have e1 : V3 m ρ c main_v34 = colOf (recipDeg (m ((c.tc : Thread nD τ).loc main_arg1))) := (s1_scale (W2 m ρ c)).trans (by rw [rcp])
  have e2 : V3 m ρ c main_v23 = hidden1 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) :=
    (keep1 (W2 m ρ c) main_v23 (by decide)).trans (table1 m ρ c)
  rw [e0, e1, e2, show V3 m ρ c main_arg9 = _ from at3 m ρ c main_arg9 (by decide) (by decide) (by decide),
    show V3 m ρ c main_arg10 = _ from at3 m ρ c main_arg10 (by decide) (by decide) (by decide),
    show V3 m ρ c main_arg11 = _ from at3 m ρ c main_arg11 (by decide) (by decide) (by decide),
    show V3 m ρ c main_arg12 = _ from at3 m ρ c main_arg12 (by decide) (by decide) (by decide),
    show V3 m ρ c main_arg13 = _ from at3 m ρ c main_arg13 (by decide) (by decide) (by decide),
    show V3 m ρ c main_arg14 = _ from at3 m ρ c main_arg14 (by decide) (by decide) (by decide),
    show V3 m ρ c main_arg15 = _ from at3 m ρ c main_arg15 (by decide) (by decide) (by decide),
    mean_of_scale]
  rfl

-- many small decided side conditions (which stretch writes which buffer), each cheap, together past the default budget
set_option maxHeartbeats 4000000 in
/-- The third layer's output array is `hidden3` of the arguments. -/
theorem table3 : W6 m ρ c (Proc.devRef .tc main_v47) = hidden3 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)) := by
  refine (W6_arr m ρ c 10).trans ((Cert.KernelIdeal.Layer2.final (V5 m ρ) c).trans ?_)
  have src : W4 m ρ c (Proc.devRef .tc main_v1) = Cert.ReferenceIdeal.Read.val_main_v1 (F := Ideal) (m ((c.tc : Thread nD τ).loc main_arg1)) :=
    (carry4 m ρ c main_v1 (by decide) (by decide) (by decide)).trans (s0_src (W0 m ρ c))
  have dst : W4 m ρ c (Proc.devRef .tc main_v3) = Cert.ReferenceIdeal.Read.val_main_v3 (F := Ideal) (m ((c.tc : Thread nD τ).loc main_arg1)) :=
    (carry4 m ρ c main_v3 (by decide) (by decide) (by decide)).trans (s0_dst (W0 m ρ c))
  have rcp : W4 m ρ c (Proc.devRef .tc main_v11) = recipDeg (m ((c.tc : Thread nD τ).loc main_arg1)) :=
    (carry4 m ρ c main_v11 (by decide) (by decide) (by decide)).trans (s0_recip (W0 m ρ c))
  have e0 : V5 m ρ c main_v45 = nbrSum (hidden2 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15))) (m ((c.tc : Thread nD τ).loc main_arg1)) := by
    refine (s2_sums (W4 m ρ c)).trans ?_
    rw [table2 m ρ c, src, dst]
    exact nbrSumAt_edges _ _
  have e1 : V5 m ρ c main_v46 = colOf (recipDeg (m ((c.tc : Thread nD τ).loc main_arg1))) := (s2_scale (W4 m ρ c)).trans (by rw [rcp])
  have e2 : V5 m ρ c main_v35 = hidden2 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) :=
    (keep2 (W4 m ρ c) main_v35 (by decide)).trans (table2 m ρ c)
  rw [e0, e1, e2, show V5 m ρ c main_arg16 = _ from at5 m ρ c main_arg16 (by decide) (by decide) (by decide) (by decide) (by decide),
    show V5 m ρ c main_arg17 = _ from at5 m ρ c main_arg17 (by decide) (by decide) (by decide) (by decide) (by decide),
    show V5 m ρ c main_arg18 = _ from at5 m ρ c main_arg18 (by decide) (by decide) (by decide) (by decide) (by decide),
    show V5 m ρ c main_arg19 = _ from at5 m ρ c main_arg19 (by decide) (by decide) (by decide) (by decide) (by decide),
    show V5 m ρ c main_arg20 = _ from at5 m ρ c main_arg20 (by decide) (by decide) (by decide) (by decide) (by decide),
    show V5 m ρ c main_arg21 = _ from at5 m ρ c main_arg21 (by decide) (by decide) (by decide) (by decide) (by decide),
    show V5 m ρ c main_arg22 = _ from at5 m ρ c main_arg22 (by decide) (by decide) (by decide) (by decide) (by decide),
    mean_of_scale]
  rfl

-- many small decided side conditions (which stretch writes which buffer), each cheap, together past the default budget
set_option maxHeartbeats 4000000 in
/-- The result buffer's final contents: the network of the arguments. -/
theorem result : W7 m ρ c (Proc.devRef .tc main_v48) = net (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)) (m ((c.tc : Thread nD τ).loc main_arg23)) (m ((c.tc : Thread nD τ).loc main_arg24)) := by
  refine (W7_arr m ρ c 3).trans ((Cert.KernelIdeal.Projection.final (V6 m ρ) c).trans ?_)
  rw [show V6 m ρ c main_v47 = _ from table3 m ρ c, show V6 m ρ c main_arg23 = _ from at6 m ρ c main_arg23 (by decide) (by decide) (by decide) (by decide) (by decide) (by decide),
    show V6 m ρ c main_arg24 = _ from at6 m ρ c main_arg24 (by decide) (by decide) (by decide) (by decide) (by decide) (by decide)]
  rfl

end Walk

end Cert.KernelIdeal.Boundaries

end
-- ==== Proof.RefNet.lean ====
/-
  The reference program computes the network.

  The reference is a straight line of array operations; for each of them the generated module reads the result at an
  index from the operands at an index.  Read that way, a layer is, at node `n` and feature `j`: the quotient of the
  scatter-added neighbour rows by the clamped in-degree (the neighbourhood mean), its product with one weight matrix
  as a sum over the 128 input features, a bias row, the node's own row times a second weight matrix, then the
  running-statistics normalisation `(z − rm[j]) · rsqrt(rv[j] + ε) · g[j] + be[j]` whose four vectors arrive as rows
  broadcast over the nodes, and `max · 0`.  That is `layerAt` of the specification, and layers two and three add
  their input back.  The gather, the scatter-add and the count are never opened: in every layer they are the same
  operations applied to index buffers made from the edge list in the same way, so they are the `nbrSum` and
  `degree` of the network by unfolding names only.  The projection is one more matrix product and a bias row.
-/
import proofs.«155787_j30477087932645_1_alg».proof.Proof.Net
import Idealize.ShloMosaic.Lib.Pipeline.Value
import Idealize.ShloMosaic.Lib.ValueIdx
import Idealize.ShloMosaic.Lib.IdealHost
import Idealize.ShloMosaic.PureOps.Ideal.Laws

noncomputable section

namespace Cert.Sage.Reference

open Idealize.ShloMosaic Idealize.ShloMosaic.ValueIdx Cert.ReferenceIdeal Cert.ReferenceIdeal.Read Cert.Sage

/-- A vector broadcast to a row and then over all nodes is read back at its feature. -/
theorem row25 (x : (⟨S128, .f32⟩ : BufTy).Contents (Elt Ideal)) (n : Fin 100000) (j : Fin 128) :
    val_main_v25 (F := Ideal) x (ix2 n j) = x (ix1 j) := by
  rw [val_main_v25_apply, val_main_v24_apply]
  exact congrArg x (funext fun a => Fin.ext (by match a with | ⟨0, _⟩ => rfl))

/-- Layer 1's quotient stage is the neighbourhood mean of its input table. -/
theorem mean1 (x0 : (⟨S100000x128, .f32⟩ : BufTy).Contents (Elt Ideal)) (e : Edges) : val_main_v22 (F := Ideal) x0 e = mean x0 e := by
  funext i
  obtain ⟨n, j, rfl⟩ : ∃ (n : Fin 100000) (j : Fin 128), i = ix2 n j := ⟨i 0, i 1, eq_ix2 i⟩
  rw [val_main_v22_apply, val_main_v21_apply, val_main_v20_apply]
  have hi : idx_main_v20 (idx_main_v21 (ix2 n j)) = ix1 n := funext fun a => Fin.ext (by match a with | ⟨0, _⟩ => rfl)
  rw [hi]
  rfl

/-- The reciprocal square root of the shifted running variance, feature by feature. -/
theorem rs1 (x : (⟨S128, .f32⟩ : BufTy).Contents (Elt Ideal)) (j : Fin 128) : val_main_v34 (F := Ideal) x (ix1 j) = Ideal.rsqrt (x (ix1 j) + eps) := by
  rw [val_main_v34_apply, val_main_v33_apply, val_main_v32_apply, val_main_cst_4_apply]
  rfl

/-- The constant table that `relu` compares with holds the f32 zero. -/
theorem relu1 (n : Fin 100000) (j : Fin 128) : val_main_call0_v0 (F := Ideal) (ix2 n j) = zero32 := by
  rw [val_main_call0_v0_apply, val_main_call0_cst_apply]
  rfl

/-- Layer 1 before the residual connection, entry by entry: the stages from the two matrix products to `relu` are `layerAt`. -/
theorem core1 (x0 : (⟨S100000x128, .f32⟩ : BufTy).Contents (Elt Ideal)) (e : Edges) (x2 : (⟨S128x128, .f32⟩ : BufTy).Contents (Elt Ideal)) (x3 : (⟨S128, .f32⟩ : BufTy).Contents (Elt Ideal)) (x4 : (⟨S128x128, .f32⟩ : BufTy).Contents (Elt Ideal)) (x5 x6 x7 x8 : (⟨S128, .f32⟩ : BufTy).Contents (Elt Ideal)) (n : Fin 100000) (j : Fin 128) :
    val_main_v44 (F := Ideal) x0 e x2 x3 x4 x5 x6 x7 x8 (ix2 n j) = layerAt (mean x0 e) x0 x2 x3 x4 x5 x6 x7 x8 n j := by
  rw [val_main_v44_apply, val_main_v43_apply, val_main_v40_apply, val_main_v37_apply, val_main_v31_apply, val_main_v28_apply,
    val_main_v26_apply, val_main_v23_apply, val_main_v27_apply, mean1]
  rw [show val_main_v25 (F := Ideal) x3 (ix2 n j) = x3 (ix1 j) from row25 x3 n j,
    show val_main_v30 (F := Ideal) x7 (ix2 n j) = x7 (ix1 j) from row25 x7 n j,
    show val_main_v36 (F := Ideal) x8 (ix2 n j) = val_main_v34 (F := Ideal) x8 (ix1 j) from row25 _ n j,
    show val_main_v39 (F := Ideal) x5 (ix2 n j) = x5 (ix1 j) from row25 x5 n j,
    show val_main_v42 (F := Ideal) x6 (ix2 n j) = x6 (ix1 j) from row25 x6 n j, rs1, relu1]
  have e1 : (∑ k : Fin 128, mean x0 e (lidx_main_v23 (ix2 n j) k) * x2 (ridx_main_v23 (ix2 n j) k))
      = ∑ k : Fin 128, mean x0 e (ix2 n k) * x2 (ix2 k j) :=
    Finset.sum_congr rfl fun k _ => by
      rw [show lidx_main_v23 (ix2 n j) k = ix2 n k from funext fun a => Fin.ext (by match a with | ⟨0, _⟩ => rfl | ⟨1, _⟩ => rfl), show ridx_main_v23 (ix2 n j) k = ix2 k j from funext fun a => Fin.ext (by match a with | ⟨0, _⟩ => rfl | ⟨1, _⟩ => rfl)]
  have e2 : (∑ k : Fin 128, x0 (lidx_main_v27 (ix2 n j) k) * x4 (ridx_main_v27 (ix2 n j) k))
      = ∑ k : Fin 128, x0 (ix2 n k) * x4 (ix2 k j) :=
    Finset.sum_congr rfl fun k _ => by
      rw [show lidx_main_v27 (ix2 n j) k = ix2 n k from funext fun a => Fin.ext (by match a with | ⟨0, _⟩ => rfl | ⟨1, _⟩ => rfl), show ridx_main_v27 (ix2 n j) k = ix2 k j from funext fun a => Fin.ext (by match a with | ⟨0, _⟩ => rfl | ⟨1, _⟩ => rfl)]
  rw [e1, e2]
  rfl

/-- The first layer's result stage is the first hidden table: entry by entry it is `layerAt` of the input and its mean. -/
theorem layer1_eq (x0 : (⟨S100000x128, .f32⟩ : BufTy).Contents (Elt Ideal)) (e : Edges) (x2 : (⟨S128x128, .f32⟩ : BufTy).Contents (Elt Ideal)) (x3 : (⟨S128, .f32⟩ : BufTy).Contents (Elt Ideal)) (x4 : (⟨S128x128, .f32⟩ : BufTy).Contents (Elt Ideal)) (x5 x6 x7 x8 : (⟨S128, .f32⟩ : BufTy).Contents (Elt Ideal)) :
    val_main_v44 (F := Ideal) x0 e x2 x3 x4 x5 x6 x7 x8 = hidden1 x0 e x2 x3 x4 x5 x6 x7 x8 := by
  funext i
  obtain ⟨n, j, rfl⟩ : ∃ (n : Fin 100000) (j : Fin 128), i = ix2 n j := ⟨i 0, i 1, eq_ix2 i⟩
  exact core1 x0 e x2 x3 x4 x5 x6 x7 x8 n j

/-- Layer 2's scatter-add stage is the neighbourhood sum of its input table: the same gather and scatter-add, over
    index buffers that are built from the edge list by the same operations. -/
theorem sum2 (x0 : (⟨S100000x128, .f32⟩ : BufTy).Contents (Elt Ideal)) (e : Edges) (x2 : (⟨S128x128, .f32⟩ : BufTy).Contents (Elt Ideal)) (x3 : (⟨S128, .f32⟩ : BufTy).Contents (Elt Ideal)) (x4 : (⟨S128x128, .f32⟩ : BufTy).Contents (Elt Ideal)) (x5 x6 x7 x8 : (⟨S128, .f32⟩ : BufTy).Contents (Elt Ideal)) : val_main_v54 (F := Ideal) x0 e x2 x3 x4 x5 x6 x7 x8 = nbrSum (val_main_v44 (F := Ideal) x0 e x2 x3 x4 x5 x6 x7 x8) e := by
  unfold val_main_v54 val_main_v51 nbrSum
  generalize val_main_v44 (F := Ideal) x0 e x2 x3 x4 x5 x6 x7 x8 = h
  rfl

/-- Layer 2's clamped count is the clamped in-degree. -/
theorem deg2 (e : Edges) : val_main_v60 (F := Ideal) e = degree e := rfl

/-- Layer 2's quotient stage is the neighbourhood mean of its input table. -/
theorem mean2 (x0 : (⟨S100000x128, .f32⟩ : BufTy).Contents (Elt Ideal)) (e : Edges) (x2 : (⟨S128x128, .f32⟩ : BufTy).Contents (Elt Ideal)) (x3 : (⟨S128, .f32⟩ : BufTy).Contents (Elt Ideal)) (x4 : (⟨S128x128, .f32⟩ : BufTy).Contents (Elt Ideal)) (x5 x6 x7 x8 : (⟨S128, .f32⟩ : BufTy).Contents (Elt Ideal)) : val_main_v63 (F := Ideal) x0 e x2 x3 x4 x5 x6 x7 x8 = mean (val_main_v44 (F := Ideal) x0 e x2 x3 x4 x5 x6 x7 x8) e := by
  funext i
  obtain ⟨n, j, rfl⟩ : ∃ (n : Fin 100000) (j : Fin 128), i = ix2 n j := ⟨i 0, i 1, eq_ix2 i⟩
  rw [val_main_v63_apply, val_main_v62_apply, val_main_v61_apply]
  have hi : idx_main_v61 (idx_main_v62 (ix2 n j)) = ix1 n := funext fun a => Fin.ext (by match a with | ⟨0, _⟩ => rfl)
  rw [hi, sum2, deg2]
  rfl

/-- The reciprocal square root of the shifted running variance, feature by feature. -/
theorem rs2 (x : (⟨S128, .f32⟩ : BufTy).Contents (Elt Ideal)) (j : Fin 128) : val_main_v75 (F := Ideal) x (ix1 j) = Ideal.rsqrt (x (ix1 j) + eps) := by
  rw [val_main_v75_apply, val_main_v74_apply, val_main_v73_apply, val_main_cst_11_apply]
  rfl

/-- The constant table that `relu` compares with holds the f32 zero. -/
theorem relu2 (n : Fin 100000) (j : Fin 128) : val_main_call1_v0 (F := Ideal) (ix2 n j) = zero32 := by
  rw [val_main_call1_v0_apply, val_main_call1_cst_apply]
  rfl

/-- Layer 2 before the residual connection, entry by entry: the stages from the two matrix products to `relu` are `layerAt`. -/
theorem core2 (x0 : (⟨S100000x128, .f32⟩ : BufTy).Contents (Elt Ideal)) (e : Edges) (x2 : (⟨S128x128, .f32⟩ : BufTy).Contents (Elt Ideal)) (x3 : (⟨S128, .f32⟩ : BufTy).Contents (Elt Ideal)) (x4 : (⟨S128x128, .f32⟩ : BufTy).Contents (Elt Ideal)) (x5 x6 x7 x8 : (⟨S128, .f32⟩ : BufTy).Contents (Elt Ideal)) (x9 : (⟨S128x128, .f32⟩ : BufTy).Contents (Elt Ideal)) (x10 : (⟨S128, .f32⟩ : BufTy).Contents (Elt Ideal)) (x11 : (⟨S128x128, .f32⟩ : BufTy).Contents (Elt Ideal)) (x12 x13 x14 x15 : (⟨S128, .f32⟩ : BufTy).Contents (Elt Ideal)) (n : Fin 100000) (j : Fin 128) :
    val_main_v85 (F := Ideal) x0 e x2 x3 x4 x5 x6 x7 x8 x9 x10 x11 x12 x13 x14 x15 (ix2 n j) = layerAt (mean (val_main_v44 (F := Ideal) x0 e x2 x3 x4 x5 x6 x7 x8) e) (val_main_v44 (F := Ideal) x0 e x2 x3 x4 x5 x6 x7 x8) x9 x10 x11 x12 x13 x14 x15 n j := by
  rw [val_main_v85_apply, val_main_v84_apply, val_main_v81_apply, val_main_v78_apply, val_main_v72_apply, val_main_v69_apply,
    val_main_v67_apply, val_main_v64_apply, val_main_v68_apply, mean2]
  rw [show val_main_v66 (F := Ideal) x10 (ix2 n j) = x10 (ix1 j) from row25 x10 n j,
    show val_main_v71 (F := Ideal) x14 (ix2 n j) = x14 (ix1 j) from row25 x14 n j,
    show val_main_v77 (F := Ideal) x15 (ix2 n j) = val_main_v75 (F := Ideal) x15 (ix1 j) from row25 _ n j,
    show val_main_v80 (F := Ideal) x12 (ix2 n j) = x12 (ix1 j) from row25 x12 n j,
    show val_main_v83 (F := Ideal) x13 (ix2 n j) = x13 (ix1 j) from row25 x13 n j, rs2, relu2]
  have e1 : (∑ k : Fin 128, mean (val_main_v44 (F := Ideal) x0 e x2 x3 x4 x5 x6 x7 x8) e (lidx_main_v64 (ix2 n j) k) * x9 (ridx_main_v64 (ix2 n j) k))
      = ∑ k : Fin 128, mean (val_main_v44 (F := Ideal) x0 e x2 x3 x4 x5 x6 x7 x8) e (ix2 n k) * x9 (ix2 k j) :=
    Finset.sum_congr rfl fun k _ => by
      rw [show lidx_main_v64 (ix2 n j) k = ix2 n k from funext fun a => Fin.ext (by match a with | ⟨0, _⟩ => rfl | ⟨1, _⟩ => rfl), show ridx_main_v64 (ix2 n j) k = ix2 k j from funext fun a => Fin.ext (by match a with | ⟨0, _⟩ => rfl | ⟨1, _⟩ => rfl)]
  have e2 : (∑ k : Fin 128, (val_main_v44 (F := Ideal) x0 e x2 x3 x4 x5 x6 x7 x8) (lidx_main_v68 (ix2 n j) k) * x11 (ridx_main_v68 (ix2 n j) k))
      = ∑ k : Fin 128, (val_main_v44 (F := Ideal) x0 e x2 x3 x4 x5 x6 x7 x8) (ix2 n k) * x11 (ix2 k j) :=
    Finset.sum_congr rfl fun k _ => by
      rw [show lidx_main_v68 (ix2 n j) k = ix2 n k from funext fun a => Fin.ext (by match a with | ⟨0, _⟩ => rfl | ⟨1, _⟩ => rfl), show ridx_main_v68 (ix2 n j) k = ix2 k j from funext fun a => Fin.ext (by match a with | ⟨0, _⟩ => rfl | ⟨1, _⟩ => rfl)]
  rw [e1, e2]
  generalize val_main_v44 (F := Ideal) x0 e x2 x3 x4 x5 x6 x7 x8 = h
  rfl

/-- The second layer's result stage is the second hidden table: `layerAt` of the first hidden table and its mean, plus
    that table itself. -/
theorem layer2_eq (x0 : (⟨S100000x128, .f32⟩ : BufTy).Contents (Elt Ideal)) (e : Edges) (x2 : (⟨S128x128, .f32⟩ : BufTy).Contents (Elt Ideal)) (x3 : (⟨S128, .f32⟩ : BufTy).Contents (Elt Ideal)) (x4 : (⟨S128x128, .f32⟩ : BufTy).Contents (Elt Ideal)) (x5 x6 x7 x8 : (⟨S128, .f32⟩ : BufTy).Contents (Elt Ideal)) (x9 : (⟨S128x128, .f32⟩ : BufTy).Contents (Elt Ideal)) (x10 : (⟨S128, .f32⟩ : BufTy).Contents (Elt Ideal)) (x11 : (⟨S128x128, .f32⟩ : BufTy).Contents (Elt Ideal)) (x12 x13 x14 x15 : (⟨S128, .f32⟩ : BufTy).Contents (Elt Ideal)) :
    val_main_v86 (F := Ideal) x0 e x2 x3 x4 x5 x6 x7 x8 x9 x10 x11 x12 x13 x14 x15 = hidden2 x0 e x2 x3 x4 x5 x6 x7 x8 x9 x10 x11 x12 x13 x14 x15 := by
  unfold hidden2
  rw [← layer1_eq]
  funext i
  obtain ⟨n, j, rfl⟩ : ∃ (n : Fin 100000) (j : Fin 128), i = ix2 n j := ⟨i 0, i 1, eq_ix2 i⟩
  rw [val_main_v86_apply, core2]
  generalize val_main_v44 (F := Ideal) x0 e x2 x3 x4 x5 x6 x7 x8 = h
  rfl

/-- Layer 3's scatter-add stage is the neighbourhood sum of its input table: the same gather and scatter-add, over
    index buffers that are built from the edge list by the same operations. -/
theorem sum3 (x0 : (⟨S100000x128, .f32⟩ : BufTy).Contents (Elt Ideal)) (e : Edges) (x2 : (⟨S128x128, .f32⟩ : BufTy).Contents (Elt Ideal)) (x3 : (⟨S128, .f32⟩ : BufTy).Contents (Elt Ideal)) (x4 : (⟨S128x128, .f32⟩ : BufTy).Contents (Elt Ideal)) (x5 x6 x7 x8 : (⟨S128, .f32⟩ : BufTy).Contents (Elt Ideal)) (x9 : (⟨S128x128, .f32⟩ : BufTy).Contents (Elt Ideal)) (x10 : (⟨S128, .f32⟩ : BufTy).Contents (Elt Ideal)) (x11 : (⟨S128x128, .f32⟩ : BufTy).Contents (Elt Ideal)) (x12 x13 x14 x15 : (⟨S128, .f32⟩ : BufTy).Contents (Elt Ideal)) : val_main_v96 (F := Ideal) x0 e x2 x3 x4 x5 x6 x7 x8 x9 x10 x11 x12 x13 x14 x15 = nbrSum (val_main_v86 (F := Ideal) x0 e x2 x3 x4 x5 x6 x7 x8 x9 x10 x11 x12 x13 x14 x15) e := by
  unfold val_main_v96 val_main_v93 nbrSum
  generalize val_main_v86 (F := Ideal) x0 e x2 x3 x4 x5 x6 x7 x8 x9 x10 x11 x12 x13 x14 x15 = h
  rfl

/-- Layer 3's clamped count is the clamped in-degree. -/
theorem deg3 (e : Edges) : val_main_v102 (F := Ideal) e = degree e := rfl

/-- Layer 3's quotient stage is the neighbourhood mean of its input table. -/
theorem mean3 (x0 : (⟨S100000x128, .f32⟩ : BufTy).Contents (Elt Ideal)) (e : Edges) (x2 : (⟨S128x128, .f32⟩ : BufTy).Contents (Elt Ideal)) (x3 : (⟨S128, .f32⟩ : BufTy).Contents (Elt Ideal)) (x4 : (⟨S128x128, .f32⟩ : BufTy).Contents (Elt Ideal)) (x5 x6 x7 x8 : (⟨S128, .f32⟩ : BufTy).Contents (Elt Ideal)) (x9 : (⟨S128x128, .f32⟩ : BufTy).Contents (Elt Ideal)) (x10 : (⟨S128, .f32⟩ : BufTy).Contents (Elt Ideal)) (x11 : (⟨S128x128, .f32⟩ : BufTy).Contents (Elt Ideal)) (x12 x13 x14 x15 : (⟨S128, .f32⟩ : BufTy).Contents (Elt Ideal)) : val_main_v105 (F := Ideal) x0 e x2 x3 x4 x5 x6 x7 x8 x9 x10 x11 x12 x13 x14 x15 = mean (val_main_v86 (F := Ideal) x0 e x2 x3 x4 x5 x6 x7 x8 x9 x10 x11 x12 x13 x14 x15) e := by
  funext i
  obtain ⟨n, j, rfl⟩ : ∃ (n : Fin 100000) (j : Fin 128), i = ix2 n j := ⟨i 0, i 1, eq_ix2 i⟩
  rw [val_main_v105_apply, val_main_v104_apply, val_main_v103_apply]
  have hi : idx_main_v103 (idx_main_v104 (ix2 n j)) = ix1 n := funext fun a => Fin.ext (by match a with | ⟨0, _⟩ => rfl)
  rw [hi, sum3, deg3]
  rfl

/-- The reciprocal square root of the shifted running variance, feature by feature. -/
theorem rs3 (x : (⟨S128, .f32⟩ : BufTy).Contents (Elt Ideal)) (j : Fin 128) : val_main_v117 (F := Ideal) x (ix1 j) = Ideal.rsqrt (x (ix1 j) + eps) := by
  rw [val_main_v117_apply, val_main_v116_apply, val_main_v115_apply, val_main_cst_18_apply]
  rfl

/-- The constant table that `relu` compares with holds the f32 zero. -/
theorem relu3 (n : Fin 100000) (j : Fin 128) : val_main_call2_v0 (F := Ideal) (ix2 n j) = zero32 := by
  rw [val_main_call2_v0_apply, val_main_call2_cst_apply]
  rfl

/-- Layer 3 before the residual connection, entry by entry: the stages from the two matrix products to `relu` are `layerAt`. -/
theorem core3 (x0 : (⟨S100000x128, .f32⟩ : BufTy).Contents (Elt Ideal)) (e : Edges) (x2 : (⟨S128x128, .f32⟩ : BufTy).Contents (Elt Ideal)) (x3 : (⟨S128, .f32⟩ : BufTy).Contents (Elt Ideal)) (x4 : (⟨S128x128, .f32⟩ : BufTy).Contents (Elt Ideal)) (x5 x6 x7 x8 : (⟨S128, .f32⟩ : BufTy).Contents (Elt Ideal)) (x9 : (⟨S128x128, .f32⟩ : BufTy).Contents (Elt Ideal)) (x10 : (⟨S128, .f32⟩ : BufTy).Contents (Elt Ideal)) (x11 : (⟨S128x128, .f32⟩ : BufTy).Contents (Elt Ideal)) (x12 x13 x14 x15 : (⟨S128, .f32⟩ : BufTy).Contents (Elt Ideal)) (x16 : (⟨S128x128, .f32⟩ : BufTy).Contents (Elt Ideal)) (x17 : (⟨S128, .f32⟩ : BufTy).Contents (Elt Ideal)) (x18 : (⟨S128x128, .f32⟩ : BufTy).Contents (Elt Ideal)) (x19 x20 x21 x22 : (⟨S128, .f32⟩ : BufTy).Contents (Elt Ideal)) (n : Fin 100000) (j : Fin 128) :
    val_main_v127 (F := Ideal) x0 e x2 x3 x4 x5 x6 x7 x8 x9 x10 x11 x12 x13 x14 x15 x16 x17 x18 x19 x20 x21 x22 (ix2 n j) = layerAt (mean (val_main_v86 (F := Ideal) x0 e x2 x3 x4 x5 x6 x7 x8 x9 x10 x11 x12 x13 x14 x15) e) (val_main_v86 (F := Ideal) x0 e x2 x3 x4 x5 x6 x7 x8 x9 x10 x11 x12 x13 x14 x15) x16 x17 x18 x19 x20 x21 x22 n j := by
  rw [val_main_v127_apply, val_main_v126_apply, val_main_v123_apply, val_main_v120_apply, val_main_v114_apply, val_main_v111_apply,
    val_main_v109_apply, val_main_v106_apply, val_main_v110_apply, mean3]
  rw [show val_main_v108 (F := Ideal) x17 (ix2 n j) = x17 (ix1 j) from row25 x17 n j,
    show val_main_v113 (F := Ideal) x21 (ix2 n j) = x21 (ix1 j) from row25 x21 n j,
    show val_main_v119 (F := Ideal) x22 (ix2 n j) = val_main_v117 (F := Ideal) x22 (ix1 j) from row25 _ n j,
    show val_main_v122 (F := Ideal) x19 (ix2 n j) = x19 (ix1 j) from row25 x19 n j,
    show val_main_v125 (F := Ideal) x20 (ix2 n j) = x20 (ix1 j) from row25 x20 n j, rs3, relu3]
  have e1 : (∑ k : Fin 128, mean (val_main_v86 (F := Ideal) x0 e x2 x3 x4 x5 x6 x7 x8 x9 x10 x11 x12 x13 x14 x15) e (lidx_main_v106 (ix2 n j) k) * x16 (ridx_main_v106 (ix2 n j) k))
      = ∑ k : Fin 128, mean (val_main_v86 (F := Ideal) x0 e x2 x3 x4 x5 x6 x7 x8 x9 x10 x11 x12 x13 x14 x15) e (ix2 n k) * x16 (ix2 k j) :=
    Finset.sum_congr rfl fun k _ => by
      rw [show lidx_main_v106 (ix2 n j) k = ix2 n k from funext fun a => Fin.ext (by match a with | ⟨0, _⟩ => rfl | ⟨1, _⟩ => rfl), show ridx_main_v106 (ix2 n j) k = ix2 k j from funext fun a => Fin.ext (by match a with | ⟨0, _⟩ => rfl | ⟨1, _⟩ => rfl)]
  have e2 : (∑ k : Fin 128, (val_main_v86 (F := Ideal) x0 e x2 x3 x4 x5 x6 x7 x8 x9 x10 x11 x12 x13 x14 x15) (lidx_main_v110 (ix2 n j) k) * x18 (ridx_main_v110 (ix2 n j) k))
      = ∑ k : Fin 128, (val_main_v86 (F := Ideal) x0 e x2 x3 x4 x5 x6 x7 x8 x9 x10 x11 x12 x13 x14 x15) (ix2 n k) * x18 (ix2 k j) :=
    Finset.sum_congr rfl fun k _ => by
      rw [show lidx_main_v110 (ix2 n j) k = ix2 n k from funext fun a => Fin.ext (by match a with | ⟨0, _⟩ => rfl | ⟨1, _⟩ => rfl), show ridx_main_v110 (ix2 n j) k = ix2 k j from funext fun a => Fin.ext (by match a with | ⟨0, _⟩ => rfl | ⟨1, _⟩ => rfl)]
  rw [e1, e2]
  generalize val_main_v86 (F := Ideal) x0 e x2 x3 x4 x5 x6 x7 x8 x9 x10 x11 x12 x13 x14 x15 = h
  rfl

/-- The third layer's result stage is the third hidden table: `layerAt` of the second hidden table and its mean, plus
    that table itself. -/
theorem layer3_eq (x0 : (⟨S100000x128, .f32⟩ : BufTy).Contents (Elt Ideal)) (e : Edges) (x2 : (⟨S128x128, .f32⟩ : BufTy).Contents (Elt Ideal)) (x3 : (⟨S128, .f32⟩ : BufTy).Contents (Elt Ideal)) (x4 : (⟨S128x128, .f32⟩ : BufTy).Contents (Elt Ideal)) (x5 x6 x7 x8 : (⟨S128, .f32⟩ : BufTy).Contents (Elt Ideal)) (x9 : (⟨S128x128, .f32⟩ : BufTy).Contents (Elt Ideal)) (x10 : (⟨S128, .f32⟩ : BufTy).Contents (Elt Ideal)) (x11 : (⟨S128x128, .f32⟩ : BufTy).Contents (Elt Ideal)) (x12 x13 x14 x15 : (⟨S128, .f32⟩ : BufTy).Contents (Elt Ideal)) (x16 : (⟨S128x128, .f32⟩ : BufTy).Contents (Elt Ideal)) (x17 : (⟨S128, .f32⟩ : BufTy).Contents (Elt Ideal)) (x18 : (⟨S128x128, .f32⟩ : BufTy).Contents (Elt Ideal)) (x19 x20 x21 x22 : (⟨S128, .f32⟩ : BufTy).Contents (Elt Ideal)) :
    val_main_v128 (F := Ideal) x0 e x2 x3 x4 x5 x6 x7 x8 x9 x10 x11 x12 x13 x14 x15 x16 x17 x18 x19 x20 x21 x22 = hidden3 x0 e x2 x3 x4 x5 x6 x7 x8 x9 x10 x11 x12 x13 x14 x15 x16 x17 x18 x19 x20 x21 x22 := by
  unfold hidden3
  rw [← layer2_eq]
  funext i
  obtain ⟨n, j, rfl⟩ : ∃ (n : Fin 100000) (j : Fin 128), i = ix2 n j := ⟨i 0, i 1, eq_ix2 i⟩
  rw [val_main_v128_apply, core3]
  generalize val_main_v86 (F := Ideal) x0 e x2 x3 x4 x5 x6 x7 x8 x9 x10 x11 x12 x13 x14 x15 = h
  rfl

/-- The reference program's result stage is the network. -/
theorem ref_net (x0 : (⟨S100000x128, .f32⟩ : BufTy).Contents (Elt Ideal)) (e : Edges) (x2 : (⟨S128x128, .f32⟩ : BufTy).Contents (Elt Ideal)) (x3 : (⟨S128, .f32⟩ : BufTy).Contents (Elt Ideal)) (x4 : (⟨S128x128, .f32⟩ : BufTy).Contents (Elt Ideal)) (x5 x6 x7 x8 : (⟨S128, .f32⟩ : BufTy).Contents (Elt Ideal)) (x9 : (⟨S128x128, .f32⟩ : BufTy).Contents (Elt Ideal)) (x10 : (⟨S128, .f32⟩ : BufTy).Contents (Elt Ideal)) (x11 : (⟨S128x128, .f32⟩ : BufTy).Contents (Elt Ideal)) (x12 x13 x14 x15 : (⟨S128, .f32⟩ : BufTy).Contents (Elt Ideal)) (x16 : (⟨S128x128, .f32⟩ : BufTy).Contents (Elt Ideal)) (x17 : (⟨S128, .f32⟩ : BufTy).Contents (Elt Ideal)) (x18 : (⟨S128x128, .f32⟩ : BufTy).Contents (Elt Ideal)) (x19 x20 x21 x22 : (⟨S128, .f32⟩ : BufTy).Contents (Elt Ideal)) (x23 : (⟨S128x64, .f32⟩ : BufTy).Contents (Elt Ideal)) (x24 : (⟨S64, .f32⟩ : BufTy).Contents (Elt Ideal)) :
    val_main_v132 (F := Ideal) x0 e x2 x3 x4 x5 x6 x7 x8 x9 x10 x11 x12 x13 x14 x15 x16 x17 x18 x19 x20 x21 x22 x23 x24 = net x0 e x2 x3 x4 x5 x6 x7 x8 x9 x10 x11 x12 x13 x14 x15 x16 x17 x18 x19 x20 x21 x22 x23 x24 := by
  unfold net
  rw [← layer3_eq]
  funext i
  obtain ⟨n, j, rfl⟩ : ∃ (n : Fin 100000) (j : Fin 64), i = ix2 n j := ⟨i 0, i 1, eq_ix2 i⟩
  rw [val_main_v132_apply, val_main_v129_apply, val_main_v131_apply, val_main_v130_apply]
  have hb : idx_main_v130 (idx_main_v131 (ix2 n j)) = ix1 j := funext fun a => Fin.ext (by match a with | ⟨0, _⟩ => rfl)
  have e1 : (∑ k : Fin 128, (val_main_v128 (F := Ideal) x0 e x2 x3 x4 x5 x6 x7 x8 x9 x10 x11 x12 x13 x14 x15 x16 x17 x18 x19 x20 x21 x22) (lidx_main_v129 (ix2 n j) k) * x23 (ridx_main_v129 (ix2 n j) k))
      = ∑ k : Fin 128, (val_main_v128 (F := Ideal) x0 e x2 x3 x4 x5 x6 x7 x8 x9 x10 x11 x12 x13 x14 x15 x16 x17 x18 x19 x20 x21 x22) (ix2 n k) * x23 (ix2 k j) :=
    Finset.sum_congr rfl fun k _ => by
      rw [show lidx_main_v129 (ix2 n j) k = ix2 n k from funext fun a => Fin.ext (by match a with | ⟨0, _⟩ => rfl | ⟨1, _⟩ => rfl), show ridx_main_v129 (ix2 n j) k = ix2 k j from funext fun a => Fin.ext (by match a with | ⟨0, _⟩ => rfl | ⟨1, _⟩ => rfl)]
  rw [hb, e1]
  generalize val_main_v128 (F := Ideal) x0 e x2 x3 x4 x5 x6 x7 x8 x9 x10 x11 x12 x13 x14 x15 x16 x17 x18 x19 x20 x21 x22 = h
  rfl

end Cert.Sage.Reference

end
-- ==== Proof.lean ====
/-
  The certificate of the GraphSAGE forward pass: the tiled kernel program against the plain reference.

  Both programs compute the same network (Proof/Spec.lean, Proof/Net.lean): three message-passing layers — the mean of
  each node's in-neighbours through one weight matrix, the node itself through another, a bias, batch normalisation with
  running statistics, `relu`, and from the second layer on the layer's input added back — and a final projection.  The
  kernel program runs each layer as a call over ten blocks of 10000 nodes and keeps the gather and scatter-add of the
  neighbourhood sums on the host between the calls; the reference is one straight line of array operations.
    * Each call's output array is the layer function of its input arrays (Proof/Layer0 … Layer2, Proof/Projection).
    * Walking the kernel program's segments, its result buffer ends at `net` of the arguments (Proof/Boundaries over
      Proof/KernelRun).
    * The reference's result stage is `net` of the arguments (Proof/RefNet).
  The one difference in spelling is the mean: the calls multiply the neighbourhood sum by `1 / max(count, 1)`, the
  reference divides by `max(count, 1)`; these agree on the extended reals because the clamped count is never zero.
  No precondition on the inputs is used.  The three frames are the generated frame certificates (for the reference, its
  generated run with the result dropped), and the idealization rewrote nothing, so `preserves` is `True`.
-/
import proofs.«155787_j30477087932645_1_alg».proof.Defs
import proofs.«155787_j30477087932645_1_alg».proof.Proof.Gen.Kernel
import proofs.«155787_j30477087932645_1_alg».proof.Proof.Gen.KernelIdeal
import proofs.«155787_j30477087932645_1_alg».proof.Proof.Gen.ReferenceIdeal
import proofs.«155787_j30477087932645_1_alg».proof.Proof.Gen.Pre_finite_inputs
import proofs.«155787_j30477087932645_1_alg».proof.Proof.GenP.Kernel.Frame
import proofs.«155787_j30477087932645_1_alg».proof.Proof.GenP.KernelIdeal.Frame
import proofs.«155787_j30477087932645_1_alg».proof.Proof.Gen.ReferenceIdeal.Run
import proofs.«155787_j30477087932645_1_alg».proof.Proof.Gen.ReferenceIdeal.Read
import proofs.«155787_j30477087932645_1_alg».proof.Proof.KernelRun
import proofs.«155787_j30477087932645_1_alg».proof.Proof.Boundaries
import proofs.«155787_j30477087932645_1_alg».proof.Proof.RefNet
import Idealize.ShloMosaic.Adequacy
import Idealize.ShloMosaic.Init

noncomputable section

namespace Cert.Proof

open Idealize.ShloMosaic Idealize.SL.Sem

/-- The word-level kernel program terminates without a fault and leaves its arguments unchanged. -/
theorem frame_kernel : Cert.frame_Kernel := fun m ρ _ => Cert.Kernel.GenP.frame m ρ

/-- So does the idealized kernel program. -/
theorem frame_kernelIdeal : Cert.frame_KernelIdeal := fun m ρ _ => Cert.KernelIdeal.GenP.frame m ρ

/-- So does the idealized reference: its run, with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

set_option maxHeartbeats 1000000 in
/-- From memories that agree on the arguments both idealized programs end with their result at the network of the
    arguments. -/
theorem algebraic : Cert.algebraic_KernelIdeal_ReferenceIdeal := by
  intro m ρ m' ρ' _ hagree
  refine ⟨fun c => Cert.Sage.net (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)), ?_, ?_⟩
  · exact (θ_run Cert.KernelIdeal.defs _ _).mono
      (fun _ h c => ⟨(h c).1.trans (Cert.KernelIdeal.Boundaries.result m ρ c), (h c).2⟩)
      (Cert.KernelIdeal.RunValue.run_result m ρ)
  · refine (θ_run Cert.ReferenceIdeal.defs _ _).mono (fun _ h c => ⟨?_, (h c).2⟩)
      (Cert.ReferenceIdeal.Value.run (F := Ideal) m' ρ')
    obtain ⟨a0, a1, a2, a3, a4, a5, a6, a7, a8, a9, a10, a11, a12, a13, a14, a15, a16, a17, a18, a19, a20, a21, a22, a23, a24⟩ := hagree c
    rw [(h c).1, Cert.ReferenceIdeal.Read.val_main_v132_eq, Cert.Sage.Reference.ref_net]
    simp only [a0, a1, a2, a3, a4, a5, a6, a7, a8, a9, a10, a11, a12, a13, a14, a15, a16, a17, a18, a19, a20, a21, a22, a23, a24]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
